-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x16 : Shape := ⟨2, ![256, 16]⟩
abbrev S16 : Shape := ⟨1, ![16]⟩
abbrev S48x64 : Shape := ⟨2, ![48, 64]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S48x64 : S_.BroadcastsInDim S48x64 (![] : Fin 0 → Fin S48x64.rank)
  reducesTo_S48x64_S_d0_1 : S48x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S16 .f32) (main_arg8 : FVec F S48x64 .f32) (main_arg9 : FVec F S64 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S48x64 .f32 := Host.absf main_arg8
  let main_cst_14 : FVec F S_ .f32 := constant S_ .f32 0x7F800000#32
  let main_v40 : FVec F S48x64 .f32 := broadcastInDim S48x64 ![] bcast_S_S48x64 main_cst_14
  let main_v41 : IVec S48x64 1 := cmpf .olt main_v39 main_v40
  let main_c_15 : IVec S_ 1 := constantI S_ 1 1#1
  let main_v42 : IVec S_ 1 := (fun x v => Host.reduce IntOp.andi x v reducesTo_S48x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S256x16 .f32) (main_arg5 : FVec F S16 .f32) (main_arg6 : FVec F S256x16 .f32) (main_arg7 : FVec F S16 .f32) (main_arg8 : FVec F S48x64 .f32) (main_arg9 : FVec F S64 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S256x16 .f32 := Host.absf main_arg4
  let main_cst_6 : FVec F S_ .f32 := constant S_ .f32 0x7F800000#32
  let main_v20 : FVec F S256x16 .f32 := broadcastInDim S256x16 ![] bcast_S_S256x16 main_cst_6
  let main_v21 : IVec S256x16 1 := cmpf .olt main_v19 main_v20
  let main_c_7 : IVec S_ 1 := constantI S_ 1 1#1
  let main_v22 : IVec S_ 1 := (fun x v => Host.reduce IntOp.andi x v reducesTo_S256x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S256x16 .f32 := Host.absf main_arg6
  let main_cst_10 : FVec F S_ .f32 := constant S_ .f32 0x7F800000#32
  let main_v30 : FVec F S256x16 .f32 := broadcastInDim S256x16 ![] bcast_S_S256x16 main_cst_10
  let main_v31 : IVec S256x16 1 := cmpf .olt main_v29 main_v30
  let main_c_11 : IVec S_ 1 := constantI S_ 1 1#1
  let main_v32 : IVec S_ 1 := (fun x v => Host.reduce IntOp.andi x v reducesTo_S256x16_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x256 .f32) (main_arg1 : FVec F S10000x10000 .f32) (main_arg2 : FVec F S256x16 .f32) (main_arg3 : FVec F S16 .f32) (main_arg4 : FVec F S256x16 .f32) (main_arg5 : FVec F S16 .f32) (main_arg6 : FVec F S256x16 .f32) (main_arg7 : FVec F S16 .f32) (main_arg8 : FVec F S48x64 .f32) (main_arg9 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_v13 main_v16
-- ==== Kernel.lean ====
abbrev S10000x256 : Shape := ⟨2, ![10000, 256]⟩
abbrev S10000x10000 : Shape := ⟨2, ![10000, 10000]⟩
abbrev S256x16 : Shape := ⟨2, ![256, 16]⟩
abbrev S16 : Shape := ⟨1, ![16]⟩
abbrev S48x64 : Shape := ⟨2, ![48, 64]⟩
abbrev S64 : Shape := ⟨1, ![64]⟩
abbrev S256x48 : Shape := ⟨2, ![256, 48]⟩
abbrev S10000x48 : Shape := ⟨2, ![10000, 48]⟩
abbrev S2000x256 : Shape := ⟨2, ![2000, 256]⟩
abbrev S2000x48 : Shape := ⟨2, ![2000, 48]⟩
abbrev S200x10000 : Shape := ⟨2, ![200, 10000]⟩
abbrev S200x48 : Shape := ⟨2, ![200, 48]⟩
abbrev S10000x32 : Shape := ⟨2, ![10000, 32]⟩
abbrev S200x32 : Shape := ⟨2, ![200, 32]⟩
abbrev S10000x16 : Shape := ⟨2, ![10000, 16]⟩
abbrev S1x16 : Shape := ⟨2, ![1, 16]⟩
abbrev S16x64 : Shape := ⟨2, ![16, 64]⟩
abbrev S1x64 : Shape := ⟨2, ![1, 64]⟩
abbrev S10000x64 : Shape := ⟨2, ![10000, 64]⟩
abbrev S200x16 : Shape := ⟨2, ![200, 16]⟩
abbrev S200x64 : Shape := ⟨2, ![200, 64]⟩

abbrev nBuf : Space → Nat
  | .hbm => 29
  | .vmem => 33
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x16, .f32⟩
  | .hbm, ⟨3, _⟩ => ⟨S16, .f32⟩
  | .hbm, ⟨4, _⟩ => ⟨S256x16, .f32⟩
  | .hbm, ⟨5, _⟩ => ⟨S16, .f32⟩
  | .hbm, ⟨6, _⟩ => ⟨S256x16, .f32⟩
  | .hbm, ⟨7, _⟩ => ⟨S16, .f32⟩
  | .hbm, ⟨8, _⟩ => ⟨S48x64, .f32⟩
  | .hbm, ⟨9, _⟩ => ⟨S64, .f32⟩
  | .hbm, ⟨10, _⟩ => ⟨S256x48, .f32⟩
  | .hbm, ⟨11, _⟩ => ⟨S10000x48, .f32⟩
  | .hbm, ⟨12, _⟩ => ⟨S10000x48, .f32⟩
  | .hbm, ⟨13, _⟩ => ⟨S10000x10000, .bf16⟩
  | .hbm, ⟨14, _⟩ => ⟨S10000x32, .f32⟩
  | .hbm, ⟨15, _⟩ => ⟨S10000x32, .bf16⟩
  | .hbm, ⟨16, _⟩ => ⟨S10000x32, .f32⟩
  | .hbm, ⟨17, _⟩ => ⟨S10000x16, .f32⟩
  | .hbm, ⟨18, _⟩ => ⟨S10000x16, .f32⟩
  | .hbm, ⟨19, _⟩ => ⟨S10000x16, .f32⟩
  | .hbm, ⟨20, _⟩ => ⟨S10000x16, .bf16⟩
  | .hbm, ⟨21, _⟩ => ⟨S1x16, .f32⟩
  | .hbm, ⟨22, _⟩ => ⟨S1x16, .f32⟩
  | .hbm, ⟨23, _⟩ => ⟨S1x16, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S1x64, .f32⟩
  | .hbm, ⟨28, _⟩ => ⟨S10000x64, .f32⟩
  | .local _ .vmem, ⟨0, _⟩ => ⟨S2000x256, .f32⟩
  | .local _ .vmem, ⟨1, _⟩ => ⟨S2000x256, .f32⟩
  | .local _ .vmem, ⟨2, _⟩ => ⟨S256x48, .f32⟩
  | .local _ .vmem, ⟨3, _⟩ => ⟨S2000x48, .f32⟩
  | .local _ .vmem, ⟨4, _⟩ => ⟨S2000x48, .f32⟩
  | .local _ .vmem, ⟨5, _⟩ => ⟨S200x10000, .f32⟩
  | .local _ .vmem, ⟨6, _⟩ => ⟨S200x10000, .f32⟩
  | .local _ .vmem, ⟨7, _⟩ => ⟨S10000x48, .f32⟩
  | .local _ .vmem, ⟨8, _⟩ => ⟨S200x48, .f32⟩
  | .local _ .vmem, ⟨9, _⟩ => ⟨S200x48, .f32⟩
  | .local _ .vmem, ⟨10, _⟩ => ⟨S200x10000, .bf16⟩
  | .local _ .vmem, ⟨11, _⟩ => ⟨S200x10000, .bf16⟩
  | .local _ .vmem, ⟨12, _⟩ => ⟨S200x10000, .bf16⟩
  | .local _ .vmem, ⟨13, _⟩ => ⟨S200x10000, .bf16⟩
  | .local _ .vmem, ⟨14, _⟩ => ⟨S10000x32, .bf16⟩
  | .local _ .vmem, ⟨15, _⟩ => ⟨S200x32, .f32⟩
  | .local _ .vmem, ⟨16, _⟩ => ⟨S200x32, .f32⟩
  | .local _ .vmem, ⟨17, _⟩ => ⟨S200x10000, .bf16⟩
  | .local _ .vmem, ⟨18, _⟩ => ⟨S200x10000, .bf16⟩
  | .local _ .vmem, ⟨19, _⟩ => ⟨S10000x16, .bf16⟩
  | .local _ .vmem, ⟨20, _⟩ => ⟨S200x16, .f32⟩
  | .local _ .vmem, ⟨21, _⟩ => ⟨S200x16, .f32⟩
  | .local _ .vmem, ⟨22, _⟩ => ⟨S200x16, .f32⟩
  | .local _ .vmem, ⟨23, _⟩ => ⟨S200x16, .f32⟩
  | .local _ .vmem, ⟨24, _⟩ => ⟨S1x16, .f32⟩
  | .local _ .vmem, ⟨25, _⟩ => ⟨S1x16, .f32⟩
  | .local _ .vmem, ⟨26, _⟩ => ⟨S1x16, .f32⟩
  | .local _ .vmem, ⟨27, _⟩ => ⟨S16x64, .f32⟩
  | .local _ .vmem, ⟨28, _⟩ => ⟨S16x64, .f32⟩
  | .local _ .vmem, ⟨29, _⟩ => ⟨S16x64, .f32⟩
  | .local _ .vmem, ⟨30, _⟩ => ⟨S1x64, .f32⟩
  | .local _ .vmem, ⟨31, _⟩ => ⟨S200x64, .f32⟩
  | .local _ .vmem, ⟨32, _⟩ => ⟨S200x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg7_0 : Ref sig .tc := ⟨.vmem, 27, rfl⟩
abbrev cc3_stg8_0 : Ref sig .tc := ⟨.vmem, 28, rfl⟩
abbrev cc3_stg9_0 : Ref sig .tc := ⟨.vmem, 29, rfl⟩
abbrev cc3_stg10_0 : Ref sig .tc := ⟨.vmem, 30, rfl⟩
abbrev cc3_stg11_0 : Ref sig .tc := ⟨.vmem, 31, rfl⟩
abbrev cc3_stg11_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc3_sem4_0 : DmaSem sig := 24
abbrev cc3_sem5_0 : DmaSem sig := 25
abbrev cc3_sem6_0 : DmaSem sig := 26
abbrev cc3_sem7_0 : DmaSem sig := 27
abbrev cc3_sem8_0 : DmaSem sig := 28
abbrev cc3_sem9_0 : DmaSem sig := 29
abbrev cc3_sem10_0 : DmaSem sig := 30
abbrev cc3_sem11_0 : DmaSem sig := 31
abbrev cc3_sem11_1 : DmaSem sig := 32

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x10000 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S200x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S200x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S16x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S16x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S16x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S200x64 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  concatenates_S256x16_S256x16_S256x16_S256x48_d1 : Shape.Concatenates [S256x16, S256x16, S256x16] S256x48 1
  inb_S2000x256_S2000x256_0_0 : ∀ a, (![0, 0] : Fin 2 → Nat) a + S2000x256.size a ≤ S2000x256.size a
  h_S2000x256 : 0 < S2000x256.numel
  inb_S256x48_S256x48_0_0 : ∀ a, (![0, 0] : Fin 2 → Nat) a + S256x48.size a ≤ S256x48.size a
  h_S256x48 : 0 < S256x48.numel
  shapeCasts_S256x48_S256x48 : S256x48.ShapeCasts S256x48
  inb_S2000x48_S2000x48_0_0 : ∀ a, (![0, 0] : Fin 2 → Nat) a + S2000x48.size a ≤ S2000x48.size a
  h_S2000x48 : 0 < S2000x48.numel
  inb_S200x10000_S200x10000_0_0 : ∀ a, (![0, 0] : Fin 2 → Nat) a + S200x10000.size a ≤ S200x10000.size a
  h_S200x10000 : 0 < S200x10000.numel
  inb_S10000x48_S10000x48_0_0 : ∀ a, (![0, 0] : Fin 2 → Nat) a + S10000x48.size a ≤ S10000x48.size a
  h_S10000x48 : 0 < S10000x48.numel
  shapeCasts_S10000x48_S10000x48 : S10000x48.ShapeCasts S10000x48
  inb_S200x48_S200x48_0_0 : ∀ a, (![0, 0] : Fin 2 → Nat) a + S200x48.size a ≤ S200x48.size a
  h_S200x48 : 0 < S200x48.numel
  bitsLt_bf16_f32 : FTy.bits .bf16 < FTy.bits .f32
  packedbf16_S200x10000_S200x10000_0_0 : (Rect.unit (s := S200x10000) ![0, 0] S200x10000.size inb_S200x10000_S200x10000_0_0).PackedRows (EltTy.packing .bf16)
  slices_S10000x48_S10000x32_0_16 : S10000x48.Slices ![0, 16] S10000x32
  shapeCasts_S200x10000_S200x10000 : S200x10000.ShapeCasts S200x10000
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S200x32_S200x32_0_0 : ∀ a, (![0, 0] : Fin 2 → Nat) a + S200x32.size a ≤ S200x32.size a
  h_S200x32 : 0 < S200x32.numel
  slices_S10000x48_S10000x16_0_0 : S10000x48.Slices ![0, 0] S10000x16
  slices_S10000x32_S10000x16_0_0 : S10000x32.Slices ![0, 0] S10000x16
  slices_S10000x32_S10000x16_0_16 : S10000x32.Slices ![0, 16] S10000x16
  shapeCasts_S16_S1x16 : S16.ShapeCasts S1x16
  slices_S48x64_S16x64_0_0 : S48x64.Slices ![0, 0] S16x64
  slices_S48x64_S16x64_16_0 : S48x64.Slices ![16, 0] S16x64
  slices_S48x64_S16x64_32_0 : S48x64.Slices ![32, 0] S16x64
  shapeCasts_S64_S1x64 : S64.ShapeCasts S1x64
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S200x16_S200x16_0_0 : ∀ a, (![0, 0] : Fin 2 → Nat) a + S200x16.size a ≤ S200x16.size a
  h_S200x16 : 0 < S200x16.numel
  shapeCasts_S200x16_S200x16 : S200x16.ShapeCasts S200x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S200x64_S200x64_0_0 : ∀ a, (![0, 0] : Fin 2 → Nat) a + S200x64.size a ≤ S200x64.size a
  h_S200x64 : 0 < S200x64.numel
  dot_S2000x256_S256x48_S2000x48_1_0_0_1_n_n_wf : DotDims.WF S2000x256 S256x48 S2000x48 [1] [0] [0] [1] [] []
  dot_S200x10000_S10000x48_S200x48_1_0_0_1_n_n_wf : DotDims.WF S200x10000 S10000x48 S200x48 [1] [0] [0] [1] [] []
  dot_S200x10000_S10000x32_S200x32_1_0_0_1_n_n_wf : DotDims.WF S200x10000 S10000x32 S200x32 [1] [0] [0] [1] [] []
  dot_S200x10000_S10000x16_S200x16_1_0_0_1_n_n_wf : DotDims.WF S200x10000 S10000x16 S200x16 [1] [0] [0] [1] [] []
  dot_S200x16_S16x64_S200x64_1_0_0_1_n_n_wf : DotDims.WF S200x16 S16x64 S200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x48.size a ≤ S256x48.size a
  hwx0_1 : ∀ i : grid0.Coords, EltTy.bits .f32 = 32 ∨ (Rect.block (s := S256x48) S256x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x48.size a ≤ S10000x48.size a
  hwx0_2 : ∀ i : grid0.Coords, EltTy.bits .f32 = 32 ∨ (Rect.block (s := S10000x48) S2000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x48.size a ≤ S10000x48.size a
  hwx1_1 : ∀ i : grid1.Coords, EltTy.bits .f32 = 32 ∨ (Rect.block (s := S10000x48) S10000x48.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x48.size a ≤ S10000x48.size a
  hwx1_2 : ∀ i : grid1.Coords, EltTy.bits .f32 = 32 ∨ (Rect.block (s := S10000x48) S200x48.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x10000.size a ≤ S10000x10000.size a
  hwx1_3 : ∀ i : grid1.Coords, EltTy.bits .bf16 = 32 ∨ (Rect.block (s := S10000x10000) S200x10000.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .bf16 = 32 ∨ (Rect.block (s := S10000x10000) S200x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .bf16 = 32 ∨ (Rect.block (s := S10000x32) S10000x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x32.size a ≤ S10000x32.size a
  hwx2_2 : ∀ i : grid2.Coords, EltTy.bits .f32 = 32 ∨ (Rect.block (s := S10000x32) S200x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .bf16 = 32 ∨ (Rect.block (s := S10000x10000) S200x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .bf16 = 32 ∨ (Rect.block (s := S10000x16) S10000x16.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S200x16.size a ≤ S10000x16.size a
  hwx3_2 : ∀ i : grid3.Coords, EltTy.bits .f32 = 32 ∨ (Rect.block (s := S10000x16) S200x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S200x16.size a ≤ S10000x16.size a
  hwx3_3 : ∀ i : grid3.Coords, EltTy.bits .f32 = 32 ∨ (Rect.block (s := S10000x16) S200x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x16.size a ≤ S1x16.size a
  hwx3_5 : ∀ i : grid3.Coords, EltTy.bits .f32 = 32 ∨ (Rect.block (s := S1x16) S1x16.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x16.size a ≤ S1x16.size a
  hwx3_6 : ∀ i : grid3.Coords, EltTy.bits .f32 = 32 ∨ (Rect.block (s := S1x16) S1x16.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S16x64.size a ≤ S16x64.size a
  hwx3_7 : ∀ i : grid3.Coords, EltTy.bits .f32 = 32 ∨ (Rect.block (s := S16x64) S16x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S16x64.size a ≤ S16x64.size a
  hwx3_8 : ∀ i : grid3.Coords, EltTy.bits .f32 = 32 ∨ (Rect.block (s := S16x64) S16x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S16x64.size a ≤ S16x64.size a
  hwx3_9 : ∀ i : grid3.Coords, EltTy.bits .f32 = 32 ∨ (Rect.block (s := S16x64) S16x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x64.size a ≤ S1x64.size a
  hwx3_10 : ∀ i : grid3.Coords, EltTy.bits .f32 = 32 ∨ (Rect.block (s := S1x64) S1x64.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S200x64.size a ≤ S10000x64.size a
  hwx3_11 : ∀ i : grid3.Coords, EltTy.bits .f32 = 32 ∨ (Rect.block (s := S10000x64) S200x64.size (cc3_transform_11 i) (hinb3_11 i)).WholeWords (EltTy.packing .f32)

variable [Facts₀]

def dot_S2000x256_S256x48_S2000x48_1_0_0_1_n_n : DotDims S2000x256 S256x48 S2000x48 where
  lhsContracting := [1]
  rhsContracting := [0]
  lhsNonContracting := [0]
  rhsNonContracting := [1]
  lhsBatch := []
  rhsBatch := []
  wf := dot_S2000x256_S256x48_S2000x48_1_0_0_1_n_n_wf
def dot_S200x10000_S10000x48_S200x48_1_0_0_1_n_n : DotDims S200x10000 S10000x48 S200x48 where
  lhsContracting := [1]
  rhsContracting := [0]
  lhsNonContracting := [0]
  rhsNonContracting := [1]
  lhsBatch := []
  rhsBatch := []
  wf := dot_S200x10000_S10000x48_S200x48_1_0_0_1_n_n_wf
def dot_S200x10000_S10000x32_S200x32_1_0_0_1_n_n : DotDims S200x10000 S10000x32 S200x32 where
  lhsContracting := [1]
  rhsContracting := [0]
  lhsNonContracting := [0]
  rhsNonContracting := [1]
  lhsBatch := []
  rhsBatch := []
  wf := dot_S200x10000_S10000x32_S200x32_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf
def dot_S200x16_S16x64_S200x64_1_0_0_1_n_n : DotDims S200x16 S16x64 S200x64 where
  lhsContracting := [1]
  rhsContracting := [0]
  lhsNonContracting := [0]
  rhsNonContracting := [1]
  lhsBatch := []
  rhsBatch := []
  wf := dot_S200x16_S16x64_S200x64_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S200x48.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S200x10000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2_1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S200x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v2_1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S200x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7) S200x16.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v10) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v11) S1x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v12) S1x16.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v13) S16x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v14) S16x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v15) S16x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v16) S1x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v17) S200x64.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x16 : Shape := ⟨2, ![256, 16]⟩
abbrev S16 : Shape := ⟨1, ![16]⟩
abbrev S48x64 : Shape := ⟨2, ![48, 64]⟩
abbrev S64 : Shape := ⟨1, ![64]⟩
abbrev S10000x16 : Shape := ⟨2, ![10000, 16]⟩
abbrev S1x16 : Shape := ⟨2, ![1, 16]⟩
abbrev S10000x48 : Shape := ⟨2, ![10000, 48]⟩
abbrev S_ : Shape := ⟨0, ![]⟩
abbrev S10000x64 : Shape := ⟨2, ![10000, 64]⟩
abbrev S1x64 : Shape := ⟨2, ![1, 64]⟩

abbrev nBuf : Space → Nat
  | .hbm => 44
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x16, .f32⟩
  | .hbm, ⟨3, _⟩ => ⟨S16, .f32⟩
  | .hbm, ⟨4, _⟩ => ⟨S256x16, .f32⟩
  | .hbm, ⟨5, _⟩ => ⟨S16, .f32⟩
  | .hbm, ⟨6, _⟩ => ⟨S256x16, .f32⟩
  | .hbm, ⟨7, _⟩ => ⟨S16, .f32⟩
  | .hbm, ⟨8, _⟩ => ⟨S48x64, .f32⟩
  | .hbm, ⟨9, _⟩ => ⟨S64, .f32⟩
  | .hbm, ⟨10, _⟩ => ⟨S10000x16, .f32⟩
  | .hbm, ⟨11, _⟩ => ⟨S10000x16, .f32⟩
  | .hbm, ⟨12, _⟩ => ⟨S1x16, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S10000x16, .f32⟩
  | .hbm, ⟨18, _⟩ => ⟨S1x16, .f32⟩
  | .hbm, ⟨19, _⟩ => ⟨S10000x16, .f32⟩
  | .hbm, ⟨20, _⟩ => ⟨S10000x16, .f32⟩
  | .hbm, ⟨21, _⟩ => ⟨S10000x16, .f32⟩
  | .hbm, ⟨22, _⟩ => ⟨S10000x16, .f32⟩
  | .hbm, ⟨23, _⟩ => ⟨S10000x16, .f32⟩
  | .hbm, ⟨24, _⟩ => ⟨S10000x16, .f32⟩
  | .hbm, ⟨25, _⟩ => ⟨S1x16, .f32⟩
  | .hbm, ⟨26, _⟩ => ⟨S10000x16, .f32⟩
  | .hbm, ⟨27, _⟩ => ⟨S10000x16, .f32⟩
  | .hbm, ⟨28, _⟩ => ⟨S10000x48, .f32⟩
  | .hbm, ⟨29, _⟩ => ⟨S_, .f32⟩
  | .hbm, ⟨30, _⟩ => ⟨S10000x48, .f32⟩
  | .hbm, ⟨31, _⟩ => ⟨S10000x48, .f32⟩
  | .hbm, ⟨32, _⟩ => ⟨S10000x64, .f32⟩
  | .hbm, ⟨33, _⟩ => ⟨S1x64, .f32⟩
  | .hbm, ⟨34, _⟩ => ⟨S10000x64, .f32⟩
  | .hbm, ⟨35, _⟩ => ⟨S10000x64, .f32⟩
  | .hbm, ⟨36, _⟩ => ⟨S10000x64, .f32⟩
  | .hbm, ⟨37, _⟩ => ⟨S10000x64, .f32⟩
  | .hbm, ⟨38, _⟩ => ⟨S_, .f32⟩
  | .hbm, ⟨39, _⟩ => ⟨S10000x64, .f32⟩
  | .hbm, ⟨40, _⟩ => ⟨S10000x64, .f32⟩
  | .hbm, ⟨41, _⟩ => ⟨S_, .f32⟩
  | .hbm, ⟨42, _⟩ => ⟨S10000x64, .f32⟩
  | .hbm, ⟨43, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_cst_0 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  concatenates_S10000x16_S10000x16_S10000x16_S10000x48_d1 : Shape.Concatenates [S10000x16, S10000x16, S10000x16] S10000x48 1
  bcast_S_S10000x48 : S_.BroadcastsInDim S10000x48 (![] : Fin 0 → Fin S10000x48.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x256_S256x16_S10000x16_1_0_0_1_n_n_wf : DotDims.WF S10000x256 S256x16 S10000x16 [1] [0] [0] [1] [] []
  dot_S10000x10000_S10000x16_S10000x16_1_0_0_1_n_n_wf : DotDims.WF S10000x10000 S10000x16 S10000x16 [1] [0] [0] [1] [] []
  dot_S10000x48_S48x64_S10000x64_1_0_0_1_n_n_wf : DotDims.WF S10000x48 S48x64 S10000x64 [1] [0] [0] [1] [] []

variable [Facts₀]

def dot_S10000x256_S256x16_S10000x16_1_0_0_1_n_n : DotDims S10000x256 S256x16 S10000x16 where
  lhsContracting := [1]
  rhsContracting := [0]
  lhsNonContracting := [0]
  rhsNonContracting := [1]
  lhsBatch := []
  rhsBatch := []
  wf := dot_S10000x256_S256x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x48_S48x64_S10000x64_1_0_0_1_n_n : DotDims S10000x48 S48x64 S10000x64 where
  lhsContracting := [1]
  rhsContracting := [0]
  lhsNonContracting := [0]
  rhsNonContracting := [1]
  lhsBatch := []
  rhsBatch := []
  wf := dot_S10000x48_S48x64_S10000x64_1_0_0_1_n_n_wf

class Facts : Prop extends Facts₀ where

variable [Facts]
-- ==== Proof.KbRegion0.lean ====
/-
  The first matrix product as a pipelined region: five row blocks of 2000 rows of the [10000, 256] features, each
  multiplied by the whole [256, 48] joined weight, each writing its 2000 rows of the [10000, 48] result.
  Stated at any contents `V` of the buffers at the region's entry and at any float instance: what a block of each
  window holds, what the body leaves in the result's staging buffer (its one store of the product), the body's
  triple, the pipeline's proof data and the body obligation at every grid point.
-/
import proofs.«168879_g60241211293926_cont_9to1_m_960_5_alg».proof.Proof.Gen.Kernel.Launch
import proofs.«168879_g60241211293926_cont_9to1_m_960_5_alg».proof.Proof.Gen.Kernel.Skeleton
import proofs.«168879_g60241211293926_cont_9to1_m_960_5_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles of the three staging buffers. -/
abbrev r0_a : Rect S2000x256 := Rect.unit (s := S2000x256) ![0, 0] S2000x256.size inb_S2000x256_S2000x256_0_0
abbrev r0_b : Rect S256x48 := Rect.unit (s := S256x48) ![0, 0] S256x48.size inb_S256x48_S256x48_0_0
abbrev r0_out : Rect S2000x48 := Rect.unit (s := S2000x48) ![0, 0] S2000x48.size inb_S2000x48_S2000x48_0_0

/-- The result's staging buffer after the body: the product of the two input blocks, stored whole. -/
def out0_2 (x0 : Vec F S2000x256 .f32) (x1 : Vec F S256x48 .f32) : Vec F S2000x48 .f32 :=
  View.canon [⟨r0_out, k0_pay1 (View.ld x0 r0_a) (View.ld x1 r0_b)⟩]

/-- The one store covers the buffer. -/
theorem cover0_2 (p0 : Vec F S2000x48 .f32) (y : S2000x48.Idx) :
    ∃ pc ∈ ([⟨r0_out, p0⟩] : List (View.Piece (Elt F) S2000x48 .f32)), y ∈ pc.1.set :=
  View.cover_of_tiled [⟨r0_out, p0⟩] S2000x48.size (by rfl) y

set_option maxHeartbeats 1000000 in
/-- The body on whole staging buffers, the inputs' at `x0`, `x1` and the result's at anything, leaves the inputs'
    as they were and the result's at `out0_2 x0 x1`. -/
theorem sound_kernel0 (c : Dev nD) (E : Set ℕ) (i : grid0.Coords) (arg1 : Memref sig .tc .vmem S2000x256 .f32) (harg1 : arg1.IsWhole) (arg2 : Memref sig .tc .vmem S256x48 .f32) (harg2 : arg2.IsWhole) (arg3 : Memref sig .tc .vmem S2000x48 .f32) (harg3 : arg3.IsWhole)
    (x0 : Vec F S2000x256 .f32) (x1 : Vec F S256x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input's buffer at its block and the result's at the product of the two blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KbRegion1.lean ====
/-
  The first propagation step as a pipelined region: fifty row blocks of 200 rows of the [10000, 10000] adjacency,
  each multiplied by the whole [10000, 48] table, each writing its 200 rows of the [10000, 48] result and, beside
  it, the same 200 adjacency rows converted to the narrow float format.  Stated at any contents `V` of the buffers
  at the region's entry and at any float instance.
-/
import proofs.«168879_g60241211293926_cont_9to1_m_960_5_alg».proof.Proof.Gen.Kernel.Launch
import proofs.«168879_g60241211293926_cont_9to1_m_960_5_alg».proof.Proof.Gen.Kernel.Skeleton
import proofs.«168879_g60241211293926_cont_9to1_m_960_5_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles of the staging buffers. -/
abbrev r1_a : Rect S200x10000 := Rect.unit (s := S200x10000) ![0, 0] S200x10000.size inb_S200x10000_S200x10000_0_0
abbrev r1_b : Rect S10000x48 := Rect.unit (s := S10000x48) ![0, 0] S10000x48.size inb_S10000x48_S10000x48_0_0
abbrev r1_out : Rect S200x48 := Rect.unit (s := S200x48) ![0, 0] S200x48.size inb_S200x48_S200x48_0_0

/-- The product's staging buffer after the body: the product of the two input blocks, stored whole. -/
def out1_2 (x0 : Vec F S200x10000 .f32) (x1 : Vec F S10000x48 .f32) : Vec F S200x48 .f32 :=
  View.canon [⟨r1_out, k1_pay1 (View.ld x0 r1_a) (View.ld x1 r1_b)⟩]

/-- The converted rows' staging buffer after the body: the adjacency block in the narrow format, stored whole. -/
def out1_3 (x0 : Vec F S200x10000 .f32) : Vec F S200x10000 .bf16 :=
  View.canon [⟨r1_a, k1_pay2 (View.ld x0 r1_a)⟩]

/-- Each store covers its buffer. -/
theorem cover1_2 (p0 : Vec F S200x48 .f32) (y : S200x48.Idx) :
    ∃ pc ∈ ([⟨r1_out, p0⟩] : List (View.Piece (Elt F) S200x48 .f32)), y ∈ pc.1.set :=
  View.cover_of_tiled [⟨r1_out, p0⟩] S200x48.size (by rfl) y
theorem cover1_3 (p0 : Vec F S200x10000 .bf16) (y : S200x10000.Idx) :
    ∃ pc ∈ ([⟨r1_a, p0⟩] : List (View.Piece (Elt F) S200x10000 .bf16)), y ∈ pc.1.set :=
  View.cover_of_tiled [⟨r1_a, p0⟩] S200x10000.size (by rfl) y

set_option maxHeartbeats 1000000 in
/-- The body on whole staging buffers, the inputs' at `x0`, `x1` and the results' at anything, leaves the inputs'
    as they were and the results' at `out1_2 x0 x1` and `out1_3 x0`. -/
theorem sound_kernel1 (c : Dev nD) (E : Set ℕ) (i : grid1.Coords) (arg1 : Memref sig .tc .vmem S200x10000 .f32) (harg1 : arg1.IsWhole) (arg2 : Memref sig .tc .vmem S10000x48 .f32) (harg2 : arg2.IsWhole) (arg3 : Memref sig .tc .vmem S200x48 .f32) (harg3 : arg3.IsWhole) (arg4 : Memref sig .tc .vmem S200x10000 .bf16) (harg4 : arg4.IsWhole)
    (x0 : Vec F S200x10000 .f32) (x1 : Vec F S10000x48 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0)) -∗ K ⟨⟩))
      ⊢ wp frame (wpE (defs₀ (F := F)) Variants.none c none) E (cc1__mm_cast_kernel i arg1 harg1 arg2 harg2 arg3 harg3 arg4 harg4) K := by
  simp only [cc1__mm_cast_kernel_eq_skeleton]; unfold cc1__mm_cast_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-- The pipeline's proof data on core `c`: the arrays as the region finds them; after the body at point `t` each
    input's buffer at its block, the product's at the product of the two blocks, the converted rows' at the
    adjacency block converted; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KbRegion2.lean ====
/-
  The second propagation step as a pipelined region: fifty row blocks of 200 rows of the [10000, 10000] adjacency
  (kept in the narrow float format), each multiplied by the whole [10000, 32] table, each writing its 200 rows of
  the [10000, 32] result.  Stated at any contents `V` of the buffers at the region's entry and at any float instance.
-/
import proofs.«168879_g60241211293926_cont_9to1_m_960_5_alg».proof.Proof.Gen.Kernel.Launch
import proofs.«168879_g60241211293926_cont_9to1_m_960_5_alg».proof.Proof.Gen.Kernel.Skeleton
import proofs.«168879_g60241211293926_cont_9to1_m_960_5_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole rectangles of the three staging buffers. -/
abbrev r2_a : Rect S200x10000 := Rect.unit (s := S200x10000) ![0, 0] S200x10000.size inb_S200x10000_S200x10000_0_0
abbrev r2_b : Rect S10000x32 := Rect.unit (s := S10000x32) ![0, 0] S10000x32.size inb_S10000x32_S10000x32_0_0
abbrev r2_out : Rect S200x32 := Rect.unit (s := S200x32) ![0, 0] S200x32.size inb_S200x32_S200x32_0_0

/-- The result's staging buffer after the body: the product of the two input blocks, stored whole. -/
def out2_2 (x0 : Vec F S200x10000 .bf16) (x1 : Vec F S10000x32 .bf16) : Vec F S200x32 .f32 :=
  View.canon [⟨r2_out, k2_pay1 (View.ld x0 r2_a) (View.ld x1 r2_b)⟩]

/-- The one store covers the buffer. -/
theorem cover2_2 (p0 : Vec F S200x32 .f32) (y : S200x32.Idx) :
    ∃ pc ∈ ([⟨r2_out, p0⟩] : List (View.Piece (Elt F) S200x32 .f32)), y ∈ pc.1.set :=
  View.cover_of_tiled [⟨r2_out, p0⟩] S200x32.size (by rfl) y

set_option maxHeartbeats 1000000 in
/-- The body on whole staging buffers, the inputs' at `x0`, `x1` and the result's at anything, leaves the inputs'
    as they were and the result's at `out2_2 x0 x1`. -/
theorem sound_kernel2 (c : Dev nD) (E : Set ℕ) (i : grid2.Coords) (arg1 : Memref sig .tc .vmem S200x10000 .bf16) (harg1 : arg1.IsWhole) (arg2 : Memref sig .tc .vmem S10000x32 .bf16) (harg2 : arg2.IsWhole) (arg3 : Memref sig .tc .vmem S200x32 .f32) (harg3 : arg3.IsWhole)
    (x0 : Vec F S200x10000 .bf16) (x1 : Vec F S10000x32 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__mm_kernel i arg1 harg1 arg2 harg2 arg3 harg3) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each
    input's buffer at its block and the result's at the product of the two blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.KbRegion3.lean ====
/-
  The last propagation step with the read-out as a pipelined region: fifty row blocks of 200 rows.  At each block
  the body multiplies the 200 adjacency rows by the whole [10000, 16] table (the third chain's last step), adds to
  this and to the block's rows of the first two chains' tables their bias rows, clamps the three at zero, multiplies
  each by its [16, 64] slice of the read-out weight, sums the three products in order, adds the read-out bias row and
  applies the logistic function; it stores the 200 result rows whole.  Stated at any contents `V` of the buffers at
  the region's entry and at any float instance.
-/
import proofs.«168879_g60241211293926_cont_9to1_m_960_5_alg».proof.Proof.Gen.Kernel.Launch
import proofs.«168879_g60241211293926_cont_9to1_m_960_5_alg».proof.Proof.Gen.Kernel.Skeleton
import proofs.«168879_g60241211293926_cont_9to1_m_960_5_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-- The whole rectangles of the staging buffers, one per shape. -/
abbrev r3_adj : Rect S200x10000 := Rect.unit (s := S200x10000) ![0, 0] S200x10000.size inb_S200x10000_S200x10000_0_0
abbrev r3_tab : Rect S10000x16 := Rect.unit (s := S10000x16) ![0, 0] S10000x16.size inb_S10000x16_S10000x16_0_0
abbrev r3_rows : Rect S200x16 := Rect.unit (s := S200x16) ![0, 0] S200x16.size inb_S200x16_S200x16_0_0
abbrev r3_bias : Rect S1x16 := Rect.unit (s := S1x16) ![0, 0] S1x16.size inb_S1x16_S1x16_0_0
abbrev r3_w : Rect S16x64 := Rect.unit (s := S16x64) ![0, 0] S16x64.size inb_S16x64_S16x64_0_0
abbrev r3_obias : Rect S1x64 := Rect.unit (s := S1x64) ![0, 0] S1x64.size inb_S1x64_S1x64_0_0
abbrev r3_out : Rect S200x64 := Rect.unit (s := S200x64) ![0, 0] S200x64.size inb_S200x64_S200x64_0_0

/-- The result's staging buffer after the body, from the eleven input blocks: its one store. -/
def out3_11 (x0 : Vec F S200x10000 .bf16) (x1 : Vec F S10000x16 .bf16) (x2 : Vec F S200x16 .f32) (x3 : Vec F S200x16 .f32)
    (x4 : Vec F S1x16 .f32) (x5 : Vec F S1x16 .f32) (x6 : Vec F S1x16 .f32)
    (x7 : Vec F S16x64 .f32) (x8 : Vec F S16x64 .f32) (x9 : Vec F S16x64 .f32) (x10 : Vec F S1x64 .f32) : Vec F S200x64 .f32 :=
  View.canon [⟨r3_out, k3_pay1 (k3_pay2 (View.ld x0 r3_adj) (View.ld x1 r3_tab) (View.ld x6 r3_bias))
    (k3_pay3 (View.ld x2 r3_rows) (View.ld x4 r3_bias) (View.ld x3 r3_rows) (View.ld x5 r3_bias) (View.ld x7 r3_w) (View.ld x8 r3_w))
    (View.ld x9 r3_w) (View.ld x10 r3_obias)⟩]

/-- The one store covers the buffer. -/
theorem cover3_11 (p0 : Vec F S200x64 .f32) (y : S200x64.Idx) :
    ∃ pc ∈ ([⟨r3_out, p0⟩] : List (View.Piece (Elt F) S200x64 .f32)), y ∈ pc.1.set :=
  View.cover_of_tiled [⟨r3_out, p0⟩] S200x64.size (by rfl) y

set_option maxHeartbeats 1000000 in
/-- The body on whole staging buffers, the inputs' at `x0 … x10` and the result's at anything, leaves the inputs'
    as they were and the result's at `out3_11` of them. -/
theorem sound_kernel3 (c : Dev nD) (E : Set ℕ) (i : grid3.Coords) (arg1 : Memref sig .tc .vmem S200x10000 .bf16) (harg1 : arg1.IsWhole) (arg2 : Memref sig .tc .vmem S10000x16 .bf16) (harg2 : arg2.IsWhole) (arg3 : Memref sig .tc .vmem S200x16 .f32) (harg3 : arg3.IsWhole) (arg4 : Memref sig .tc .vmem S200x16 .f32) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S16x64 .f32) (harg8 : arg8.IsWhole) (arg9 : Memref sig .tc .vmem S16x64 .f32) (harg9 : arg9.IsWhole) (arg10 : Memref sig .tc .vmem S16x64 .f32) (harg10 : arg10.IsWhole) (arg11 : Memref sig .tc .vmem S1x64 .f32) (harg11 : arg11.IsWhole) (arg12 : Memref sig .tc .vmem S200x64 .f32) (harg12 : arg12.IsWhole)
    (x0 : Vec F S200x10000 .bf16) (x1 : Vec F S10000x16 .bf16) (x2 : Vec F S200x16 .f32) (x3 : Vec F S200x16 .f32)
    (x4 : Vec F S1x16 .f32) (x5 : Vec F S1x16 .f32) (x6 : Vec F S1x16 .f32)
    (x7 : Vec F S16x64 .f32) (x8 : Vec F S16x64 .f32) (x9 : Vec F S16x64 .f32) (x10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6
        ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6
            ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (out3_11 x0 x1 x2 x3 x4 x5 x6 x7 x8 x9 x10)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8 arg9 harg9 arg10 harg10 arg11 harg11 arg12 harg12) K := by
  simp only [cc3__final_kernel_eq_skeleton]; unfold cc3__final_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover3_11 _)

/-- The pipeline's proof data on core `c`: the arrays as the region finds them; after the body at point `t` each
    input's buffer at its block and the result's at `out3_11` of the eleven blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

/-- The body at any point: the inputs' buffers hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.KbRun.lean ====
/-
  The whole program as a run of seven segments — a stretch of host operations, two regions, a stretch, a region, a
  stretch, a region — from the launch to the return.  The buffer contents at each boundary are a fold from the launch
  memory: a stretch applies its operations, a region rewrites its arrays with what its write-backs leave.  Every weakly
  fair execution terminates without fault in a state whose unscoped buffers hold the last boundary's contents; an
  argument array is written by no stretch and is no region's output, so the fold walks it back to the launch memory.
-/
import proofs.«168879_g60241211293926_cont_9to1_m_960_5_alg».proof.Proof.KbRegion0
import proofs.«168879_g60241211293926_cont_9to1_m_960_5_alg».proof.Proof.KbRegion1
import proofs.«168879_g60241211293926_cont_9to1_m_960_5_alg».proof.Proof.KbRegion2
import proofs.«168879_g60241211293926_cont_9to1_m_960_5_alg».proof.Proof.KbRegion3
import proofs.«168879_g60241211293926_cont_9to1_m_960_5_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first stretch (the joined weight): region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer that is no output array of region 0 leaves it as it entered: an input array is written back nowhere. -/
theorem W2_keep (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      cases hh : (cfg0.win w).isOut
      · rfl
      · exact absurd rfl (hb w hh)
    exact (W2_arr m ρ c w).trans (((dat0 (V1 m ρ) c).arrAt_in w hw _).trans (A_eq0 (V1 m ρ) c w))
  · exact W2_of_ne m ρ c b fun w e => h ⟨w, e⟩

/-- At region 1's exit: its arrays at what the pipeline leaves (the inputs as entered, each output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- A buffer that is no output array of region 1 leaves it as it entered: an input array is written back nowhere. -/
theorem W3_keep (c : Dev nD) (b : Ref sig .tc) (hb : ∀ w, (cfg1.win w).isOut = true → Pipeline.arrRef spec1 w ≠ b) :
    W3 m ρ c (Proc.devRef .tc b) = W2 m ρ c (Proc.devRef .tc b) := by
  by_cases h : ∃ w, Pipeline.arrRef spec1 w = b
  · obtain ⟨w, rfl⟩ := h
    have hw : (cfg1.win w).isOut = false := by
      cases hh : (cfg1.win w).isOut
      · rfl
      · exact absurd rfl (hb w hh)
    exact (W3_arr m ρ c w).trans (((dat1 (V2 m ρ) c).arrAt_in w hw _).trans (A_eq1 (V2 m ρ) c w))
  · exact W3_of_ne m ρ c b fun w e => h ⟨w, e⟩

/-- After the second stretch (the two later chains' columns of the first step, narrowed): region 2's entry. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the pipeline leaves (the inputs as entered, each output's write-backs
    folded), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- A buffer that is no output array of region 2 leaves it as it entered: an input array is written back nowhere. -/
theorem W5_keep (c : Dev nD) (b : Ref sig .tc) (hb : ∀ w, (cfg2.win w).isOut = true → Pipeline.arrRef spec2 w ≠ b) :
    W5 m ρ c (Proc.devRef .tc b) = W4 m ρ c (Proc.devRef .tc b) := by
  by_cases h : ∃ w, Pipeline.arrRef spec2 w = b
  · obtain ⟨w, rfl⟩ := h
    have hw : (cfg2.win w).isOut = false := by
      cases hh : (cfg2.win w).isOut
      · rfl
      · exact absurd rfl (hb w hh)
    exact (W5_arr m ρ c w).trans (((dat2 (V4 m ρ) c).arrAt_in w hw _).trans (A_eq2 (V4 m ρ) c w))
  · exact W5_of_ne m ρ c b fun w e => h ⟨w, e⟩

/-- After the third stretch (the chains' columns, the bias rows, the read-out weight's slices): region 3's entry. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b

/-- At region 3's exit: its arrays at what the pipeline leaves (the inputs as entered, each output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- A buffer that is no output array of region 3 leaves it as it entered: an input array is written back nowhere. -/
theorem W7_keep (c : Dev nD) (b : Ref sig .tc) (hb : ∀ w, (cfg3.win w).isOut = true → Pipeline.arrRef spec3 w ≠ b) :
    W7 m ρ c (Proc.devRef .tc b) = W6 m ρ c (Proc.devRef .tc b) := by
  by_cases h : ∃ w, Pipeline.arrRef spec3 w = b
  · obtain ⟨w, rfl⟩ := h
    have hw : (cfg3.win w).isOut = false := by
      cases hh : (cfg3.win w).isOut
      · rfl
      · exact absurd rfl (hb w hh)
    exact (W7_arr m ρ c w).trans (((dat3 (V6 m ρ) c).arrAt_in w hw _).trans (A_eq3 (V6 m ρ) c w))
  · exact W7_of_ne m ρ c b fun w e => h ⟨w, e⟩

/-- A buffer no stretch writes and no region puts out ends as launched. -/
theorem W7_kept (c : Dev nD) (b : Ref sig .tc) (h0 : b ∉ hostOps0_W) (h2 : b ∉ hostOps2_W) (h3 : b ∉ hostOps3_W)
    (o0 : ∀ w, (cfg0.win w).isOut = true → Pipeline.arrRef spec0 w ≠ b) (o1 : ∀ w, (cfg1.win w).isOut = true → Pipeline.arrRef spec1 w ≠ b)
    (o2 : ∀ w, (cfg2.win w).isOut = true → Pipeline.arrRef spec2 w ≠ b) (o3 : ∀ w, (cfg3.win w).isOut = true → Pipeline.arrRef spec3 w ≠ b) :
    W7 m ρ c (Proc.devRef .tc b) = m ((c : Thread nD τ).loc b) :=
  calc W7 m ρ c (Proc.devRef .tc b)
    _ = W6 m ρ c (Proc.devRef .tc b) := W7_keep m ρ c b o3
    _ = W5 m ρ c (Proc.devRef .tc b) := StableHlo.after_of_writes_sub hostOps3 _ hostOps3_writes h3
    _ = W4 m ρ c (Proc.devRef .tc b) := W5_keep m ρ c b o2
    _ = W3 m ρ c (Proc.devRef .tc b) := StableHlo.after_of_writes_sub hostOps2 _ hostOps2_writes h2
    _ = W2 m ρ c (Proc.devRef .tc b) := W3_keep m ρ c b o1
    _ = W1 m ρ c (Proc.devRef .tc b) := W2_keep m ρ c b o0
    _ = W0 m ρ c (Proc.devRef .tc b) := StableHlo.after_of_writes_sub hostOps0 _ hostOps0_writes h0
    _ = m ((c : Thread nD τ).loc b) := rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`.  Its arrays are
    split out of the unscoped buffers and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`.  Its arrays are
    split out of the unscoped buffers and put back at the exit contents; the generator register goes into the class
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`.  Its arrays are
    split out of the unscoped buffers and put back at the exit contents; the generator register goes into the class
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`.  Its arrays are
    split out of the unscoped buffers and put back at the exit contents; the generator register goes into the class
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds, in each unscoped buffer of each core, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W7_kept m ρ c main_arg0 (by decide) (by decide) (by decide) (by decide) (by decide) (by decide) (by decide)),
    (h c _ (mem_uc main_arg1 (by decide))).trans (W7_kept m ρ c main_arg1 (by decide) (by decide) (by decide) (by decide) (by decide) (by decide) (by decide)),
    (h c _ (mem_uc main_arg2 (by decide))).trans (W7_kept m ρ c main_arg2 (by decide) (by decide) (by decide) (by decide) (by decide) (by decide) (by decide)),
    (h c _ (mem_uc main_arg3 (by decide))).trans (W7_kept m ρ c main_arg3 (by decide) (by decide) (by decide) (by decide) (by decide) (by decide) (by decide)),
    (h c _ (mem_uc main_arg4 (by decide))).trans (W7_kept m ρ c main_arg4 (by decide) (by decide) (by decide) (by decide) (by decide) (by decide) (by decide)),
    (h c _ (mem_uc main_arg5 (by decide))).trans (W7_kept m ρ c main_arg5 (by decide) (by decide) (by decide) (by decide) (by decide) (by decide) (by decide)),
    (h c _ (mem_uc main_arg6 (by decide))).trans (W7_kept m ρ c main_arg6 (by decide) (by decide) (by decide) (by decide) (by decide) (by decide) (by decide)),
    (h c _ (mem_uc main_arg7 (by decide))).trans (W7_kept m ρ c main_arg7 (by decide) (by decide) (by decide) (by decide) (by decide) (by decide) (by decide)),
    (h c _ (mem_uc main_arg8 (by decide))).trans (W7_kept m ρ c main_arg8 (by decide) (by decide) (by decide) (by decide) (by decide) (by decide) (by decide)),
    (h c _ (mem_uc main_arg9 (by decide))).trans (W7_kept m ρ c main_arg9 (by decide) (by decide) (by decide) (by decide) (by decide) (by decide) (by decide))⟩) (run_all m ρ)

end Cert.Kernel.Frame

end
-- ==== Proof.KiRegion0.lean ====
/-
  The first matrix product as a pipelined region: five row blocks of 2000 rows of the [10000, 256] features, each
  multiplied by the whole [256, 48] joined weight, each writing its 2000 rows of the [10000, 48] result.
  Stated at any contents `V` of the buffers at the region's entry and at any float instance: what a block of each
  window holds, what the body leaves in the result's staging buffer (its one store of the product), the body's
  triple, the pipeline's proof data and the body obligation at every grid point.
-/
import proofs.«168879_g60241211293926_cont_9to1_m_960_5_alg».proof.Proof.Gen.KernelIdeal.Launch
import proofs.«168879_g60241211293926_cont_9to1_m_960_5_alg».proof.Proof.Gen.KernelIdeal.Skeleton
import proofs.«168879_g60241211293926_cont_9to1_m_960_5_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles of the three staging buffers. -/
abbrev r0_a : Rect S2000x256 := Rect.unit (s := S2000x256) ![0, 0] S2000x256.size inb_S2000x256_S2000x256_0_0
abbrev r0_b : Rect S256x48 := Rect.unit (s := S256x48) ![0, 0] S256x48.size inb_S256x48_S256x48_0_0
abbrev r0_out : Rect S2000x48 := Rect.unit (s := S2000x48) ![0, 0] S2000x48.size inb_S2000x48_S2000x48_0_0

/-- The result's staging buffer after the body: the product of the two input blocks, stored whole. -/
def out0_2 (x0 : Vec F S2000x256 .f32) (x1 : Vec F S256x48 .f32) : Vec F S2000x48 .f32 :=
  View.canon [⟨r0_out, k0_pay1 (View.ld x0 r0_a) (View.ld x1 r0_b)⟩]

/-- The one store covers the buffer. -/
theorem cover0_2 (p0 : Vec F S2000x48 .f32) (y : S2000x48.Idx) :
    ∃ pc ∈ ([⟨r0_out, p0⟩] : List (View.Piece (Elt F) S2000x48 .f32)), y ∈ pc.1.set :=
  View.cover_of_tiled [⟨r0_out, p0⟩] S2000x48.size (by rfl) y

set_option maxHeartbeats 1000000 in
/-- The body on whole staging buffers, the inputs' at `x0`, `x1` and the result's at anything, leaves the inputs'
    as they were and the result's at `out0_2 x0 x1`. -/
theorem sound_kernel0 (c : Dev nD) (E : Set ℕ) (i : grid0.Coords) (arg1 : Memref sig .tc .vmem S2000x256 .f32) (harg1 : arg1.IsWhole) (arg2 : Memref sig .tc .vmem S256x48 .f32) (harg2 : arg2.IsWhole) (arg3 : Memref sig .tc .vmem S2000x48 .f32) (harg3 : arg3.IsWhole)
    (x0 : Vec F S2000x256 .f32) (x1 : Vec F S256x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input's buffer at its block and the result's at the product of the two blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KiRegion1.lean ====
/-
  The first propagation step as a pipelined region: fifty row blocks of 200 rows of the [10000, 10000] adjacency,
  each multiplied by the whole [10000, 48] table, each writing its 200 rows of the [10000, 48] result and, beside
  it, the same 200 adjacency rows converted to the narrow float format.  Stated at any contents `V` of the buffers
  at the region's entry and at any float instance.
-/
import proofs.«168879_g60241211293926_cont_9to1_m_960_5_alg».proof.Proof.Gen.KernelIdeal.Launch
import proofs.«168879_g60241211293926_cont_9to1_m_960_5_alg».proof.Proof.Gen.KernelIdeal.Skeleton
import proofs.«168879_g60241211293926_cont_9to1_m_960_5_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles of the staging buffers. -/
abbrev r1_a : Rect S200x10000 := Rect.unit (s := S200x10000) ![0, 0] S200x10000.size inb_S200x10000_S200x10000_0_0
abbrev r1_b : Rect S10000x48 := Rect.unit (s := S10000x48) ![0, 0] S10000x48.size inb_S10000x48_S10000x48_0_0
abbrev r1_out : Rect S200x48 := Rect.unit (s := S200x48) ![0, 0] S200x48.size inb_S200x48_S200x48_0_0

/-- The product's staging buffer after the body: the product of the two input blocks, stored whole. -/
def out1_2 (x0 : Vec F S200x10000 .f32) (x1 : Vec F S10000x48 .f32) : Vec F S200x48 .f32 :=
  View.canon [⟨r1_out, k1_pay1 (View.ld x0 r1_a) (View.ld x1 r1_b)⟩]

/-- The converted rows' staging buffer after the body: the adjacency block in the narrow format, stored whole. -/
def out1_3 (x0 : Vec F S200x10000 .f32) : Vec F S200x10000 .bf16 :=
  View.canon [⟨r1_a, k1_pay2 (View.ld x0 r1_a)⟩]

/-- Each store covers its buffer. -/
theorem cover1_2 (p0 : Vec F S200x48 .f32) (y : S200x48.Idx) :
    ∃ pc ∈ ([⟨r1_out, p0⟩] : List (View.Piece (Elt F) S200x48 .f32)), y ∈ pc.1.set :=
  View.cover_of_tiled [⟨r1_out, p0⟩] S200x48.size (by rfl) y
theorem cover1_3 (p0 : Vec F S200x10000 .bf16) (y : S200x10000.Idx) :
    ∃ pc ∈ ([⟨r1_a, p0⟩] : List (View.Piece (Elt F) S200x10000 .bf16)), y ∈ pc.1.set :=
  View.cover_of_tiled [⟨r1_a, p0⟩] S200x10000.size (by rfl) y

set_option maxHeartbeats 1000000 in
/-- The body on whole staging buffers, the inputs' at `x0`, `x1` and the results' at anything, leaves the inputs'
    as they were and the results' at `out1_2 x0 x1` and `out1_3 x0`. -/
theorem sound_kernel1 (c : Dev nD) (E : Set ℕ) (i : grid1.Coords) (arg1 : Memref sig .tc .vmem S200x10000 .f32) (harg1 : arg1.IsWhole) (arg2 : Memref sig .tc .vmem S10000x48 .f32) (harg2 : arg2.IsWhole) (arg3 : Memref sig .tc .vmem S200x48 .f32) (harg3 : arg3.IsWhole) (arg4 : Memref sig .tc .vmem S200x10000 .bf16) (harg4 : arg4.IsWhole)
    (x0 : Vec F S200x10000 .f32) (x1 : Vec F S10000x48 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0)) -∗ K ⟨⟩))
      ⊢ wp frame (wpE (defs₀ (F := F)) Variants.none c none) E (cc1__mm_cast_kernel i arg1 harg1 arg2 harg2 arg3 harg3 arg4 harg4) K := by
  simp only [cc1__mm_cast_kernel_eq_skeleton]; unfold cc1__mm_cast_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-- The pipeline's proof data on core `c`: the arrays as the region finds them; after the body at point `t` each
    input's buffer at its block, the product's at the product of the two blocks, the converted rows' at the
    adjacency block converted; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KiRegion2.lean ====
/-
  The second propagation step as a pipelined region: fifty row blocks of 200 rows of the [10000, 10000] adjacency
  (kept in the narrow float format), each multiplied by the whole [10000, 32] table, each writing its 200 rows of
  the [10000, 32] result.  Stated at any contents `V` of the buffers at the region's entry and at any float instance.
-/
import proofs.«168879_g60241211293926_cont_9to1_m_960_5_alg».proof.Proof.Gen.KernelIdeal.Launch
import proofs.«168879_g60241211293926_cont_9to1_m_960_5_alg».proof.Proof.Gen.KernelIdeal.Skeleton
import proofs.«168879_g60241211293926_cont_9to1_m_960_5_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole rectangles of the three staging buffers. -/
abbrev r2_a : Rect S200x10000 := Rect.unit (s := S200x10000) ![0, 0] S200x10000.size inb_S200x10000_S200x10000_0_0
abbrev r2_b : Rect S10000x32 := Rect.unit (s := S10000x32) ![0, 0] S10000x32.size inb_S10000x32_S10000x32_0_0
abbrev r2_out : Rect S200x32 := Rect.unit (s := S200x32) ![0, 0] S200x32.size inb_S200x32_S200x32_0_0

/-- The result's staging buffer after the body: the product of the two input blocks, stored whole. -/
def out2_2 (x0 : Vec F S200x10000 .bf16) (x1 : Vec F S10000x32 .bf16) : Vec F S200x32 .f32 :=
  View.canon [⟨r2_out, k2_pay1 (View.ld x0 r2_a) (View.ld x1 r2_b)⟩]

/-- The one store covers the buffer. -/
theorem cover2_2 (p0 : Vec F S200x32 .f32) (y : S200x32.Idx) :
    ∃ pc ∈ ([⟨r2_out, p0⟩] : List (View.Piece (Elt F) S200x32 .f32)), y ∈ pc.1.set :=
  View.cover_of_tiled [⟨r2_out, p0⟩] S200x32.size (by rfl) y

set_option maxHeartbeats 1000000 in
/-- The body on whole staging buffers, the inputs' at `x0`, `x1` and the result's at anything, leaves the inputs'
    as they were and the result's at `out2_2 x0 x1`. -/
theorem sound_kernel2 (c : Dev nD) (E : Set ℕ) (i : grid2.Coords) (arg1 : Memref sig .tc .vmem S200x10000 .bf16) (harg1 : arg1.IsWhole) (arg2 : Memref sig .tc .vmem S10000x32 .bf16) (harg2 : arg2.IsWhole) (arg3 : Memref sig .tc .vmem S200x32 .f32) (harg3 : arg3.IsWhole)
    (x0 : Vec F S200x10000 .bf16) (x1 : Vec F S10000x32 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__mm_kernel i arg1 harg1 arg2 harg2 arg3 harg3) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each
    input's buffer at its block and the result's at the product of the two blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KiRegion3.lean ====
/-
  The last propagation step with the read-out as a pipelined region: fifty row blocks of 200 rows.  At each block
  the body multiplies the 200 adjacency rows by the whole [10000, 16] table (the third chain's last step), adds to
  this and to the block's rows of the first two chains' tables their bias rows, clamps the three at zero, multiplies
  each by its [16, 64] slice of the read-out weight, sums the three products in order, adds the read-out bias row and
  applies the logistic function; it stores the 200 result rows whole.  Stated at any contents `V` of the buffers at
  the region's entry and at any float instance.
-/
import proofs.«168879_g60241211293926_cont_9to1_m_960_5_alg».proof.Proof.Gen.KernelIdeal.Launch
import proofs.«168879_g60241211293926_cont_9to1_m_960_5_alg».proof.Proof.Gen.KernelIdeal.Skeleton
import proofs.«168879_g60241211293926_cont_9to1_m_960_5_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-- The whole rectangles of the staging buffers, one per shape. -/
abbrev r3_adj : Rect S200x10000 := Rect.unit (s := S200x10000) ![0, 0] S200x10000.size inb_S200x10000_S200x10000_0_0
abbrev r3_tab : Rect S10000x16 := Rect.unit (s := S10000x16) ![0, 0] S10000x16.size inb_S10000x16_S10000x16_0_0
abbrev r3_rows : Rect S200x16 := Rect.unit (s := S200x16) ![0, 0] S200x16.size inb_S200x16_S200x16_0_0
abbrev r3_bias : Rect S1x16 := Rect.unit (s := S1x16) ![0, 0] S1x16.size inb_S1x16_S1x16_0_0
abbrev r3_w : Rect S16x64 := Rect.unit (s := S16x64) ![0, 0] S16x64.size inb_S16x64_S16x64_0_0
abbrev r3_obias : Rect S1x64 := Rect.unit (s := S1x64) ![0, 0] S1x64.size inb_S1x64_S1x64_0_0
abbrev r3_out : Rect S200x64 := Rect.unit (s := S200x64) ![0, 0] S200x64.size inb_S200x64_S200x64_0_0

/-- The result's staging buffer after the body, from the eleven input blocks: its one store. -/
def out3_11 (x0 : Vec F S200x10000 .bf16) (x1 : Vec F S10000x16 .bf16) (x2 : Vec F S200x16 .f32) (x3 : Vec F S200x16 .f32)
    (x4 : Vec F S1x16 .f32) (x5 : Vec F S1x16 .f32) (x6 : Vec F S1x16 .f32)
    (x7 : Vec F S16x64 .f32) (x8 : Vec F S16x64 .f32) (x9 : Vec F S16x64 .f32) (x10 : Vec F S1x64 .f32) : Vec F S200x64 .f32 :=
  View.canon [⟨r3_out, k3_pay1 (k3_pay2 (View.ld x0 r3_adj) (View.ld x1 r3_tab) (View.ld x6 r3_bias))
    (k3_pay3 (View.ld x2 r3_rows) (View.ld x4 r3_bias) (View.ld x3 r3_rows) (View.ld x5 r3_bias) (View.ld x7 r3_w) (View.ld x8 r3_w))
    (View.ld x9 r3_w) (View.ld x10 r3_obias)⟩]

/-- The one store covers the buffer. -/
theorem cover3_11 (p0 : Vec F S200x64 .f32) (y : S200x64.Idx) :
    ∃ pc ∈ ([⟨r3_out, p0⟩] : List (View.Piece (Elt F) S200x64 .f32)), y ∈ pc.1.set :=
  View.cover_of_tiled [⟨r3_out, p0⟩] S200x64.size (by rfl) y

set_option maxHeartbeats 1000000 in
/-- The body on whole staging buffers, the inputs' at `x0 … x10` and the result's at anything, leaves the inputs'
    as they were and the result's at `out3_11` of them. -/
theorem sound_kernel3 (c : Dev nD) (E : Set ℕ) (i : grid3.Coords) (arg1 : Memref sig .tc .vmem S200x10000 .bf16) (harg1 : arg1.IsWhole) (arg2 : Memref sig .tc .vmem S10000x16 .bf16) (harg2 : arg2.IsWhole) (arg3 : Memref sig .tc .vmem S200x16 .f32) (harg3 : arg3.IsWhole) (arg4 : Memref sig .tc .vmem S200x16 .f32) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S16x64 .f32) (harg8 : arg8.IsWhole) (arg9 : Memref sig .tc .vmem S16x64 .f32) (harg9 : arg9.IsWhole) (arg10 : Memref sig .tc .vmem S16x64 .f32) (harg10 : arg10.IsWhole) (arg11 : Memref sig .tc .vmem S1x64 .f32) (harg11 : arg11.IsWhole) (arg12 : Memref sig .tc .vmem S200x64 .f32) (harg12 : arg12.IsWhole)
    (x0 : Vec F S200x10000 .bf16) (x1 : Vec F S10000x16 .bf16) (x2 : Vec F S200x16 .f32) (x3 : Vec F S200x16 .f32)
    (x4 : Vec F S1x16 .f32) (x5 : Vec F S1x16 .f32) (x6 : Vec F S1x16 .f32)
    (x7 : Vec F S16x64 .f32) (x8 : Vec F S16x64 .f32) (x9 : Vec F S16x64 .f32) (x10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6
        ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6
            ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (out3_11 x0 x1 x2 x3 x4 x5 x6 x7 x8 x9 x10)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8 arg9 harg9 arg10 harg10 arg11 harg11 arg12 harg12) K := by
  simp only [cc3__final_kernel_eq_skeleton]; unfold cc3__final_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover3_11 _)

/-- The pipeline's proof data on core `c`: the arrays as the region finds them; after the body at point `t` each
    input's buffer at its block and the result's at `out3_11` of the eleven blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

/-- The body at any point: the inputs' buffers hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KiRun.lean ====
/-
  The whole program as a run of seven segments — a stretch of host operations, two regions, a stretch, a region, a
  stretch, a region — from the launch to the return.  The buffer contents at each boundary are a fold from the launch
  memory: a stretch applies its operations, a region rewrites its arrays with what its write-backs leave.  Every weakly
  fair execution terminates without fault in a state whose unscoped buffers hold the last boundary's contents; an
  argument array is written by no stretch and is no region's output, so the fold walks it back to the launch memory.
-/
import proofs.«168879_g60241211293926_cont_9to1_m_960_5_alg».proof.Proof.KiRegion0
import proofs.«168879_g60241211293926_cont_9to1_m_960_5_alg».proof.Proof.KiRegion1
import proofs.«168879_g60241211293926_cont_9to1_m_960_5_alg».proof.Proof.KiRegion2
import proofs.«168879_g60241211293926_cont_9to1_m_960_5_alg».proof.Proof.KiRegion3
import proofs.«168879_g60241211293926_cont_9to1_m_960_5_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first stretch (the joined weight): region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer that is no output array of region 0 leaves it as it entered: an input array is written back nowhere. -/
theorem W2_keep (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      cases hh : (cfg0.win w).isOut
      · rfl
      · exact absurd rfl (hb w hh)
    exact (W2_arr m ρ c w).trans (((dat0 (V1 m ρ) c).arrAt_in w hw _).trans (A_eq0 (V1 m ρ) c w))
  · exact W2_of_ne m ρ c b fun w e => h ⟨w, e⟩

/-- At region 1's exit: its arrays at what the pipeline leaves (the inputs as entered, each output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- A buffer that is no output array of region 1 leaves it as it entered: an input array is written back nowhere. -/
theorem W3_keep (c : Dev nD) (b : Ref sig .tc) (hb : ∀ w, (cfg1.win w).isOut = true → Pipeline.arrRef spec1 w ≠ b) :
    W3 m ρ c (Proc.devRef .tc b) = W2 m ρ c (Proc.devRef .tc b) := by
  by_cases h : ∃ w, Pipeline.arrRef spec1 w = b
  · obtain ⟨w, rfl⟩ := h
    have hw : (cfg1.win w).isOut = false := by
      cases hh : (cfg1.win w).isOut
      · rfl
      · exact absurd rfl (hb w hh)
    exact (W3_arr m ρ c w).trans (((dat1 (V2 m ρ) c).arrAt_in w hw _).trans (A_eq1 (V2 m ρ) c w))
  · exact W3_of_ne m ρ c b fun w e => h ⟨w, e⟩

/-- After the second stretch (the two later chains' columns of the first step, narrowed): region 2's entry. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the pipeline leaves (the inputs as entered, each output's write-backs
    folded), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- A buffer that is no output array of region 2 leaves it as it entered: an input array is written back nowhere. -/
theorem W5_keep (c : Dev nD) (b : Ref sig .tc) (hb : ∀ w, (cfg2.win w).isOut = true → Pipeline.arrRef spec2 w ≠ b) :
    W5 m ρ c (Proc.devRef .tc b) = W4 m ρ c (Proc.devRef .tc b) := by
  by_cases h : ∃ w, Pipeline.arrRef spec2 w = b
  · obtain ⟨w, rfl⟩ := h
    have hw : (cfg2.win w).isOut = false := by
      cases hh : (cfg2.win w).isOut
      · rfl
      · exact absurd rfl (hb w hh)
    exact (W5_arr m ρ c w).trans (((dat2 (V4 m ρ) c).arrAt_in w hw _).trans (A_eq2 (V4 m ρ) c w))
  · exact W5_of_ne m ρ c b fun w e => h ⟨w, e⟩

/-- After the third stretch (the chains' columns, the bias rows, the read-out weight's slices): region 3's entry. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b

/-- At region 3's exit: its arrays at what the pipeline leaves (the inputs as entered, each output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- A buffer that is no output array of region 3 leaves it as it entered: an input array is written back nowhere. -/
theorem W7_keep (c : Dev nD) (b : Ref sig .tc) (hb : ∀ w, (cfg3.win w).isOut = true → Pipeline.arrRef spec3 w ≠ b) :
    W7 m ρ c (Proc.devRef .tc b) = W6 m ρ c (Proc.devRef .tc b) := by
  by_cases h : ∃ w, Pipeline.arrRef spec3 w = b
  · obtain ⟨w, rfl⟩ := h
    have hw : (cfg3.win w).isOut = false := by
      cases hh : (cfg3.win w).isOut
      · rfl
      · exact absurd rfl (hb w hh)
    exact (W7_arr m ρ c w).trans (((dat3 (V6 m ρ) c).arrAt_in w hw _).trans (A_eq3 (V6 m ρ) c w))
  · exact W7_of_ne m ρ c b fun w e => h ⟨w, e⟩

/-- A buffer no stretch writes and no region puts out ends as launched. -/
theorem W7_kept (c : Dev nD) (b : Ref sig .tc) (h0 : b ∉ hostOps0_W) (h2 : b ∉ hostOps2_W) (h3 : b ∉ hostOps3_W)
    (o0 : ∀ w, (cfg0.win w).isOut = true → Pipeline.arrRef spec0 w ≠ b) (o1 : ∀ w, (cfg1.win w).isOut = true → Pipeline.arrRef spec1 w ≠ b)
    (o2 : ∀ w, (cfg2.win w).isOut = true → Pipeline.arrRef spec2 w ≠ b) (o3 : ∀ w, (cfg3.win w).isOut = true → Pipeline.arrRef spec3 w ≠ b) :
    W7 m ρ c (Proc.devRef .tc b) = m ((c : Thread nD τ).loc b) :=
  calc W7 m ρ c (Proc.devRef .tc b)
    _ = W6 m ρ c (Proc.devRef .tc b) := W7_keep m ρ c b o3
    _ = W5 m ρ c (Proc.devRef .tc b) := StableHlo.after_of_writes_sub hostOps3 _ hostOps3_writes h3
    _ = W4 m ρ c (Proc.devRef .tc b) := W5_keep m ρ c b o2
    _ = W3 m ρ c (Proc.devRef .tc b) := StableHlo.after_of_writes_sub hostOps2 _ hostOps2_writes h2
    _ = W2 m ρ c (Proc.devRef .tc b) := W3_keep m ρ c b o1
    _ = W1 m ρ c (Proc.devRef .tc b) := W2_keep m ρ c b o0
    _ = W0 m ρ c (Proc.devRef .tc b) := StableHlo.after_of_writes_sub hostOps0 _ hostOps0_writes h0
    _ = m ((c : Thread nD τ).loc b) := rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`.  Its arrays are
    split out of the unscoped buffers and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`.  Its arrays are
    split out of the unscoped buffers and put back at the exit contents; the generator register goes into the class
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`.  Its arrays are
    split out of the unscoped buffers and put back at the exit contents; the generator register goes into the class
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`.  Its arrays are
    split out of the unscoped buffers and put back at the exit contents; the generator register goes into the class
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds, in each unscoped buffer of each core, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W7_kept m ρ c main_arg0 (by decide) (by decide) (by decide) (by decide) (by decide) (by decide) (by decide)),
    (h c _ (mem_uc main_arg1 (by decide))).trans (W7_kept m ρ c main_arg1 (by decide) (by decide) (by decide) (by decide) (by decide) (by decide) (by decide)),
    (h c _ (mem_uc main_arg2 (by decide))).trans (W7_kept m ρ c main_arg2 (by decide) (by decide) (by decide) (by decide) (by decide) (by decide) (by decide)),
    (h c _ (mem_uc main_arg3 (by decide))).trans (W7_kept m ρ c main_arg3 (by decide) (by decide) (by decide) (by decide) (by decide) (by decide) (by decide)),
    (h c _ (mem_uc main_arg4 (by decide))).trans (W7_kept m ρ c main_arg4 (by decide) (by decide) (by decide) (by decide) (by decide) (by decide) (by decide)),
    (h c _ (mem_uc main_arg5 (by decide))).trans (W7_kept m ρ c main_arg5 (by decide) (by decide) (by decide) (by decide) (by decide) (by decide) (by decide)),
    (h c _ (mem_uc main_arg6 (by decide))).trans (W7_kept m ρ c main_arg6 (by decide) (by decide) (by decide) (by decide) (by decide) (by decide) (by decide)),
    (h c _ (mem_uc main_arg7 (by decide))).trans (W7_kept m ρ c main_arg7 (by decide) (by decide) (by decide) (by decide) (by decide) (by decide) (by decide)),
    (h c _ (mem_uc main_arg8 (by decide))).trans (W7_kept m ρ c main_arg8 (by decide) (by decide) (by decide) (by decide) (by decide) (by decide) (by decide)),
    (h c _ (mem_uc main_arg9 (by decide))).trans (W7_kept m ρ c main_arg9 (by decide) (by decide) (by decide) (by decide) (by decide) (by decide) (by decide))⟩) (run_all m ρ)

end Cert.KernelIdeal.Frame

end
-- ==== Proof.LibJoin3.lean ====
/-
  Three arrays joined side by side.

  Three matrices with the same number of rows, joined along the column axis, read at (i, e): the first at column e while e
  is within its width, the second at e less the first's width, the third at e less the first two widths.
-/
import Idealize.ShloMosaic.Lib.ValueIdx
import Idealize.ShloMosaic.Lib.Pipeline.Value

noncomputable section

namespace Cert.Join3

open Idealize.ShloMosaic Idealize.ShloMosaic.ValueIdx

variable {α : Type} {a p q r n : Nat}

/-- Within the first matrix's columns the join reads the first matrix. -/
theorem left (x : (⟨2, ![a, p]⟩ : Shape).Idx → α) (y : (⟨2, ![a, q]⟩ : Shape).Idx → α) (z : (⟨2, ![a, r]⟩ : Shape).Idx → α)
    (h : Shape.Concatenates [⟨2, ![a, p]⟩, ⟨2, ![a, q]⟩, ⟨2, ![a, r]⟩] ⟨2, ![a, n]⟩ 1)
    (i : Fin a) (e : Fin n) (e' : Fin p) (he : e.val = e'.val) :
    concatenate ⟨2, ![a, n]⟩ 1 [⟨⟨2, ![a, p]⟩, x⟩, ⟨⟨2, ![a, q]⟩, y⟩, ⟨⟨2, ![a, r]⟩, z⟩] h (ix2 i e) = x (ix2 i e') :=
  concatenate_apply_piece (t := ⟨2, ![a, n]⟩) 1 [⟨⟨2, ![a, p]⟩, x⟩, ⟨⟨2, ![a, q]⟩, y⟩, ⟨⟨2, ![a, r]⟩, z⟩] h (ix2 i e) 0 (by simp) ⟨2, ![a, p]⟩ x rfl rfl 0 rfl (ix2 i e')
    (fun b hb => by
      match b with
      | ⟨0, _⟩ => rfl
      | ⟨1, _⟩ => exact absurd rfl hb)
    (by show 0 + e'.val = e.val; omega)

/-- Past them, within the second's, it reads the second. -/
theorem mid (x : (⟨2, ![a, p]⟩ : Shape).Idx → α) (y : (⟨2, ![a, q]⟩ : Shape).Idx → α) (z : (⟨2, ![a, r]⟩ : Shape).Idx → α)
    (h : Shape.Concatenates [⟨2, ![a, p]⟩, ⟨2, ![a, q]⟩, ⟨2, ![a, r]⟩] ⟨2, ![a, n]⟩ 1)
    (i : Fin a) (e : Fin n) (e' : Fin q) (he : e.val = p + e'.val) :
    concatenate ⟨2, ![a, n]⟩ 1 [⟨⟨2, ![a, p]⟩, x⟩, ⟨⟨2, ![a, q]⟩, y⟩, ⟨⟨2, ![a, r]⟩, z⟩] h (ix2 i e) = y (ix2 i e') :=
  concatenate_apply_piece (t := ⟨2, ![a, n]⟩) 1 [⟨⟨2, ![a, p]⟩, x⟩, ⟨⟨2, ![a, q]⟩, y⟩, ⟨⟨2, ![a, r]⟩, z⟩] h (ix2 i e) 1 (by simp) ⟨2, ![a, q]⟩ y rfl rfl p (by simp) (ix2 i e')
    (fun b hb => by
      match b with
      | ⟨0, _⟩ => rfl
      | ⟨1, _⟩ => exact absurd rfl hb)
    (by show p + e'.val = e.val; omega)

/-- Past both it reads the third. -/
theorem right (x : (⟨2, ![a, p]⟩ : Shape).Idx → α) (y : (⟨2, ![a, q]⟩ : Shape).Idx → α) (z : (⟨2, ![a, r]⟩ : Shape).Idx → α)
    (h : Shape.Concatenates [⟨2, ![a, p]⟩, ⟨2, ![a, q]⟩, ⟨2, ![a, r]⟩] ⟨2, ![a, n]⟩ 1)
    (i : Fin a) (e : Fin n) (e' : Fin r) (he : e.val = p + q + e'.val) :
    concatenate ⟨2, ![a, n]⟩ 1 [⟨⟨2, ![a, p]⟩, x⟩, ⟨⟨2, ![a, q]⟩, y⟩, ⟨⟨2, ![a, r]⟩, z⟩] h (ix2 i e) = z (ix2 i e') :=
  concatenate_apply_piece (t := ⟨2, ![a, n]⟩) 1 [⟨⟨2, ![a, p]⟩, x⟩, ⟨⟨2, ![a, q]⟩, y⟩, ⟨⟨2, ![a, r]⟩, z⟩] h (ix2 i e) 2 (by simp) ⟨2, ![a, r]⟩ z rfl rfl (p + q) (by simp) (ix2 i e')
    (fun b hb => by
      match b with
      | ⟨0, _⟩ => rfl
      | ⟨1, _⟩ => exact absurd rfl hb)
    (by show p + q + e'.val = e.val; omega)

end Cert.Join3

end
-- ==== Proof.LibRowView.lean ====
/-
  A length-n vector viewed as a [1, n] row, read at one index.

  Reshaping a vector of n entries into one row of n entries moves nothing: entry (0, j) of the row is entry j of
  the vector, since both sit at position j of the row-major order.
-/
import Idealize.ShloMosaic.Lib.ValueIdx
import Idealize.ShloMosaic.Lib.Pipeline.Value

noncomputable section

namespace Cert.RowView

open Idealize.ShloMosaic Idealize.ShloMosaic.ValueIdx

variable {α : Type} {n : Nat}

/-- A length-`n` vector viewed as a `[1, n]` row reads, at (u, j), the vector at j. -/
theorem row_apply (x : (⟨1, ![n]⟩ : Shape).Idx → α) (h : (⟨1, ![n]⟩ : Shape).ShapeCasts ⟨2, ![1, n]⟩)
    (u : Fin 1) (j : Fin n) : shapeCast ⟨2, ![1, n]⟩ x h (ix2 u j) = x (ix1 j) :=
  shapeCast_apply x h _ _ (by
    have hu : u.val = 0 := by omega
    rw [Shape.rowMajor_val_one, Shape.rowMajor_val_two]
    show j.val = u.val * n + j.val
    rw [hu, Nat.zero_mul, Nat.zero_add])

end Cert.RowView

end
-- ==== Proof.LibSlice2.lean ====
/-
  A slice of a two-axis array, read at one entry.

  A unit-stride slice with offsets (o0, o1) of an [n, b] array is the [n', b'] array whose entry (i, j) is the operand's
  entry (o0 + i, o1 + j), for any element type and any extents for which the slice is well formed.
-/
import Idealize.ShloMosaic.Lib.ValueIdx
import Idealize.ShloMosaic.Lib.Pipeline.Value

noncomputable section

namespace Cert.Slice2

open Idealize.ShloMosaic Idealize.ShloMosaic.ValueIdx

/-- A two-axis slice read at (i, j): the operand at (o0 + i, o1 + j). -/
theorem slice2_apply {α : Type} {n b n' b' : Nat} (x : (⟨2, ![n, b]⟩ : Shape).Idx → α) (o0 o1 : Nat) (off : Fin 2 → Nat)
    (hoff : off = ![o0, o1]) (h : (⟨2, ![n, b]⟩ : Shape).Slices off ⟨2, ![n', b']⟩) (i : Fin n') (j : Fin b')
    (hi : o0 + i.val < n) (hj : o1 + j.val < b) :
    extractStridedSlice ⟨2, ![n', b']⟩ off x h (ix2 i j) = x (ix2 (⟨o0 + i.val, hi⟩ : Fin n) (⟨o1 + j.val, hj⟩ : Fin b)) := by
  subst hoff
  refine extractStridedSlice_apply _ x h _ _ fun a => ?_
  match a with
  | ⟨0, _⟩ => rfl
  | ⟨1, _⟩ => rfl

end Cert.Slice2

end
-- ==== Proof.KiFold.lean ====
/-
  What the host stretches between the regions put in the buffers the regions read, entry by entry, on the extended
  reals: the joined [256, 48] weight read in each of its thirds; columns 16–47 of the first propagation step narrowed;
  the column blocks of the first two steps; the bias vectors viewed as one-row arrays; the three 16-row slices of the
  read-out weight.  A format change is the identity here, a slice reads the operand shifted by its offsets, and a
  buffer a stretch does not write holds what it held before.
-/
import proofs.«168879_g60241211293926_cont_9to1_m_960_5_alg».proof.Proof.KiRun
import proofs.«168879_g60241211293926_cont_9to1_m_960_5_alg».proof.Proof.LibJoin3
import proofs.«168879_g60241211293926_cont_9to1_m_960_5_alg».proof.Proof.LibRowView
import proofs.«168879_g60241211293926_cont_9to1_m_960_5_alg».proof.Proof.LibSlice2
import Idealize.ShloMosaic.Lib.StableHlo.Run
import Idealize.ShloMosaic.Lib.Pipeline.Value
import Idealize.ShloMosaic.Lib.ValueIdx

set_option maxRecDepth 16384

noncomputable section

namespace Cert.KernelIdeal.Value

open Cert.KernelIdeal Cert.KernelIdeal.Gen Cert.KernelIdeal.Frame
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- A buffer that neither of the first two stretches writes and none of the first three regions puts out holds, when the
    last stretch starts, what it held at launch. -/
theorem W5_arg (b : Ref sig .tc) (h0 : b ∉ hostOps0_W) (h2 : b ∉ hostOps2_W)
    (o0 : ∀ w, (cfg0.win w).isOut = true → Pipeline.arrRef spec0 w ≠ b) (o1 : ∀ w, (cfg1.win w).isOut = true → Pipeline.arrRef spec1 w ≠ b)
    (o2 : ∀ w, (cfg2.win w).isOut = true → Pipeline.arrRef spec2 w ≠ b) :
    W5 (F := Ideal) m ρ c (Proc.devRef .tc b) = m ((c : Thread nD τ).loc b) :=
  calc W5 (F := Ideal) m ρ c (Proc.devRef .tc b)
    _ = W4 m ρ c (Proc.devRef .tc b) := W5_keep m ρ c b o2
    _ = W3 m ρ c (Proc.devRef .tc b) := StableHlo.after_of_writes_sub hostOps2 _ hostOps2_writes h2
    _ = W2 m ρ c (Proc.devRef .tc b) := W3_keep m ρ c b o1
    _ = W1 m ρ c (Proc.devRef .tc b) := W2_keep m ρ c b o0
    _ = W0 m ρ c (Proc.devRef .tc b) := StableHlo.after_of_writes_sub hostOps0 _ hostOps0_writes h0
    _ = m ((c : Thread nD τ).loc b) := rfl

/-! ## The first stretch: the joined weight -/

theorem V1_v0 : (V1 (F := Ideal) m ρ c main_v0 : S256x48.Idx → EReal)
    = concatenate S256x48 1 [⟨S256x16, m ((c : Thread nD τ).loc main_arg2)⟩, ⟨S256x16, m ((c : Thread nD τ).loc main_arg4)⟩, ⟨S256x16, m ((c : Thread nD τ).loc main_arg6)⟩]
        concatenates_S256x16_S256x16_S256x16_S256x48_d1 := by
  show StableHlo.after hostOps0 (W0 m ρ c) (Proc.devRef .tc main_v0) = _
  after_results
  rfl

theorem V1_v0_left (f : Fin 256) (k : Fin 16) :
    (V1 (F := Ideal) m ρ c main_v0 : S256x48.Idx → EReal) (ix2 f (⟨k.val, by omega⟩ : Fin 48)) = (m ((c : Thread nD τ).loc main_arg2) : S256x16.Idx → EReal) (ix2 f k) := by
  rw [V1_v0]; exact Cert.Join3.left _ _ _ _ f _ k rfl
theorem V1_v0_mid (f : Fin 256) (k : Fin 16) :
    (V1 (F := Ideal) m ρ c main_v0 : S256x48.Idx → EReal) (ix2 f (⟨16 + k.val, by omega⟩ : Fin 48)) = (m ((c : Thread nD τ).loc main_arg4) : S256x16.Idx → EReal) (ix2 f k) := by
  rw [V1_v0]; exact Cert.Join3.mid _ _ _ _ f _ k rfl
theorem V1_v0_right (f : Fin 256) (k : Fin 16) :
    (V1 (F := Ideal) m ρ c main_v0 : S256x48.Idx → EReal) (ix2 f (⟨32 + k.val, by omega⟩ : Fin 48)) = (m ((c : Thread nD τ).loc main_arg6) : S256x16.Idx → EReal) (ix2 f k) := by
  rw [V1_v0]; exact Cert.Join3.right _ _ _ _ f _ k rfl

theorem V1_arg0 : V1 (F := Ideal) m ρ c main_arg0 = m ((c : Thread nD τ).loc main_arg0) :=
  StableHlo.after_of_writes_sub hostOps0 _ hostOps0_writes (by decide)

/-! ## The second stretch: columns 16–47 of the first step, narrowed -/

theorem V4_v4 (l : Fin 10000) (e : Fin 32) :
    (V4 (F := Ideal) m ρ c main_v4 : S10000x32.Idx → EReal) (ix2 l e)
      = (V3 (F := Ideal) m ρ c main_v2_0 : S10000x48.Idx → EReal) (ix2 l (⟨16 + e.val, by omega⟩ : Fin 48)) := by
  have h : (V4 (F := Ideal) m ρ c main_v4 : S10000x32.Idx → EReal)
      = extractStridedSlice S10000x32 ![0, 16] (W3 m ρ c (Proc.devRef .tc main_v2_0)) slices_S10000x48_S10000x32_0_16 := by
    show StableHlo.after hostOps2 (W3 m ρ c) (Proc.devRef .tc main_v4) = _
    after_results
    rfl
  rw [h]
  refine (Cert.Slice2.slice2_apply (W3 m ρ c (Proc.devRef .tc main_v2_0)) 0 16 _ rfl _ l e (by omega) (by omega)).trans ?_
  exact congrArg _ (congrArg₂ ix2 (Fin.ext (by simp)) rfl)

theorem V4_v2_1 : V4 (F := Ideal) m ρ c main_v2_1 = V3 (F := Ideal) m ρ c main_v2_1 :=
  StableHlo.after_of_writes_sub hostOps2 _ hostOps2_writes (by decide)

/-! ## The third stretch: what the last region reads -/

theorem V6_v6 (i : Fin 10000) (k : Fin 16) :
    (V6 (F := Ideal) m ρ c main_v6 : S10000x16.Idx → EReal) (ix2 i k)
      = (V5 (F := Ideal) m ρ c main_v2_0 : S10000x48.Idx → EReal) (ix2 i (⟨k.val, by omega⟩ : Fin 48)) := by
  have h : (V6 (F := Ideal) m ρ c main_v6 : S10000x16.Idx → EReal)
      = extractStridedSlice S10000x16 ![0, 0] (W5 m ρ c (Proc.devRef .tc main_v2_0)) slices_S10000x48_S10000x16_0_0 := by
    show StableHlo.after hostOps3 (W5 m ρ c) (Proc.devRef .tc main_v6) = _
    after_results
  rw [h]
  refine (Cert.Slice2.slice2_apply (W5 m ρ c (Proc.devRef .tc main_v2_0)) 0 0 _ rfl _ i k (by omega) (by omega)).trans ?_
  exact congrArg _ (congrArg₂ ix2 (Fin.ext (by simp)) (Fin.ext (by simp)))

theorem V6_v7 (i : Fin 10000) (k : Fin 16) :
    (V6 (F := Ideal) m ρ c main_v7 : S10000x16.Idx → EReal) (ix2 i k)
      = (V5 (F := Ideal) m ρ c main_v5 : S10000x32.Idx → EReal) (ix2 i (⟨k.val, by omega⟩ : Fin 32)) := by
  have h : (V6 (F := Ideal) m ρ c main_v7 : S10000x16.Idx → EReal)
      = extractStridedSlice S10000x16 ![0, 0] (W5 m ρ c (Proc.devRef .tc main_v5)) slices_S10000x32_S10000x16_0_0 := by
    show StableHlo.after hostOps3 (W5 m ρ c) (Proc.devRef .tc main_v7) = _
    after_results
  rw [h]
  refine (Cert.Slice2.slice2_apply (W5 m ρ c (Proc.devRef .tc main_v5)) 0 0 _ rfl _ i k (by omega) (by omega)).trans ?_
  exact congrArg _ (congrArg₂ ix2 (Fin.ext (by simp)) (Fin.ext (by simp)))

theorem V6_v9 (l : Fin 10000) (k : Fin 16) :
    (V6 (F := Ideal) m ρ c main_v9 : S10000x16.Idx → EReal) (ix2 l k)
      = (V5 (F := Ideal) m ρ c main_v5 : S10000x32.Idx → EReal) (ix2 l (⟨16 + k.val, by omega⟩ : Fin 32)) := by
  have h : (V6 (F := Ideal) m ρ c main_v9 : S10000x16.Idx → EReal)
      = extractStridedSlice S10000x16 ![0, 16] (W5 m ρ c (Proc.devRef .tc main_v5)) slices_S10000x32_S10000x16_0_16 := by
    show StableHlo.after hostOps3 (W5 m ρ c) (Proc.devRef .tc main_v9) = _
    after_results
    rfl
  rw [h]
  refine (Cert.Slice2.slice2_apply (W5 m ρ c (Proc.devRef .tc main_v5)) 0 16 _ rfl _ l k (by omega) (by omega)).trans ?_
  exact congrArg _ (congrArg₂ ix2 (Fin.ext (by simp)) rfl)

theorem V6_v10 (k : Fin 16) : (V6 (F := Ideal) m ρ c main_v10 : S1x16.Idx → EReal) (ix2 (0 : Fin 1) k) = (m ((c : Thread nD τ).loc main_arg3) : S16.Idx → EReal) (ix1 k) := by
  have h : (V6 (F := Ideal) m ρ c main_v10 : S1x16.Idx → EReal) = shapeCast S1x16 (W5 m ρ c (Proc.devRef .tc main_arg3) : S16.Idx → EReal) shapeCasts_S16_S1x16 := by
    show StableHlo.after hostOps3 (W5 m ρ c) (Proc.devRef .tc main_v10) = _
    after_results
    rfl
  rw [h, show (W5 (F := Ideal) m ρ c (Proc.devRef .tc main_arg3)) = m ((c : Thread nD τ).loc main_arg3) from W5_arg m ρ c main_arg3 (by decide) (by decide) (by decide) (by decide) (by decide)]
  exact Cert.RowView.row_apply _ _ 0 k
theorem V6_v11 (k : Fin 16) : (V6 (F := Ideal) m ρ c main_v11 : S1x16.Idx → EReal) (ix2 (0 : Fin 1) k) = (m ((c : Thread nD τ).loc main_arg5) : S16.Idx → EReal) (ix1 k) := by
  have h : (V6 (F := Ideal) m ρ c main_v11 : S1x16.Idx → EReal) = shapeCast S1x16 (W5 m ρ c (Proc.devRef .tc main_arg5) : S16.Idx → EReal) shapeCasts_S16_S1x16 := by
    show StableHlo.after hostOps3 (W5 m ρ c) (Proc.devRef .tc main_v11) = _
    after_results
    rfl
  rw [h, show (W5 (F := Ideal) m ρ c (Proc.devRef .tc main_arg5)) = m ((c : Thread nD τ).loc main_arg5) from W5_arg m ρ c main_arg5 (by decide) (by decide) (by decide) (by decide) (by decide)]
  exact Cert.RowView.row_apply _ _ 0 k
theorem V6_v12 (k : Fin 16) : (V6 (F := Ideal) m ρ c main_v12 : S1x16.Idx → EReal) (ix2 (0 : Fin 1) k) = (m ((c : Thread nD τ).loc main_arg7) : S16.Idx → EReal) (ix1 k) := by
  have h : (V6 (F := Ideal) m ρ c main_v12 : S1x16.Idx → EReal) = shapeCast S1x16 (W5 m ρ c (Proc.devRef .tc main_arg7) : S16.Idx → EReal) shapeCasts_S16_S1x16 := by
    show StableHlo.after hostOps3 (W5 m ρ c) (Proc.devRef .tc main_v12) = _
    after_results
    rfl
  rw [h, show (W5 (F := Ideal) m ρ c (Proc.devRef .tc main_arg7)) = m ((c : Thread nD τ).loc main_arg7) from W5_arg m ρ c main_arg7 (by decide) (by decide) (by decide) (by decide) (by decide)]
  exact Cert.RowView.row_apply _ _ 0 k
theorem V6_v16 (j : Fin 64) : (V6 (F := Ideal) m ρ c main_v16 : S1x64.Idx → EReal) (ix2 (0 : Fin 1) j) = (m ((c : Thread nD τ).loc main_arg9) : S64.Idx → EReal) (ix1 j) := by
  have h : (V6 (F := Ideal) m ρ c main_v16 : S1x64.Idx → EReal) = shapeCast S1x64 (W5 m ρ c (Proc.devRef .tc main_arg9) : S64.Idx → EReal) shapeCasts_S64_S1x64 := by
    show StableHlo.after hostOps3 (W5 m ρ c) (Proc.devRef .tc main_v16) = _
    after_results
    rfl
  rw [h, show (W5 (F := Ideal) m ρ c (Proc.devRef .tc main_arg9)) = m ((c : Thread nD τ).loc main_arg9) from W5_arg m ρ c main_arg9 (by decide) (by decide) (by decide) (by decide) (by decide)]
  exact Cert.RowView.row_apply _ _ 0 j

/-! The three 16-row slices of the read-out weight. -/

theorem V6_v13 (k : Fin 16) (j : Fin 64) : (V6 (F := Ideal) m ρ c main_v13 : S16x64.Idx → EReal) (ix2 k j)
    = (m ((c : Thread nD τ).loc main_arg8) : S48x64.Idx → EReal) (ix2 (⟨0 + k.val, by omega⟩ : Fin 48) j) := by
  have h : (V6 (F := Ideal) m ρ c main_v13 : S16x64.Idx → EReal) = extractStridedSlice S16x64 ![0, 0] (W5 m ρ c (Proc.devRef .tc main_arg8)) slices_S48x64_S16x64_0_0 := by
    show StableHlo.after hostOps3 (W5 m ρ c) (Proc.devRef .tc main_v13) = _
    after_results
  rw [h, show (W5 (F := Ideal) m ρ c (Proc.devRef .tc main_arg8)) = m ((c : Thread nD τ).loc main_arg8) from W5_arg m ρ c main_arg8 (by decide) (by decide) (by decide) (by decide) (by decide)]
  refine (Cert.Slice2.slice2_apply _ 0 0 _ rfl _ k j (by omega) (by omega)).trans ?_
  exact congrArg _ (congrArg₂ ix2 rfl (Fin.ext (by simp)))
theorem V6_v14 (k : Fin 16) (j : Fin 64) : (V6 (F := Ideal) m ρ c main_v14 : S16x64.Idx → EReal) (ix2 k j)
    = (m ((c : Thread nD τ).loc main_arg8) : S48x64.Idx → EReal) (ix2 (⟨16 + k.val, by omega⟩ : Fin 48) j) := by
  have h : (V6 (F := Ideal) m ρ c main_v14 : S16x64.Idx → EReal) = extractStridedSlice S16x64 ![16, 0] (W5 m ρ c (Proc.devRef .tc main_arg8)) slices_S48x64_S16x64_16_0 := by
    show StableHlo.after hostOps3 (W5 m ρ c) (Proc.devRef .tc main_v14) = _
    after_results
  rw [h, show (W5 (F := Ideal) m ρ c (Proc.devRef .tc main_arg8)) = m ((c : Thread nD τ).loc main_arg8) from W5_arg m ρ c main_arg8 (by decide) (by decide) (by decide) (by decide) (by decide)]
  refine (Cert.Slice2.slice2_apply _ 16 0 _ rfl _ k j (by omega) (by omega)).trans ?_
  exact congrArg _ (congrArg₂ ix2 rfl (Fin.ext (by simp)))
theorem V6_v15 (k : Fin 16) (j : Fin 64) : (V6 (F := Ideal) m ρ c main_v15 : S16x64.Idx → EReal) (ix2 k j)
    = (m ((c : Thread nD τ).loc main_arg8) : S48x64.Idx → EReal) (ix2 (⟨32 + k.val, by omega⟩ : Fin 48) j) := by
  have h : (V6 (F := Ideal) m ρ c main_v15 : S16x64.Idx → EReal) = extractStridedSlice S16x64 ![32, 0] (W5 m ρ c (Proc.devRef .tc main_arg8)) slices_S48x64_S16x64_32_0 := by
    show StableHlo.after hostOps3 (W5 m ρ c) (Proc.devRef .tc main_v15) = _
    after_results
  rw [h, show (W5 (F := Ideal) m ρ c (Proc.devRef .tc main_arg8)) = m ((c : Thread nD τ).loc main_arg8) from W5_arg m ρ c main_arg8 (by decide) (by decide) (by decide) (by decide) (by decide)]
  refine (Cert.Slice2.slice2_apply _ 32 0 _ rfl _ k j (by omega) (by omega)).trans ?_
  exact congrArg _ (congrArg₂ ix2 rfl (Fin.ext (by simp)))

theorem V6_v2_1 : V6 (F := Ideal) m ρ c main_v2_1 = V5 (F := Ideal) m ρ c main_v2_1 :=
  StableHlo.after_of_writes_sub hostOps3 _ hostOps3_writes (by decide)

end Cert.KernelIdeal.Value

end
-- ==== Proof.LibDotRead.lean ====
/-
  A contraction over one axis, read at an index, on the extended reals.

  A product of two arrays that contracts ONE axis of each, whatever batch and free axes surround it, is at every result
  index the sum, over the shared axis's coordinate k, of the left operand at an index L k times the right operand at an
  index R k.  The dimension numbers determine L and R: a batch axis or a free axis of an operand reads one coordinate of
  the result index (its position among the result's axes is: the batch axes first, then the left operand's free axes, then
  the right operand's), and the contracted axis reads k.  The lemmas below give each such coordinate as a number, so
  that for literal dimension numbers the two indices L k and R k can be written out by coordinates; the sum itself is the
  kernel's product into a zero accumulator and the host's general product alike.
-/
import Idealize.ShloMosaic.PureOps.Ideal.Laws
import Idealize.ShloMosaic.Lib.ValueIdx

noncomputable section

namespace Cert.DotRead

open Idealize.ShloMosaic Idealize.ShloMosaic.ValueIdx

variable {sl sr so : Shape} (d : DotDims sl sr so)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

/-- A batch axis of the left operand reads the result index at the axis's place among the batch axes. -/
theorem lhs_batch_val (j : so.Idx) (k : d.contr.Idx) (a : Fin sl.rank) (hb : a ∈ d.lhsBatch)
    (q : Fin so.rank) (hq : d.lhsBatch.idxOf a = q.val) : (d.lhsIdx j k a).val = (j q).val := by
  unfold DotDims.lhsIdx
  rw [dif_pos hb]
  simp only [Fin.val_cast]
  exact val_congr j _ _ _ q.isLt hq

/-- A free axis of the left operand reads the result index after the batch axes. -/
theorem lhs_free_val (j : so.Idx) (k : d.contr.Idx) (a : Fin sl.rank) (hb : a ∉ d.lhsBatch) (hn : a ∈ d.lhsNonContracting)
    (q : Fin so.rank) (hq : d.lhsBatch.length + d.lhsNonContracting.idxOf a = q.val) : (d.lhsIdx j k a).val = (j q).val := by
  unfold DotDims.lhsIdx
  rw [dif_neg hb, dif_pos hn]
  simp only [Fin.val_cast]
  exact val_congr j _ _ _ q.isLt hq

/-- A batch axis of the right operand reads the result index at the axis's place among the batch axes. -/
theorem rhs_batch_val (j : so.Idx) (k : d.contr.Idx) (a : Fin sr.rank) (hb : a ∈ d.rhsBatch)
    (q : Fin so.rank) (hq : d.rhsBatch.idxOf a = q.val) : (d.rhsIdx j k a).val = (j q).val := by
  unfold DotDims.rhsIdx
  rw [dif_pos hb]
  simp only [Fin.val_cast]
  exact val_congr j _ _ _ q.isLt hq

/-- A free axis of the right operand reads the result index after the batch axes and the left operand's free axes. -/
theorem rhs_free_val (j : so.Idx) (k : d.contr.Idx) (a : Fin sr.rank) (hb : a ∉ d.rhsBatch) (hn : a ∈ d.rhsNonContracting)
    (q : Fin so.rank) (hq : d.lhsBatch.length + d.lhsNonContracting.length + d.rhsNonContracting.idxOf a = q.val) :
    (d.rhsIdx j k a).val = (j q).val := by
  unfold DotDims.rhsIdx
  rw [dif_neg hb, dif_pos hn]
  simp only [Fin.val_cast]
  exact val_congr j _ _ _ q.isLt hq

/-- One contracted axis: the contraction shape has one axis … -/
theorem contr_rank_one {cl : Fin sl.rank} (hc : d.lhsContracting = [cl]) : d.contr.rank = 1 := by
  rw [d.rank_contr, hc]; rfl

/-- … of the contracted axis's extent. -/
theorem contr_size_one {cl : Fin sl.rank} (hc : d.lhsContracting = [cl]) :
    d.contr.size ⟨0, by rw [contr_rank_one d hc]; exact Nat.one_pos⟩ = sl.size cl := by
  rw [d.size_contr 0 (by rw [hc]; exact Nat.one_pos)]
  simp only [hc, List.getElem_cons_zero]

section One

variable (K : Nat) (hr : d.contr.rank = 1) (hs : d.contr.size ⟨0, by omega⟩ = K)

/-- The left operand's contracted axis reads the shared coordinate. -/
theorem lhs_contr_val {cl : Fin sl.rank} (hc : d.lhsContracting = [cl]) (j : so.Idx) (k : Fin K) :
    (d.lhsIdx j ((contrEquiv1 d K hr hs).symm k) cl).val = k.val :=
  (d.lhsIdx_val_of_single hc _ _).trans (contrEquiv1_symm_val d K hr hs k)

/-- The right operand's contracted axis reads the shared coordinate. -/
theorem rhs_contr_val {cr : Fin sr.rank} (hc : d.rhsContracting = [cr]) (j : so.Idx) (k : Fin K) :
    (d.rhsIdx j ((contrEquiv1 d K hr hs).symm k) cr).val = k.val :=
  (d.rhsIdx_val_of_single hc _ _).trans (contrEquiv1_symm_val d K hr hs k)

/-- A kernel's product into a zero accumulator: the sum over the shared coordinate. -/
theorem matmul_zero_read {φ₁ φ₂ : FTy} (prec : Option ContractPrecision) (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.matmul d prec lhs rhs (constant so .f32 0x00000000#32) j = ∑ k : Fin K, lhs (L k) * rhs (R k) := by
  rw [Ideal.matmul_constant_zero_apply, ← Equiv.sum_comp (contrEquiv1 d K hr hs).symm]
  exact Finset.sum_congr rfl fun k _ => by rw [hL k, hR k]

/-- The host's general product: the same sum. -/
theorem dotGeneral_read {φ₁ φ₂ : FTy} (prec : Option ContractPrecision) (sched : HostSchedule)
    (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.dotGeneral d prec sched lhs rhs j = ∑ k : Fin K, lhs (L k) * rhs (R k) := by
  rw [Ideal.dotGeneral_apply, ← Equiv.sum_comp (contrEquiv1 d K hr hs).symm]
  exact Finset.sum_congr rfl fun k _ => by rw [hL k, hR k]

end One

end Cert.DotRead

end
-- ==== Proof.LibMatmulRows.lean ====
/-
  The product of an [M, K] array with a [K, N] array, read at one entry.

  Both spellings of the product contract the left operand's second axis with the right operand's first and keep the
  left operand's rows and the right operand's columns as the result's two axes.  On the extended reals the entry in
  row p and column q is then the sum over the shared coordinate k of (left at (p, k)) times (right at (k, q)) — for
  the kernel's product into a zero accumulator and for the host's general product alike, whatever M, K and N are.
  A product computed a block of rows at a time therefore has the same entries as the product of the whole arrays.
-/
import proofs.«168879_g60241211293926_cont_9to1_m_960_5_alg».proof.Proof.LibDotRead

noncomputable section

namespace Cert.MatmulRows

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0])
  (hln : d.lhsNonContracting = [0]) (hrn : d.rhsNonContracting = [1])
  (hlb : d.lhsBatch = []) (hrb : d.rhsBatch = [])

include hlc in
theorem contr_rank : d.contr.rank = 1 := Cert.DotRead.contr_rank_one d hlc

include hlc in
theorem contr_size : d.contr.size ⟨0, by rw [contr_rank d hlc]; exact Nat.one_pos⟩ = K :=
  Cert.DotRead.contr_size_one d hlc

include hlc hln hlb in
/-- The left operand is read in the result's row, at the shared coordinate. -/
theorem lhs_read (p : Fin M) (q : Fin N) (k : Fin K) :
    d.lhsIdx (ix2 p q) ((contrEquiv1 d K (contr_rank d hlc) (contr_size d hlc)).symm k) = ix2 p k := by
  funext a
  apply Fin.ext
  match a with
  | ⟨0, _⟩ =>
    exact Cert.DotRead.lhs_free_val d (ix2 p q) _ 0 (by rw [hlb]; exact List.not_mem_nil) (by rw [hln]; exact List.mem_singleton.mpr rfl)
      0 (by rw [hlb, hln]; rfl)
  | ⟨1, _⟩ => exact Cert.DotRead.lhs_contr_val d K (contr_rank d hlc) (contr_size d hlc) hlc (ix2 p q) k

include hlc hrc hln hrn hlb hrb in
/-- The right operand is read at the shared coordinate, in the result's column. -/
theorem rhs_read (p : Fin M) (q : Fin N) (k : Fin K) :
    d.rhsIdx (ix2 p q) ((contrEquiv1 d K (contr_rank d hlc) (contr_size d hlc)).symm k) = ix2 k q := by
  funext a
  apply Fin.ext
  match a with
  | ⟨0, _⟩ => exact Cert.DotRead.rhs_contr_val d K (contr_rank d hlc) (contr_size d hlc) hrc (ix2 p q) k
  | ⟨1, _⟩ =>
    exact Cert.DotRead.rhs_free_val d (ix2 p q) _ 1 (by rw [hrb]; exact List.not_mem_nil) (by rw [hrn]; exact List.mem_singleton.mpr rfl)
      1 (by rw [hlb, hln, hrn]; rfl)

include hlc hrc hln hrn hlb hrb in
/-- The kernel's product into a zero accumulator, entry (p, q). -/
theorem matmul_zero_ix2 {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, lhs (ix2 p k) * rhs (ix2 k q) :=
  Cert.DotRead.matmul_zero_read d K (contr_rank d hlc) (contr_size d hlc) prec lhs rhs (ix2 p q) (fun k => ix2 p k) (fun k => ix2 k q)
    (lhs_read d hlc hln hlb p q) (rhs_read d hlc hrc hln hrn hlb hrb p q)

include hlc hrc hln hrn hlb hrb in
/-- The host's general product, entry (p, q). -/
theorem dotGeneral_ix2 {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral d prec sched lhs rhs (ix2 p q) = ∑ k : Fin K, lhs (ix2 p k) * rhs (ix2 k q) :=
  Cert.DotRead.dotGeneral_read d K (contr_rank d hlc) (contr_size d hlc) prec sched lhs rhs (ix2 p q) (fun k => ix2 p k) (fun k => ix2 k q)
    (lhs_read d hlc hln hlb p q) (rhs_read d hlc hrc hln hrn hlb hrb p q)

end Cert.MatmulRows

end
-- ==== Proof.KiValue0.lean ====
/-
  The first product, from blocks to the whole array, on the extended reals.

  Each of the five grid points multiplies 2000 rows of the [10000, 256] argument by the whole [256, 48] table and
  writes the 2000 resulting rows back.  Row r of the result belongs to the block of point r / 2000, the blocks tile the
  result, and the entry (p, q) of a block's product is the sum over the shared coordinate of argument times table in
  the block's own rows.  So the result array ends holding the product of the whole arrays, entry by entry, whatever
  the buffers held when the region was entered.
-/
import proofs.«168879_g60241211293926_cont_9to1_m_960_5_alg».proof.Proof.KiRegion0
import proofs.«168879_g60241211293926_cont_9to1_m_960_5_alg».proof.Proof.LibMatmulRows
import Idealize.ShloMosaic.Lib.Pipeline.Value
import Idealize.ShloMosaic.Lib.ValueIdx
import Idealize.ShloMosaic.PureOps.Ideal.Laws

set_option maxRecDepth 16384

noncomputable section

namespace Cert.KernelIdeal.Value

open Cert.KernelIdeal Cert.KernelIdeal.Gen Cert.KernelIdeal.Frame Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The product at one entry of a block: the sum over the shared coordinate. -/
theorem pay0_at (x0 : FVec Ideal S2000x256 .f32) (x1 : FVec Ideal S256x48 .f32) (p : Fin 2000) (q : Fin 48) :
    k0_pay1 (F := Ideal) x0 x1 (ix2 p q) = ∑ l : Fin 256, x0 (ix2 p l) * x1 (ix2 l q) := by
  unfold k0_pay1
  simp only [shapeCast_self]
  exact Cert.MatmulRows.matmul_zero_ix2 dot_S2000x256_S256x48_S2000x48_1_0_0_1_n_n rfl rfl rfl rfl rfl rfl none x0 x1 p q

/-- The block indices at every grid point: the argument's and the result's row block is the point's number, the
    table is taken whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem zero_offsets0 : (![0, 0] : Fin 2 → Nat) = fun _ => 0 := funext fun a => by fin_cases a <;> rfl

/-- The product of a [10000, 256] array with a [256, 48] array, entry by entry. -/
abbrev prod0 (a : S10000x256.Idx → EReal) (b : S256x48.Idx → EReal) : S10000x48.Idx → EReal :=
  fun i => ∑ l : Fin 256, a (ix2 (i 0) l) * b (ix2 l (i 1))

/-- What point t writes back is block t of the product of the whole arrays. -/
theorem flushed0_eq (c : Dev nD) (t : Fin cfg0.N) :
    (dat0 V c).flushed 2 t = ((cfg0.win 2).blk t).view.read (Elt Ideal) (prod0 (V c main_arg0) (V c main_v0)) := by
  show (cfg0.win 2).cut (grid0.coords t) ((dat0 V c).after 2 t) = _
  rw [after0_2]
  unfold out0_2
  rw [View.canon_unit_zero zero_offsets0]
  simp only [View.ld_unit_zero (S := S2000x256) zero_offsets0, View.ld_unit_zero (S := S256x48) zero_offsets0]
  obtain ⟨e00, e01, e10, e11, e20, e21⟩ := idx_facts0 t
  funext j
  obtain ⟨p, q, rfl⟩ : ∃ (p : Fin 2000) (q : Fin 48), j = ix2 p q := ⟨j 0, j 1, eq_ix2 j⟩
  refine (pay0_at _ _ p q).trans ?_
  rw [View.read_apply]
  refine Finset.sum_congr rfl fun l _ => ?_
  congr 1
  · -- row p of the argument's block is row 2000 t + p of the argument, the result's row
    show V c main_arg0 (((cfg0.win 0).blk t).view.emb (ix2 p l)) = _
    refine congrArg (V c main_arg0) ?_
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * l.val = l.val; omega
  · -- the table's block is the table
    show V c main_v0 (((cfg0.win 1).blk t).view.emb (ix2 l q)) = _
    refine congrArg (V c main_v0) ?_
    funext a; apply Fin.ext
    match a with
    | ⟨0, _⟩ => show win0_1.index t (0 : Fin 2) * 256 + 1 * l.val = l.val; omega
    | ⟨1, _⟩ => show win0_1.index t (1 : Fin 2) * 48 + 1 * q.val = win0_2.index t (1 : Fin 2) * 48 + 1 * q.val; omega

/-- An index of the result array is in point t's block iff each coordinate is in the block's range on its axis. -/
theorem mem_blk0 (t : Fin cfg0.N) (i : S10000x48.Idx) :
    i ∈ ((cfg0.win 2).blk t).view.set ↔ ∀ a : Fin 2, win0_2.index t a * S2000x48.size a ≤ (i a).val ∧ (i a).val < win0_2.index t a * S2000x48.size a + S2000x48.size a := by
  show i ∈ ((View.whole main_v1).slice (win0_2.rect t)).set ↔ _
  rw [View.set_slice_whole, Rect.mem_set_unit]
  exact Iff.rfl

/-- Row r of the result lies in the block of point r / 2000, and every point writes its block back. -/
theorem cover0 (i : S10000x48.Idx) :
    ∃ t : Fin cfg0.N, (cfg0.win 2).flush t = true ∧ i ∈ ((cfg0.win 2).blk t).view.set := by
  have hi0 : (i 0).val < 10000 := idx2_lt0 i
  have hi1 : (i 1).val < 48 := idx2_lt1 i
  obtain ⟨t, ht⟩ : ∃ t : Fin cfg0.N, t.val = (i 0).val / 2000 :=
    ⟨⟨(i 0).val / 2000, by show (i 0).val / 2000 < 5; omega⟩, rfl⟩
  obtain ⟨e00, e01, e10, e11, e20, e21⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 48 ≤ (i 1).val ∧ (i 1).val < win0_2.index t (1 : Fin 2) * 48 + 48; omega

/-- The result array after the region: the product of the argument with the table, entry by entry:
    at index i the sum over l of argument (i 0, l) times table (l, i 1). -/
theorem final0_2 (c : Dev nD) : (dat0 V c).arrAt 2 cfg0.N = prod0 (V c main_arg0) (V c main_v0) :=
  (dat0 V c).arrAt_eq_of_cover 2 (prod0 (V c main_arg0) (V c main_v0)) (fun t _ => flushed0_eq V c t) cover0

/-- The product read at one entry. -/
theorem prod0_apply (a : S10000x256.Idx → EReal) (b : S256x48.Idx → EReal) (p : Fin 10000) (q : Fin 48) :
    prod0 a b (ix2 p q) = ∑ l : Fin 256, a (ix2 p l) * b (ix2 l q) := rfl

end Cert.KernelIdeal.Value

end
-- ==== Proof.KiValue1.lean ====
/-
  The first propagation step, from blocks to the whole arrays, on the extended reals.

  Each of the fifty grid points takes 200 rows of the [10000, 10000] adjacency, multiplies them by the whole
  [10000, 48] table and writes the 200 resulting rows back; it also writes the same 200 adjacency rows back in the
  narrow float format, which on the extended reals is the identity.  Row r of either result belongs to the block of
  point r / 200 and the blocks tile both results.  So the first result ends holding the product of the whole arrays,
  entry by entry, and the second ends holding the adjacency itself, whatever the buffers held when the region was
  entered.
-/
import proofs.«168879_g60241211293926_cont_9to1_m_960_5_alg».proof.Proof.KiRegion1
import proofs.«168879_g60241211293926_cont_9to1_m_960_5_alg».proof.Proof.LibMatmulRows
import Idealize.ShloMosaic.Lib.Pipeline.Value
import Idealize.ShloMosaic.Lib.ValueIdx
import Idealize.ShloMosaic.PureOps.Ideal.Laws

set_option maxRecDepth 16384

noncomputable section

namespace Cert.KernelIdeal.Value

open Cert.KernelIdeal Cert.KernelIdeal.Gen Cert.KernelIdeal.Frame Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The product at one entry of a block: the sum over the shared coordinate. -/
theorem pay1_at (x0 : FVec Ideal S200x10000 .f32) (x1 : FVec Ideal S10000x48 .f32) (p : Fin 200) (q : Fin 48) :
    k1_pay1 (F := Ideal) x0 x1 (ix2 p q) = ∑ l : Fin 10000, x0 (ix2 p l) * x1 (ix2 l q) := by
  unfold k1_pay1
  simp only [shapeCast_self]
  exact Cert.MatmulRows.matmul_zero_ix2 dot_S200x10000_S10000x48_S200x48_1_0_0_1_n_n rfl rfl rfl rfl rfl rfl none x0 x1 p q

/-- The change to the narrow format keeps every entry. -/
theorem pay1_narrow_at (x0 : FVec Ideal S200x10000 .f32) (j : S200x10000.Idx) : k1_pay2 (F := Ideal) x0 j = x0 j := rfl

/-- The block indices at every grid point: the adjacency's and both results' row block is the point's number, the
    table is taken whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem zero_offsets1 : (![0, 0] : Fin 2 → Nat) = fun _ => 0 := funext fun a => by fin_cases a <;> rfl

/-- The product of a [10000, 10000] array with a [10000, 48] array, entry by entry. -/
abbrev prod1 (a : S10000x10000.Idx → EReal) (b : S10000x48.Idx → EReal) : S10000x48.Idx → EReal :=
  fun i => ∑ l : Fin 10000, a (ix2 (i 0) l) * b (ix2 l (i 1))

/-- A [10000, 10000] array of one format read as an array of the other: the same extended reals. -/
abbrev same1 (a : S10000x10000.Idx → EReal) : S10000x10000.Idx → EReal := a

/-! ## The product -/

/-- What point t writes back to the product is block t of the product of the whole arrays. -/
theorem flushed1_2_eq (c : Dev nD) (t : Fin cfg1.N) :
    (dat1 V c).flushed 2 t = ((cfg1.win 2).blk t).view.read (Elt Ideal) (prod1 (V c main_arg1) (V c main_v1)) := by
  show (cfg1.win 2).cut (grid1.coords t) ((dat1 V c).after 2 t) = _
  rw [after1_2]
  unfold out1_2
  rw [View.canon_unit_zero zero_offsets1]
  simp only [View.ld_unit_zero (S := S200x10000) zero_offsets1, View.ld_unit_zero (S := S10000x48) zero_offsets1]
  obtain ⟨e00, e01, e10, e11, e20, e21, e30, e31⟩ := idx_facts1 t
  funext j
  obtain ⟨p, q, rfl⟩ : ∃ (p : Fin 200) (q : Fin 48), j = ix2 p q := ⟨j 0, j 1, eq_ix2 j⟩
  refine (pay1_at _ _ p q).trans ?_
  rw [View.read_apply]
  refine Finset.sum_congr rfl fun l _ => ?_
  congr 1
  · -- row p of the adjacency's block is row 200 t + p of the adjacency, the result's row
    show V c main_arg1 (((cfg1.win 0).blk t).view.emb (ix2 p l)) = _
    refine congrArg (V c main_arg1) ?_
    funext a; apply Fin.ext
    match a with
    | ⟨0, _⟩ => show win1_0.index t (0 : Fin 2) * 200 + 1 * p.val = win1_2.index t (0 : Fin 2) * 200 + 1 * p.val; omega
    | ⟨1, _⟩ => show win1_0.index t (1 : Fin 2) * 10000 + 1 * l.val = l.val; omega
  · -- the table's block is the table
    show V c main_v1 (((cfg1.win 1).blk t).view.emb (ix2 l q)) = _
    refine congrArg (V c main_v1) ?_
    funext a; apply Fin.ext
    match a with
    | ⟨0, _⟩ => show win1_1.index t (0 : Fin 2) * 10000 + 1 * l.val = l.val; omega
    | ⟨1, _⟩ => show win1_1.index t (1 : Fin 2) * 48 + 1 * q.val = win1_2.index t (1 : Fin 2) * 48 + 1 * q.val; omega

/-- An index of the product array is in point t's block iff each coordinate is in the block's range on its axis. -/
theorem mem_blk1_2 (t : Fin cfg1.N) (i : S10000x48.Idx) :
    i ∈ ((cfg1.win 2).blk t).view.set ↔ ∀ a : Fin 2, win1_2.index t a * S200x48.size a ≤ (i a).val ∧ (i a).val < win1_2.index t a * S200x48.size a + S200x48.size a := by
  show i ∈ ((View.whole main_v2_0).slice (win1_2.rect t)).set ↔ _
  rw [View.set_slice_whole, Rect.mem_set_unit]
  exact Iff.rfl

/-- Row r of the product lies in the block of point r / 200, and every point writes its block back. -/
theorem tiles1_2 (i : S10000x48.Idx) :
    ∃ t : Fin cfg1.N, (cfg1.win 2).flush t = true ∧ i ∈ ((cfg1.win 2).blk t).view.set := by
  have hi0 : (i 0).val < 10000 := idx2_lt0 i
  have hi1 : (i 1).val < 48 := idx2_lt1 i
  obtain ⟨t, ht⟩ : ∃ t : Fin cfg1.N, t.val = (i 0).val / 200 :=
    ⟨⟨(i 0).val / 200, by show (i 0).val / 200 < 50; omega⟩, rfl⟩
  obtain ⟨e00, e01, e10, e11, e20, e21, e30, e31⟩ := idx_facts1 t
  refine ⟨t, flush1_2 t, ?_⟩
  rw [mem_blk1_2]
  intro a
  match a with
  | ⟨0, _⟩ => show win1_2.index t (0 : Fin 2) * 200 ≤ (i 0).val ∧ (i 0).val < win1_2.index t (0 : Fin 2) * 200 + 200; omega
  | ⟨1, _⟩ => show win1_2.index t (1 : Fin 2) * 48 ≤ (i 1).val ∧ (i 1).val < win1_2.index t (1 : Fin 2) * 48 + 48; omega

/-- The product array after the region: the product of the adjacency with the table, entry by entry:
    at index i the sum over l of adjacency (i 0, l) times table (l, i 1). -/
theorem final1_2 (c : Dev nD) : (dat1 V c).arrAt 2 cfg1.N = prod1 (V c main_arg1) (V c main_v1) :=
  (dat1 V c).arrAt_eq_of_cover 2 (prod1 (V c main_arg1) (V c main_v1)) (fun t _ => flushed1_2_eq V c t) tiles1_2

/-- The product read at one entry. -/
theorem prod1_apply (a : S10000x10000.Idx → EReal) (b : S10000x48.Idx → EReal) (p : Fin 10000) (q : Fin 48) :
    prod1 a b (ix2 p q) = ∑ l : Fin 10000, a (ix2 p l) * b (ix2 l q) := rfl

/-! ## The adjacency in the narrow format -/

/-- What point t writes back to the narrow adjacency is block t of the adjacency. -/
theorem flushed1_3_eq (c : Dev nD) (t : Fin cfg1.N) :
    (dat1 V c).flushed 3 t = ((cfg1.win 3).blk t).view.read (Elt Ideal) (same1 (V c main_arg1)) := by
  show (cfg1.win 3).cut (grid1.coords t) ((dat1 V c).after 3 t) = _
  rw [after1_3]
  unfold out1_3
  rw [View.canon_unit_zero zero_offsets1]
  simp only [View.ld_unit_zero (S := S200x10000) zero_offsets1]
  obtain ⟨e00, e01, e10, e11, e20, e21, e30, e31⟩ := idx_facts1 t
  funext j
  obtain ⟨p, l, rfl⟩ : ∃ (p : Fin 200) (l : Fin 10000), j = ix2 p l := ⟨j 0, j 1, eq_ix2 j⟩
  refine (pay1_narrow_at _ (ix2 p l)).trans ?_
  rw [View.read_apply]
  show V c main_arg1 (((cfg1.win 0).blk t).view.emb (ix2 p l)) = V c main_arg1 (((cfg1.win 3).blk t).view.emb (ix2 p l))
  refine congrArg (V c main_arg1) ?_
  funext a; apply Fin.ext
  match a with
  | ⟨0, _⟩ => show win1_0.index t (0 : Fin 2) * 200 + 1 * p.val = win1_3.index t (0 : Fin 2) * 200 + 1 * p.val; omega
  | ⟨1, _⟩ => show win1_0.index t (1 : Fin 2) * 10000 + 1 * l.val = win1_3.index t (1 : Fin 2) * 10000 + 1 * l.val; omega

/-- An index of the narrow adjacency is in point t's block iff each coordinate is in the block's range on its axis. -/
theorem mem_blk1_3 (t : Fin cfg1.N) (i : S10000x10000.Idx) :
    i ∈ ((cfg1.win 3).blk t).view.set ↔ ∀ a : Fin 2, win1_3.index t a * S200x10000.size a ≤ (i a).val ∧ (i a).val < win1_3.index t a * S200x10000.size a + S200x10000.size a := by
  show i ∈ ((View.whole main_v2_1).slice (win1_3.rect t)).set ↔ _
  rw [View.set_slice_whole, Rect.mem_set_unit]
  exact Iff.rfl

/-- Row r of the narrow adjacency lies in the block of point r / 200, and every point writes its block back. -/
theorem tiles1_3 (i : S10000x10000.Idx) :
    ∃ t : Fin cfg1.N, (cfg1.win 3).flush t = true ∧ i ∈ ((cfg1.win 3).blk t).view.set := by
  have hi0 : (i 0).val < 10000 := idx2_lt0 i
  have hi1 : (i 1).val < 10000 := idx2_lt1 i
  obtain ⟨t, ht⟩ : ∃ t : Fin cfg1.N, t.val = (i 0).val / 200 :=
    ⟨⟨(i 0).val / 200, by show (i 0).val / 200 < 50; omega⟩, rfl⟩
  obtain ⟨e00, e01, e10, e11, e20, e21, e30, e31⟩ := idx_facts1 t
  refine ⟨t, flush1_3 t, ?_⟩
  rw [mem_blk1_3]
  intro a
  match a with
  | ⟨0, _⟩ => show win1_3.index t (0 : Fin 2) * 200 ≤ (i 0).val ∧ (i 0).val < win1_3.index t (0 : Fin 2) * 200 + 200; omega
  | ⟨1, _⟩ => show win1_3.index t (1 : Fin 2) * 10000 ≤ (i 1).val ∧ (i 1).val < win1_3.index t (1 : Fin 2) * 10000 + 10000; omega

/-- The narrow adjacency after the region is the adjacency, entry by entry. -/
theorem final1_3 (c : Dev nD) : (dat1 V c).arrAt 3 cfg1.N = same1 (V c main_arg1) :=
  (dat1 V c).arrAt_eq_of_cover 3 (same1 (V c main_arg1)) (fun t _ => flushed1_3_eq V c t) tiles1_3

/-- The same, read at one entry. -/
theorem same1_apply (a : S10000x10000.Idx → EReal) (i : S10000x10000.Idx) : same1 a i = a i := rfl

end Cert.KernelIdeal.Value

end
-- ==== Proof.KiValue2.lean ====
/-
  The second propagation step, from blocks to the whole array, on the extended reals.

  Each of the fifty grid points multiplies 200 rows of the [10000, 10000] adjacency by the whole [10000, 32] table and
  writes the 200 resulting rows back.  Row r of the result belongs to the block of point r / 200, the blocks tile the
  result, and the entry (p, q) of a block's product is the sum over the shared coordinate of adjacency times table in
  the block's own rows.  So the result array ends holding the product of the whole arrays, entry by entry, whatever
  the buffers held when the region was entered.
-/
import proofs.«168879_g60241211293926_cont_9to1_m_960_5_alg».proof.Proof.KiRegion2
import proofs.«168879_g60241211293926_cont_9to1_m_960_5_alg».proof.Proof.LibMatmulRows
import Idealize.ShloMosaic.Lib.Pipeline.Value
import Idealize.ShloMosaic.Lib.ValueIdx
import Idealize.ShloMosaic.PureOps.Ideal.Laws

set_option maxRecDepth 16384

noncomputable section

namespace Cert.KernelIdeal.Value

open Cert.KernelIdeal Cert.KernelIdeal.Gen Cert.KernelIdeal.Frame Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The product at one entry of a block: the sum over the shared coordinate. -/
theorem pay2_at (x0 : FVec Ideal S200x10000 .bf16) (x1 : FVec Ideal S10000x32 .bf16) (p : Fin 200) (q : Fin 32) :
    k2_pay1 (F := Ideal) x0 x1 (ix2 p q) = ∑ l : Fin 10000, x0 (ix2 p l) * x1 (ix2 l q) := by
  unfold k2_pay1
  simp only [shapeCast_self]
  exact Cert.MatmulRows.matmul_zero_ix2 dot_S200x10000_S10000x32_S200x32_1_0_0_1_n_n rfl rfl rfl rfl rfl rfl none x0 x1 p q

/-- The block indices at every grid point: the adjacency's and the result's row block is the point's number, the
    table is taken whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem zero_offsets2 : (![0, 0] : Fin 2 → Nat) = fun _ => 0 := funext fun a => by fin_cases a <;> rfl

/-- The product of a [10000, 10000] array with a [10000, 32] array, entry by entry. -/
abbrev prod2 (a : S10000x10000.Idx → EReal) (b : S10000x32.Idx → EReal) : S10000x32.Idx → EReal :=
  fun i => ∑ l : Fin 10000, a (ix2 (i 0) l) * b (ix2 l (i 1))

/-- What point t writes back is block t of the product of the whole arrays. -/
theorem flushed2_eq (c : Dev nD) (t : Fin cfg2.N) :
    (dat2 V c).flushed 2 t = ((cfg2.win 2).blk t).view.read (Elt Ideal) (prod2 (V c main_v2_1) (V c main_v4)) := by
  show (cfg2.win 2).cut (grid2.coords t) ((dat2 V c).after 2 t) = _
  rw [after2_2]
  unfold out2_2
  rw [View.canon_unit_zero zero_offsets2]
  simp only [View.ld_unit_zero (S := S200x10000) zero_offsets2, View.ld_unit_zero (S := S10000x32) zero_offsets2]
  obtain ⟨e00, e01, e10, e11, e20, e21⟩ := idx_facts2 t
  funext j
  obtain ⟨p, q, rfl⟩ : ∃ (p : Fin 200) (q : Fin 32), j = ix2 p q := ⟨j 0, j 1, eq_ix2 j⟩
  refine (pay2_at _ _ p q).trans ?_
  rw [View.read_apply]
  refine Finset.sum_congr rfl fun l _ => ?_
  congr 1
  · -- row p of the adjacency's block is row 200 t + p of the adjacency, the result's row
    show V c main_v2_1 (((cfg2.win 0).blk t).view.emb (ix2 p l)) = _
    refine congrArg (V c main_v2_1) ?_
    funext a; apply Fin.ext
    match a with
    | ⟨0, _⟩ => show win2_0.index t (0 : Fin 2) * 200 + 1 * p.val = win2_2.index t (0 : Fin 2) * 200 + 1 * p.val; omega
    | ⟨1, _⟩ => show win2_0.index t (1 : Fin 2) * 10000 + 1 * l.val = l.val; omega
  · -- the table's block is the table
    show V c main_v4 (((cfg2.win 1).blk t).view.emb (ix2 l q)) = _
    refine congrArg (V c main_v4) ?_
    funext a; apply Fin.ext
    match a with
    | ⟨0, _⟩ => show win2_1.index t (0 : Fin 2) * 10000 + 1 * l.val = l.val; omega
    | ⟨1, _⟩ => show win2_1.index t (1 : Fin 2) * 32 + 1 * q.val = win2_2.index t (1 : Fin 2) * 32 + 1 * q.val; omega

/-- An index of the result array is in point t's block iff each coordinate is in the block's range on its axis. -/
theorem mem_blk2 (t : Fin cfg2.N) (i : S10000x32.Idx) :
    i ∈ ((cfg2.win 2).blk t).view.set ↔ ∀ a : Fin 2, win2_2.index t a * S200x32.size a ≤ (i a).val ∧ (i a).val < win2_2.index t a * S200x32.size a + S200x32.size a := by
  show i ∈ ((View.whole main_v5).slice (win2_2.rect t)).set ↔ _
  rw [View.set_slice_whole, Rect.mem_set_unit]
  exact Iff.rfl

/-- Row r of the result lies in the block of point r / 200, and every point writes its block back. -/
theorem cover2 (i : S10000x32.Idx) :
    ∃ t : Fin cfg2.N, (cfg2.win 2).flush t = true ∧ i ∈ ((cfg2.win 2).blk t).view.set := by
  have hi0 : (i 0).val < 10000 := idx2_lt0 i
  have hi1 : (i 1).val < 32 := idx2_lt1 i
  obtain ⟨t, ht⟩ : ∃ t : Fin cfg2.N, t.val = (i 0).val / 200 :=
    ⟨⟨(i 0).val / 200, by show (i 0).val / 200 < 50; omega⟩, rfl⟩
  obtain ⟨e00, e01, e10, e11, e20, e21⟩ := idx_facts2 t
  refine ⟨t, flush2_2 t, ?_⟩
  rw [mem_blk2]
  intro a
  match a with
  | ⟨0, _⟩ => show win2_2.index t (0 : Fin 2) * 200 ≤ (i 0).val ∧ (i 0).val < win2_2.index t (0 : Fin 2) * 200 + 200; omega
  | ⟨1, _⟩ => show win2_2.index t (1 : Fin 2) * 32 ≤ (i 1).val ∧ (i 1).val < win2_2.index t (1 : Fin 2) * 32 + 32; omega

/-- The result array after the region: the product of the adjacency with the table, entry by entry:
    at index i the sum over l of adjacency (i 0, l) times table (l, i 1). -/
theorem final2_2 (c : Dev nD) : (dat2 V c).arrAt 2 cfg2.N = prod2 (V c main_v2_1) (V c main_v4) :=
  (dat2 V c).arrAt_eq_of_cover 2 (prod2 (V c main_v2_1) (V c main_v4)) (fun t _ => flushed2_eq V c t) cover2

/-- The product read at one entry. -/
theorem prod2_apply (a : S10000x10000.Idx → EReal) (b : S10000x32.Idx → EReal) (p : Fin 10000) (q : Fin 32) :
    prod2 a b (ix2 p q) = ∑ l : Fin 10000, a (ix2 p l) * b (ix2 l q) := rfl

end Cert.KernelIdeal.Value

end
-- ==== Proof.KiValue3.lean ====
/-
  The read-out, from blocks to the whole array, on the extended reals.

  Each of the fifty grid points takes 200 rows of the [10000, 10000] adjacency and of the first two chains'
  [10000, 16] arrays, and whole the [10000, 16] table, the three [1, 16] bias rows, the three [16, 64] weight slices
  and the [1, 64] read-out bias row.  It forms the third chain's rows (adjacency rows times the table), adds to each
  chain's rows its bias row and cuts at zero, multiplies each by its weights, adds the three products and the
  read-out bias row, applies the logistic function, and writes the 200 resulting rows back.  Row r of the result
  belongs to the block of point r / 200 and the blocks tile the result.  So the result array ends holding that
  read-out of the whole arrays, entry by entry, whatever the buffers held when the region was entered.
-/
import proofs.«168879_g60241211293926_cont_9to1_m_960_5_alg».proof.Proof.KiRegion3
import proofs.«168879_g60241211293926_cont_9to1_m_960_5_alg».proof.Proof.LibMatmulRows
import Idealize.ShloMosaic.Lib.Pipeline.Value
import Idealize.ShloMosaic.Lib.ValueIdx
import Idealize.ShloMosaic.PureOps.Ideal.Laws

set_option maxRecDepth 16384

noncomputable section

namespace Cert.KernelIdeal.Value

open Cert.KernelIdeal Cert.KernelIdeal.Gen Cert.KernelIdeal.Frame Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- A [1, 16] row broadcast over 200 rows reads the row. -/
theorem bcast16_at (b : FVec Ideal S1x16 .f32) (p : Fin 200) (k : Fin 16) :
    broadcastTo S200x16 b broadcasts_S1x16_S200x16 (ix2 p k) = b (ix2 (0 : Fin 1) k) := by
  refine broadcastTo_apply b broadcasts_S1x16_S200x16 (ix2 p k) (ix2 (0 : Fin 1) k) fun a => ?_
  match a with
  | ⟨0, _⟩ => rfl
  | ⟨1, _⟩ => rfl

/-- A [1, 64] row broadcast over 200 rows reads the row. -/
theorem bcast64_at (b : FVec Ideal S1x64 .f32) (p : Fin 200) (q : Fin 64) :
    broadcastTo S200x64 b broadcasts_S1x64_S200x64 (ix2 p q) = b (ix2 (0 : Fin 1) q) := by
  refine broadcastTo_apply b broadcasts_S1x64_S200x64 (ix2 p q) (ix2 (0 : Fin 1) q) fun a => ?_
  match a with
  | ⟨0, _⟩ => rfl
  | ⟨1, _⟩ => rfl

/-- The third chain's hidden rows at one entry: the adjacency rows times the table, plus the bias row, cut at zero. -/
theorem hidden3_at (x0 : FVec Ideal S200x10000 .bf16) (x1 : FVec Ideal S10000x16 .bf16) (b : FVec Ideal S1x16 .f32)
    (p : Fin 200) (k : Fin 16) :
    k3_pay2 (F := Ideal) x0 x1 b (ix2 p k)
      = max ((∑ l : Fin 10000, x0 (ix2 p l) * x1 (ix2 l k)) + b (ix2 (0 : Fin 1) k)) 0 := by
  unfold k3_pay2
  simp only [shapeCast_self]
  show max (FloatOps.matmul dot_S200x10000_S10000x16_S200x16_1_0_0_1_n_n none x0 x1 (constant S200x16 .f32 0x00000000#32) (ix2 p k)
      + broadcastTo S200x16 b broadcasts_S1x16_S200x16 (ix2 p k)) (Ideal.ofBits .f32 0x00000000#32) = _
  rw [Cert.MatmulRows.matmul_zero_ix2 dot_S200x10000_S10000x16_S200x16_1_0_0_1_n_n rfl rfl rfl rfl rfl rfl none x0 x1 p k,
    bcast16_at, Ideal.ofBits_zero_f32]

/-- A chain's rows plus its bias row, cut at zero, at one entry. -/
theorem relu3_at (r : FVec Ideal S200x16 .f32) (b : FVec Ideal S1x16 .f32) (p : Fin 200) (k : Fin 16) :
    maximumf (addf r (broadcastTo S200x16 b broadcasts_S1x16_S200x16)) (broadcast S200x16 (FloatOps.ofBits (F := Ideal) .f32 0x00000000#32)) (ix2 p k)
      = max (r (ix2 p k) + b (ix2 (0 : Fin 1) k)) 0 := by
  show max (r (ix2 p k) + broadcastTo S200x16 b broadcasts_S1x16_S200x16 (ix2 p k)) (Ideal.ofBits .f32 0x00000000#32) = _
  rw [bcast16_at, Ideal.ofBits_zero_f32]

/-- The first two chains at one entry: each chain's rows plus its bias row, cut at zero, times its weights; the two added. -/
theorem chains3_at (r1 : FVec Ideal S200x16 .f32) (b1 : FVec Ideal S1x16 .f32) (r2 : FVec Ideal S200x16 .f32) (b2 : FVec Ideal S1x16 .f32)
    (w1 w2 : FVec Ideal S16x64 .f32) (p : Fin 200) (q : Fin 64) :
    k3_pay3 (F := Ideal) r1 b1 r2 b2 w1 w2 (ix2 p q)
      = (∑ k : Fin 16, max (r1 (ix2 p k) + b1 (ix2 (0 : Fin 1) k)) 0 * w1 (ix2 k q))
        + (∑ k : Fin 16, max (r2 (ix2 p k) + b2 (ix2 (0 : Fin 1) k)) 0 * w2 (ix2 k q)) := by
  unfold k3_pay3
  simp only [shapeCast_self]
  show FloatOps.matmul dot_S200x16_S16x64_S200x64_1_0_0_1_n_n none
        (maximumf (addf r1 (broadcastTo S200x16 b1 broadcasts_S1x16_S200x16)) (broadcast S200x16 (FloatOps.ofBits (F := Ideal) .f32 0x00000000#32)))
        w1 (constant S200x64 .f32 0x00000000#32) (ix2 p q)
      + FloatOps.matmul dot_S200x16_S16x64_S200x64_1_0_0_1_n_n none
        (maximumf (addf r2 (broadcastTo S200x16 b2 broadcasts_S1x16_S200x16)) (broadcast S200x16 (FloatOps.ofBits (F := Ideal) .f32 0x00000000#32)))
        w2 (constant S200x64 .f32 0x00000000#32) (ix2 p q) = _
  rw [Cert.MatmulRows.matmul_zero_ix2 dot_S200x16_S16x64_S200x64_1_0_0_1_n_n rfl rfl rfl rfl rfl rfl none _ w1 p q,
    Cert.MatmulRows.matmul_zero_ix2 dot_S200x16_S16x64_S200x64_1_0_0_1_n_n rfl rfl rfl rfl rfl rfl none _ w2 p q]
  congr 1 <;> refine Finset.sum_congr rfl fun k _ => ?_ <;> rw [relu3_at]

/-- The read-out at one entry: the first two chains, plus the third chain's hidden rows times its weights, plus the
    read-out bias row, through the logistic function. -/
theorem readout3_at (h : FVec Ideal S200x16 .f32) (s : FVec Ideal S200x64 .f32) (w3 : FVec Ideal S16x64 .f32) (bo : FVec Ideal S1x64 .f32)
    (p : Fin 200) (q : Fin 64) :
    k3_pay1 (F := Ideal) h s w3 bo (ix2 p q)
      = Ideal.logistic ((s (ix2 p q) + ∑ k : Fin 16, h (ix2 p k) * w3 (ix2 k q)) + bo (ix2 (0 : Fin 1) q)) := by
  unfold k3_pay1
  simp only [shapeCast_self]
  show Ideal.logistic ((s (ix2 p q) + FloatOps.matmul dot_S200x16_S16x64_S200x64_1_0_0_1_n_n none h w3 (constant S200x64 .f32 0x00000000#32) (ix2 p q))
      + broadcastTo S200x64 bo broadcasts_S1x64_S200x64 (ix2 p q)) = _
  rw [Cert.MatmulRows.matmul_zero_ix2 dot_S200x16_S16x64_S200x64_1_0_0_1_n_n rfl rfl rfl rfl rfl rfl none h w3 p q, bcast64_at]

/-- The block indices at every grid point: the adjacency's, the first two chains' and the result's row block is the
    point's number; the table, the bias rows and the weights are taken whole. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0
    ∧ win3_11.index t (0 : Fin 2) = t.val ∧ win3_11.index t (1 : Fin 2) = 0 :=
  (by decide +kernel : ∀ t : Fin grid3.N, _)

theorem zero_offsets3 : (![0, 0] : Fin 2 → Nat) = fun _ => 0 := funext fun a => by fin_cases a <;> rfl

/-- The read-out of the whole arrays, entry by entry: each of the first two chains' rows plus its bias row, cut at
    zero, times its weights; the third chain's rows, the adjacency times the table, likewise; the three added, plus
    the read-out bias row, through the logistic function. -/
abbrev readout3 (adj : S10000x10000.Idx → EReal) (tab : S10000x16.Idx → EReal) (r1 r2 : S10000x16.Idx → EReal)
    (b1 b2 b3 : S1x16.Idx → EReal) (w1 w2 w3 : S16x64.Idx → EReal) (bo : S1x64.Idx → EReal) : S10000x64.Idx → EReal :=
  fun i => Ideal.logistic ((((∑ k : Fin 16, max (r1 (ix2 (i 0) k) + b1 (ix2 (0 : Fin 1) k)) 0 * w1 (ix2 k (i 1)))
      + (∑ k : Fin 16, max (r2 (ix2 (i 0) k) + b2 (ix2 (0 : Fin 1) k)) 0 * w2 (ix2 k (i 1))))
      + (∑ k : Fin 16, max ((∑ l : Fin 10000, adj (ix2 (i 0) l) * tab (ix2 l k)) + b3 (ix2 (0 : Fin 1) k)) 0 * w3 (ix2 k (i 1))))
      + bo (ix2 (0 : Fin 1) (i 1)))

/-- What point t writes back is block t of the read-out of the whole arrays. -/
theorem flushed3_eq (c : Dev nD) (t : Fin cfg3.N) :
    (dat3 V c).flushed 11 t = ((cfg3.win 11).blk t).view.read (Elt Ideal)
      (readout3 (V c main_v2_1) (V c main_v9) (V c main_v6) (V c main_v7) (V c main_v10) (V c main_v11) (V c main_v12)
        (V c main_v13) (V c main_v14) (V c main_v15) (V c main_v16)) := by
  show (cfg3.win 11).cut (grid3.coords t) ((dat3 V c).after 11 t) = _
  rw [after3_11]
  unfold out3_11
  rw [View.canon_unit_zero zero_offsets3]
  simp only [View.ld_unit_zero (S := S200x10000) zero_offsets3, View.ld_unit_zero (S := S10000x16) zero_offsets3,
    View.ld_unit_zero (S := S200x16) zero_offsets3, View.ld_unit_zero (S := S1x16) zero_offsets3,
    View.ld_unit_zero (S := S16x64) zero_offsets3, View.ld_unit_zero (S := S1x64) zero_offsets3]
  obtain ⟨f0a, f0b, f1a, f1b, f2a, f2b, f3a, f3b, f4a, f4b, f5a, f5b, f6a, f6b, f7a, f7b, f8a, f8b, f9a, f9b, f10a, f10b, f11a, f11b⟩ := idx_facts3 t
  funext j
  obtain ⟨p, q, rfl⟩ : ∃ (p : Fin 200) (q : Fin 64), j = ix2 p q := ⟨j 0, j 1, eq_ix2 j⟩
  have ht : t.val < 50 := t.isLt
  have hp : p.val < 200 := p.isLt
  -- row p of point t's blocks is row 200 t + p of the arrays
  obtain ⟨P, hP⟩ : ∃ P : Fin 10000, P.val = t.val * 200 + p.val := ⟨⟨t.val * 200 + p.val, by omega⟩, rfl⟩
  have he : ((cfg3.win 11).blk t).view.emb (ix2 p q) = ix2 P q := by
    funext a; apply Fin.ext
    match a with
    | ⟨0, _⟩ => show win3_11.index t (0 : Fin 2) * 200 + 1 * p.val = P.val; omega
    | ⟨1, _⟩ => show win3_11.index t (1 : Fin 2) * 64 + 1 * q.val = q.val; omega
  have h0 : ∀ (l : Fin 10000), iblk3 V c 0 t (ix2 p l) = V c main_v2_1 (ix2 P l) := fun l => by
    show V c main_v2_1 (((cfg3.win 0).blk t).view.emb (ix2 p l)) = _
    refine congrArg (V c main_v2_1) ?_
    funext a; apply Fin.ext
    match a with
    | ⟨0, _⟩ => show win3_0.index t (0 : Fin 2) * 200 + 1 * p.val = P.val; omega
    | ⟨1, _⟩ => show win3_0.index t (1 : Fin 2) * 10000 + 1 * l.val = l.val; omega
  have h1 : ∀ (l : Fin 10000) (k : Fin 16), iblk3 V c 1 t (ix2 l k) = V c main_v9 (ix2 l k) := fun l k => by
    show V c main_v9 (((cfg3.win 1).blk t).view.emb (ix2 l k)) = _
    refine congrArg (V c main_v9) ?_
    funext a; apply Fin.ext
    match a with
    | ⟨0, _⟩ => show win3_1.index t (0 : Fin 2) * 10000 + 1 * l.val = l.val; omega
    | ⟨1, _⟩ => show win3_1.index t (1 : Fin 2) * 16 + 1 * k.val = k.val; omega
  have h2 : ∀ (k : Fin 16), iblk3 V c 2 t (ix2 p k) = V c main_v6 (ix2 P k) := fun k => by
    show V c main_v6 (((cfg3.win 2).blk t).view.emb (ix2 p k)) = _
    refine congrArg (V c main_v6) ?_
    funext a; apply Fin.ext
    match a with
    | ⟨0, _⟩ => show win3_2.index t (0 : Fin 2) * 200 + 1 * p.val = P.val; omega
    | ⟨1, _⟩ => show win3_2.index t (1 : Fin 2) * 16 + 1 * k.val = k.val; omega
  have h3 : ∀ (k : Fin 16), iblk3 V c 3 t (ix2 p k) = V c main_v7 (ix2 P k) := fun k => by
    show V c main_v7 (((cfg3.win 3).blk t).view.emb (ix2 p k)) = _
    refine congrArg (V c main_v7) ?_
    funext a; apply Fin.ext
    match a with
    | ⟨0, _⟩ => show win3_3.index t (0 : Fin 2) * 200 + 1 * p.val = P.val; omega
    | ⟨1, _⟩ => show win3_3.index t (1 : Fin 2) * 16 + 1 * k.val = k.val; omega
  have h4 : ∀ (k : Fin 16), iblk3 V c 4 t (ix2 (0 : Fin 1) k) = V c main_v10 (ix2 (0 : Fin 1) k) := fun k => by
    show V c main_v10 (((cfg3.win 4).blk t).view.emb (ix2 (0 : Fin 1) k)) = _
    refine congrArg (V c main_v10) ?_
    funext a; apply Fin.ext
    match a with
    | ⟨0, _⟩ => show win3_4.index t (0 : Fin 2) * 1 + 1 * (0 : Fin 1).val = (0 : Fin 1).val; omega
    | ⟨1, _⟩ => show win3_4.index t (1 : Fin 2) * 16 + 1 * k.val = k.val; omega
  have h5 : ∀ (k : Fin 16), iblk3 V c 5 t (ix2 (0 : Fin 1) k) = V c main_v11 (ix2 (0 : Fin 1) k) := fun k => by
    show V c main_v11 (((cfg3.win 5).blk t).view.emb (ix2 (0 : Fin 1) k)) = _
    refine congrArg (V c main_v11) ?_
    funext a; apply Fin.ext
    match a with
    | ⟨0, _⟩ => show win3_5.index t (0 : Fin 2) * 1 + 1 * (0 : Fin 1).val = (0 : Fin 1).val; omega
    | ⟨1, _⟩ => show win3_5.index t (1 : Fin 2) * 16 + 1 * k.val = k.val; omega
  have h6 : ∀ (k : Fin 16), iblk3 V c 6 t (ix2 (0 : Fin 1) k) = V c main_v12 (ix2 (0 : Fin 1) k) := fun k => by
    show V c main_v12 (((cfg3.win 6).blk t).view.emb (ix2 (0 : Fin 1) k)) = _
    refine congrArg (V c main_v12) ?_
    funext a; apply Fin.ext
    match a with
    | ⟨0, _⟩ => show win3_6.index t (0 : Fin 2) * 1 + 1 * (0 : Fin 1).val = (0 : Fin 1).val; omega
    | ⟨1, _⟩ => show win3_6.index t (1 : Fin 2) * 16 + 1 * k.val = k.val; omega
  have h7 : ∀ (k : Fin 16), iblk3 V c 7 t (ix2 k q) = V c main_v13 (ix2 k q) := fun k => by
    show V c main_v13 (((cfg3.win 7).blk t).view.emb (ix2 k q)) = _
    refine congrArg (V c main_v13) ?_
    funext a; apply Fin.ext
    match a with
    | ⟨0, _⟩ => show win3_7.index t (0 : Fin 2) * 16 + 1 * k.val = k.val; omega
    | ⟨1, _⟩ => show win3_7.index t (1 : Fin 2) * 64 + 1 * q.val = q.val; omega
  have h8 : ∀ (k : Fin 16), iblk3 V c 8 t (ix2 k q) = V c main_v14 (ix2 k q) := fun k => by
    show V c main_v14 (((cfg3.win 8).blk t).view.emb (ix2 k q)) = _
    refine congrArg (V c main_v14) ?_
    funext a; apply Fin.ext
    match a with
    | ⟨0, _⟩ => show win3_8.index t (0 : Fin 2) * 16 + 1 * k.val = k.val; omega
    | ⟨1, _⟩ => show win3_8.index t (1 : Fin 2) * 64 + 1 * q.val = q.val; omega
  have h9 : ∀ (k : Fin 16), iblk3 V c 9 t (ix2 k q) = V c main_v15 (ix2 k q) := fun k => by
    show V c main_v15 (((cfg3.win 9).blk t).view.emb (ix2 k q)) = _
    refine congrArg (V c main_v15) ?_
    funext a; apply Fin.ext
    match a with
    | ⟨0, _⟩ => show win3_9.index t (0 : Fin 2) * 16 + 1 * k.val = k.val; omega
    | ⟨1, _⟩ => show win3_9.index t (1 : Fin 2) * 64 + 1 * q.val = q.val; omega
  have h10 : iblk3 V c 10 t (ix2 (0 : Fin 1) q) = V c main_v16 (ix2 (0 : Fin 1) q) := by
    show V c main_v16 (((cfg3.win 10).blk t).view.emb (ix2 (0 : Fin 1) q)) = _
    refine congrArg (V c main_v16) ?_
    funext a; apply Fin.ext
    match a with
    | ⟨0, _⟩ => show win3_10.index t (0 : Fin 2) * 1 + 1 * (0 : Fin 1).val = (0 : Fin 1).val; omega
    | ⟨1, _⟩ => show win3_10.index t (1 : Fin 2) * 64 + 1 * q.val = q.val; omega
  refine (readout3_at _ _ _ _ p q).trans ?_
  show _ = readout3 (V c main_v2_1) (V c main_v9) (V c main_v6) (V c main_v7) (V c main_v10) (V c main_v11) (V c main_v12)
      (V c main_v13) (V c main_v14) (V c main_v15) (V c main_v16) (((cfg3.win 11).blk t).view.emb (ix2 p q))
  rw [he]
  have hS := chains3_at (iblk3 V c 2 t) (iblk3 V c 4 t) (iblk3 V c 3 t) (iblk3 V c 5 t) (iblk3 V c 7 t) (iblk3 V c 8 t) p q
  have hH := fun k : Fin 16 => hidden3_at (iblk3 V c 0 t) (iblk3 V c 1 t) (iblk3 V c 6 t) p k
  rw [hS]
  simp only [hH, h0, h1, h2, h3, h4, h5, h6, h7, h8, h9, h10]

/-- An index of the result array is in point t's block iff each coordinate is in the block's range on its axis. -/
theorem mem_blk3 (t : Fin cfg3.N) (i : S10000x64.Idx) :
    i ∈ ((cfg3.win 11).blk t).view.set ↔ ∀ a : Fin 2, win3_11.index t a * S200x64.size a ≤ (i a).val ∧ (i a).val < win3_11.index t a * S200x64.size a + S200x64.size a := by
  show i ∈ ((View.whole main_v17).slice (win3_11.rect t)).set ↔ _
  rw [View.set_slice_whole, Rect.mem_set_unit]
  exact Iff.rfl

/-- Row r of the result lies in the block of point r / 200, and every point writes its block back. -/
theorem cover3 (i : S10000x64.Idx) :
    ∃ t : Fin cfg3.N, (cfg3.win 11).flush t = true ∧ i ∈ ((cfg3.win 11).blk t).view.set := by
  have hi0 : (i 0).val < 10000 := idx2_lt0 i
  have hi1 : (i 1).val < 64 := idx2_lt1 i
  obtain ⟨t, ht⟩ : ∃ t : Fin cfg3.N, t.val = (i 0).val / 200 :=
    ⟨⟨(i 0).val / 200, by show (i 0).val / 200 < 50; omega⟩, rfl⟩
  have f11 : win3_11.index t (0 : Fin 2) = t.val ∧ win3_11.index t (1 : Fin 2) = 0 := by
    obtain ⟨-, -, -, -, -, -, -, -, -, -, -, -, -, -, -, -, -, -, -, -, -, -, fa, fb⟩ := idx_facts3 t
    exact ⟨fa, fb⟩
  obtain ⟨f11a, f11b⟩ := f11
  refine ⟨t, flush3_11 t, ?_⟩
  rw [mem_blk3]
  intro a
  match a with
  | ⟨0, _⟩ => show win3_11.index t (0 : Fin 2) * 200 ≤ (i 0).val ∧ (i 0).val < win3_11.index t (0 : Fin 2) * 200 + 200; omega
  | ⟨1, _⟩ => show win3_11.index t (1 : Fin 2) * 64 ≤ (i 1).val ∧ (i 1).val < win3_11.index t (1 : Fin 2) * 64 + 64; omega

/-- The result array after the region: the read-out of the whole arrays, entry by entry. -/
theorem final3_11 (c : Dev nD) : (dat3 V c).arrAt 11 cfg3.N
    = readout3 (V c main_v2_1) (V c main_v9) (V c main_v6) (V c main_v7) (V c main_v10) (V c main_v11) (V c main_v12)
        (V c main_v13) (V c main_v14) (V c main_v15) (V c main_v16) :=
  (dat3 V c).arrAt_eq_of_cover 11
    (readout3 (V c main_v2_1) (V c main_v9) (V c main_v6) (V c main_v7) (V c main_v10) (V c main_v11) (V c main_v12)
      (V c main_v13) (V c main_v14) (V c main_v15) (V c main_v16))
    (fun t _ => flushed3_eq V c t) cover3

/-- The read-out read at one entry. -/
theorem readout3_apply (adj : S10000x10000.Idx → EReal) (tab : S10000x16.Idx → EReal) (r1 r2 : S10000x16.Idx → EReal)
    (b1 b2 b3 : S1x16.Idx → EReal) (w1 w2 w3 : S16x64.Idx → EReal) (bo : S1x64.Idx → EReal) (p : Fin 10000) (q : Fin 64) :
    readout3 adj tab r1 r2 b1 b2 b3 w1 w2 w3 bo (ix2 p q)
      = Ideal.logistic ((((∑ k : Fin 16, max (r1 (ix2 p k) + b1 (ix2 (0 : Fin 1) k)) 0 * w1 (ix2 k q))
          + (∑ k : Fin 16, max (r2 (ix2 p k) + b2 (ix2 (0 : Fin 1) k)) 0 * w2 (ix2 k q)))
          + (∑ k : Fin 16, max ((∑ l : Fin 10000, adj (ix2 p l) * tab (ix2 l k)) + b3 (ix2 (0 : Fin 1) k)) 0 * w3 (ix2 k q)))
          + bo (ix2 (0 : Fin 1) q)) := rfl

end Cert.KernelIdeal.Value

end
-- ==== Proof.Spec.lean ====
/-
  The network's result as one function of its ten arrays, entry by entry, on the extended reals.

  Three propagation chains share one normalised adjacency `adj`: the features times a [256, 16] weight, then
  one, two or three products with `adj`.  Each chain gets its bias row and is clamped at zero; the three clamped
  [10000, 16] blocks, side by side, meet the [48, 64] read-out weight (rows 0–15, 16–31, 32–47 for chains 1, 2, 3),
  the read-out bias is added and the logistic function applied.
-/
import Idealize.ShloMosaic.PureOps.Ideal
import Idealize.ShloMosaic.Lib.ValueIdx

noncomputable section

namespace Cert.Ngcn

open Idealize.ShloMosaic Idealize.ShloMosaic.ValueIdx

/-- A table of 10000 rows of 16 extended reals, by coordinates. -/
abbrev Tab : Type := Fin 10000 → Fin 16 → EReal

/-- The features times one chain's weight: entry (l, k) is the sum over the 256 features. -/
def feat (x : FVec Ideal ⟨2, ![10000, 256]⟩ .f32) (W : FVec Ideal ⟨2, ![256, 16]⟩ .f32) : Tab :=
  fun l k => ∑ f : Fin 256, x (ix2 l f) * W (ix2 f k)

/-- One propagation step: entry (i, k) is the sum over the 10000 nodes of `adj i l` times the table's row `l`. -/
def prop (adj : FVec Ideal ⟨2, ![10000, 10000]⟩ .f32) (h : Tab) : Tab :=
  fun i k => ∑ l : Fin 10000, adj (ix2 i l) * h l k

/-- A chain's table with its bias row added, clamped at zero. -/
def act (h : Tab) (b : FVec Ideal ⟨1, ![16]⟩ .f32) : Tab :=
  fun i k => max (h i k + b (ix1 k)) 0

/-- One chain's share of the read-out at (i, j): its clamped row `i` against rows `off … off+15` of the weight. -/
def share (a : Tab) (Wfc : FVec Ideal ⟨2, ![48, 64]⟩ .f32) (off : Nat) (hoff : off + 16 ≤ 48) (i : Fin 10000) (j : Fin 64) : EReal :=
  ∑ k : Fin 16, a i k * Wfc (ix2 (⟨off + k.val, by omega⟩ : Fin 48) j)

variable (x : FVec Ideal ⟨2, ![10000, 256]⟩ .f32) (adj : FVec Ideal ⟨2, ![10000, 10000]⟩ .f32)
  (W1 : FVec Ideal ⟨2, ![256, 16]⟩ .f32) (b1 : FVec Ideal ⟨1, ![16]⟩ .f32)
  (W2 : FVec Ideal ⟨2, ![256, 16]⟩ .f32) (b2 : FVec Ideal ⟨1, ![16]⟩ .f32)
  (W3 : FVec Ideal ⟨2, ![256, 16]⟩ .f32) (b3 : FVec Ideal ⟨1, ![16]⟩ .f32)
  (Wfc : FVec Ideal ⟨2, ![48, 64]⟩ .f32) (bfc : FVec Ideal ⟨1, ![64]⟩ .f32)

/-- The chains' tables before the bias: one, two and three propagation steps. -/
def h1 : Tab := prop adj (feat x W1)
def h2 : Tab := prop adj (prop adj (feat x W2))
def h3 : Tab := prop adj (prop adj (prop adj (feat x W3)))

/-- The read-out before the logistic function, at (i, j): the three shares, summed in this order, plus the bias. -/
def pre (i : Fin 10000) (j : Fin 64) : EReal :=
  ((share (act (h1 x adj W1) b1) Wfc 0 (by omega) i j + share (act (h2 x adj W2) b2) Wfc 16 (by omega) i j)
      + share (act (h3 x adj W3) b3) Wfc 32 (by omega) i j)
    + bfc (ix1 j)

/-- The network's result. -/
def out : FVec Ideal ⟨2, ![10000, 64]⟩ .f32 :=
  fun i => Ideal.logistic (pre x adj W1 b1 W2 b2 W3 b3 Wfc bfc (i 0) (i 1))

theorem out_ix2 (i : Fin 10000) (j : Fin 64) :
    out x adj W1 b1 W2 b2 W3 b3 Wfc bfc (ix2 i j) = Ideal.logistic (pre x adj W1 b1 W2 b2 W3 b3 Wfc bfc i j) := rfl

end Cert.Ngcn

end
-- ==== Proof.KiBridge.lean ====
/-
  The kernel's result against the specification, entry by entry.

  Reading the fold of buffer contents boundary by boundary: the first region's [10000, 48] table holds, in its three
  16-column thirds, the features times each chain's weight (a column of a matrix product sees only that column of the
  right factor); the first propagation step keeps the thirds, so its first third is chain 1's table, and its other two
  thirds, cut out and propagated once more, give chain 2's table and the input of chain 3's last step.  The last
  region propagates that once more, adds the bias rows, clamps at zero and multiplies each clamped block by its 16
  rows of the read-out weight: the three shares of the specification, summed in the same order, plus the same bias,
  under the same logistic function.  No law beyond rewriting equal entries is used, so nothing here needs the inputs finite.
-/
import proofs.«168879_g60241211293926_cont_9to1_m_960_5_alg».proof.Proof.KiFold
import proofs.«168879_g60241211293926_cont_9to1_m_960_5_alg».proof.Proof.KiValue0
import proofs.«168879_g60241211293926_cont_9to1_m_960_5_alg».proof.Proof.KiValue1
import proofs.«168879_g60241211293926_cont_9to1_m_960_5_alg».proof.Proof.KiValue2
import proofs.«168879_g60241211293926_cont_9to1_m_960_5_alg».proof.Proof.KiValue3
import proofs.«168879_g60241211293926_cont_9to1_m_960_5_alg».proof.Proof.Spec

set_option maxRecDepth 16384

noncomputable section

namespace Cert.KernelIdeal.Value

open Cert.KernelIdeal Cert.KernelIdeal.Gen Cert.KernelIdeal.Frame
open Idealize.ShloMosaic Idealize.ShloMosaic.TcCoe Idealize.ShloMosaic.StableHlo Idealize.ShloMosaic.ValueIdx Idealize.SL.Sem
open Cert.Ngcn

variable (m : (ℓ : Loc nD τ sig) → Buf (Elt Ideal) ℓ) (ρ : Dev nD → PrngReg) (c : Dev nD)

/-- The ten argument arrays as launched. -/
abbrev aX : FVec Ideal S10000x256 .f32 := m ((c : Thread nD τ).loc main_arg0)
abbrev aADJ : FVec Ideal S10000x10000 .f32 := m ((c : Thread nD τ).loc main_arg1)
abbrev aW1 : FVec Ideal S256x16 .f32 := m ((c : Thread nD τ).loc main_arg2)
abbrev aB1 : FVec Ideal S16 .f32 := m ((c : Thread nD τ).loc main_arg3)
abbrev aW2 : FVec Ideal S256x16 .f32 := m ((c : Thread nD τ).loc main_arg4)
abbrev aB2 : FVec Ideal S16 .f32 := m ((c : Thread nD τ).loc main_arg5)
abbrev aW3 : FVec Ideal S256x16 .f32 := m ((c : Thread nD τ).loc main_arg6)
abbrev aB3 : FVec Ideal S16 .f32 := m ((c : Thread nD τ).loc main_arg7)
abbrev aWf : FVec Ideal S48x64 .f32 := m ((c : Thread nD τ).loc main_arg8)
abbrev aBf : FVec Ideal S64 .f32 := m ((c : Thread nD τ).loc main_arg9)

/-- The tables the regions leave, as arrays of extended reals: the joined weight, the features times it, the first
    propagation step, its last 32 columns narrowed, the second step. -/
abbrev tJ : S256x48.Idx → EReal := V1 (F := Ideal) m ρ c main_v0
abbrev tU : S10000x48.Idx → EReal := V2 (F := Ideal) m ρ c main_v1
abbrev tA1 : S10000x48.Idx → EReal := V3 (F := Ideal) m ρ c main_v2_0
abbrev tH : S10000x32.Idx → EReal := V4 (F := Ideal) m ρ c main_v4
abbrev tA2 : S10000x32.Idx → EReal := V5 (F := Ideal) m ρ c main_v5

/-! ## Region 0: the features times the joined weight -/

theorem tU_at (l : Fin 10000) (e : Fin 48) :
    tU m ρ c (ix2 l e) = ∑ f : Fin 256, aX m c (ix2 l f) * tJ m ρ c (ix2 f e) := by
  have h := congrFun ((W2_arr (F := Ideal) m ρ c 2).trans (final0_2 (V1 m ρ) c)) (ix2 l e)
  refine h.trans ((prod0_apply _ _ l e).trans ?_)
  rw [V1_arg0]

theorem U_left (l : Fin 10000) (k : Fin 16) : tU m ρ c (ix2 l (⟨k.val, by omega⟩ : Fin 48)) = feat (aX m c) (aW1 m c) l k :=
  (tU_at m ρ c l _).trans (Finset.sum_congr rfl fun f _ => congrArg (aX m c (ix2 l f) * ·) (V1_v0_left m ρ c f k))
theorem U_mid (l : Fin 10000) (k : Fin 16) : tU m ρ c (ix2 l (⟨16 + k.val, by omega⟩ : Fin 48)) = feat (aX m c) (aW2 m c) l k :=
  (tU_at m ρ c l _).trans (Finset.sum_congr rfl fun f _ => congrArg (aX m c (ix2 l f) * ·) (V1_v0_mid m ρ c f k))
theorem U_right (l : Fin 10000) (k : Fin 16) : tU m ρ c (ix2 l (⟨32 + k.val, by omega⟩ : Fin 48)) = feat (aX m c) (aW3 m c) l k :=
  (tU_at m ρ c l _).trans (Finset.sum_congr rfl fun f _ => congrArg (aX m c (ix2 l f) * ·) (V1_v0_right m ρ c f k))

theorem V2_arg1 : V2 (F := Ideal) m ρ c main_arg1 = m ((c : Thread nD τ).loc main_arg1) :=
  (W2_keep m ρ c main_arg1 (by decide)).trans ((StableHlo.after_of_writes_sub hostOps0 _ hostOps0_writes (by decide)).trans rfl)

/-! ## Region 1: the first propagation step, and the adjacency's narrow copy -/

theorem tA1_at (i : Fin 10000) (e : Fin 48) :
    tA1 m ρ c (ix2 i e) = ∑ l : Fin 10000, aADJ m c (ix2 i l) * tU m ρ c (ix2 l e) := by
  have h := congrFun ((W3_arr (F := Ideal) m ρ c 2).trans (final1_2 (V2 m ρ) c)) (ix2 i e)
  refine h.trans ((prod1_apply _ _ i e).trans ?_)
  rw [V2_arg1]

theorem V3_adj : (V3 (F := Ideal) m ρ c main_v2_1 : S10000x10000.Idx → EReal) = aADJ m c := by
  have h := (W3_arr (F := Ideal) m ρ c 3).trans (final1_3 (V2 m ρ) c)
  refine h.trans ?_
  show V2 (F := Ideal) m ρ c main_arg1 = _
  rw [V2_arg1]

theorem A1_left (i : Fin 10000) (k : Fin 16) : tA1 m ρ c (ix2 i (⟨k.val, by omega⟩ : Fin 48)) = prop (aADJ m c) (feat (aX m c) (aW1 m c)) i k :=
  (tA1_at m ρ c i _).trans (Finset.sum_congr rfl fun l _ => congrArg (aADJ m c (ix2 i l) * ·) (U_left m ρ c l k))
theorem A1_mid (i : Fin 10000) (k : Fin 16) : tA1 m ρ c (ix2 i (⟨16 + k.val, by omega⟩ : Fin 48)) = prop (aADJ m c) (feat (aX m c) (aW2 m c)) i k :=
  (tA1_at m ρ c i _).trans (Finset.sum_congr rfl fun l _ => congrArg (aADJ m c (ix2 i l) * ·) (U_mid m ρ c l k))
theorem A1_right (i : Fin 10000) (k : Fin 16) : tA1 m ρ c (ix2 i (⟨32 + k.val, by omega⟩ : Fin 48)) = prop (aADJ m c) (feat (aX m c) (aW3 m c)) i k :=
  (tA1_at m ρ c i _).trans (Finset.sum_congr rfl fun l _ => congrArg (aADJ m c (ix2 i l) * ·) (U_right m ρ c l k))

/-! ## Region 2: the second propagation step of chains 2 and 3 -/

theorem V4_adj : (V4 (F := Ideal) m ρ c main_v2_1 : S10000x10000.Idx → EReal) = aADJ m c := by
  rw [V4_v2_1]; exact V3_adj m ρ c

theorem tH_at (l : Fin 10000) (e : Fin 32) : tH m ρ c (ix2 l e) = tA1 m ρ c (ix2 l (⟨16 + e.val, by omega⟩ : Fin 48)) :=
  V4_v4 m ρ c l e

theorem tA2_at (i : Fin 10000) (e : Fin 32) :
    tA2 m ρ c (ix2 i e) = ∑ l : Fin 10000, aADJ m c (ix2 i l) * tH m ρ c (ix2 l e) := by
  have h := congrFun ((W5_arr (F := Ideal) m ρ c 2).trans (final2_2 (V4 m ρ) c)) (ix2 i e)
  refine h.trans ((prod2_apply _ _ i e).trans ?_)
  rw [V4_adj]

theorem A2_mid (i : Fin 10000) (k : Fin 16) :
    tA2 m ρ c (ix2 i (⟨k.val, by omega⟩ : Fin 32)) = prop (aADJ m c) (prop (aADJ m c) (feat (aX m c) (aW2 m c))) i k :=
  (tA2_at m ρ c i _).trans (Finset.sum_congr rfl fun l _ => congrArg (aADJ m c (ix2 i l) * ·) ((tH_at m ρ c l _).trans (A1_mid m ρ c l k)))
theorem A2_right (i : Fin 10000) (k : Fin 16) :
    tA2 m ρ c (ix2 i (⟨16 + k.val, by omega⟩ : Fin 32)) = prop (aADJ m c) (prop (aADJ m c) (feat (aX m c) (aW3 m c))) i k :=
  (tA2_at m ρ c i _).trans (Finset.sum_congr rfl fun l _ => congrArg (aADJ m c (ix2 i l) * ·) ((tH_at m ρ c l _).trans
    ((congrArg (tA1 m ρ c) (congrArg₂ ix2 rfl (Fin.ext (by show 16 + (16 + k.val) = 32 + k.val; omega)))).trans (A1_right m ρ c l k))))

theorem V5_v2_0 : V5 (F := Ideal) m ρ c main_v2_0 = V3 (F := Ideal) m ρ c main_v2_0 :=
  (W5_keep m ρ c main_v2_0 (by decide)).trans (StableHlo.after_of_writes_sub hostOps2 _ hostOps2_writes (by decide))
theorem V5_adj : (V5 (F := Ideal) m ρ c main_v2_1 : S10000x10000.Idx → EReal) = aADJ m c := by
  rw [show V5 (F := Ideal) m ρ c main_v2_1 = V4 (F := Ideal) m ρ c main_v2_1 from W5_keep m ρ c main_v2_1 (by decide)]
  exact V4_adj m ρ c

/-! ## Region 3: the last step and the read-out -/

theorem kernel_value : (W7 (F := Ideal) m ρ c (Proc.devRef .tc main_v17) : S10000x64.Idx → EReal)
    = Cert.Ngcn.out (aX m c) (aADJ m c) (aW1 m c) (aB1 m c) (aW2 m c) (aB2 m c) (aW3 m c) (aB3 m c) (aWf m c) (aBf m c) := by
  funext i
  obtain ⟨p, q, rfl⟩ : ∃ (p : Fin 10000) (q : Fin 64), i = ix2 p q := ⟨i 0, i 1, eq_ix2 i⟩
  rw [out_ix2]
  have h := congrFun ((W7_arr (F := Ideal) m ρ c 11).trans (final3_11 (V6 m ρ) c)) (ix2 p q)
  refine h.trans ((readout3_apply _ _ _ _ _ _ _ _ _ _ _ p q).trans ?_)
  refine congrArg Ideal.logistic ?_
  unfold pre share act h1 h2 h3
  refine congrArg₂ (· + ·) (congrArg₂ (· + ·) (congrArg₂ (· + ·) ?_ ?_) ?_) (V6_v16 m ρ c q)
  · refine Finset.sum_congr rfl fun k _ => ?_
    refine congrArg₂ (· * ·) (congrArg (max · 0) (congrArg₂ (· + ·) ?_ (V6_v10 m ρ c k))) (V6_v13 m ρ c k q)
    refine (V6_v6 m ρ c p k).trans ?_
    rw [V5_v2_0]
    exact A1_left m ρ c p k
  · refine Finset.sum_congr rfl fun k _ => ?_
    refine congrArg₂ (· * ·) (congrArg (max · 0) (congrArg₂ (· + ·) ?_ (V6_v11 m ρ c k))) (V6_v14 m ρ c k q)
    exact (V6_v7 m ρ c p k).trans (A2_mid m ρ c p k)
  · refine Finset.sum_congr rfl fun k _ => ?_
    refine congrArg₂ (· * ·) (congrArg (max · 0) (congrArg₂ (· + ·) ?_ (V6_v12 m ρ c k))) (V6_v15 m ρ c k q)
    show _ = prop (aADJ m c) (prop (aADJ m c) (prop (aADJ m c) (feat (aX m c) (aW3 m c)))) p k
    refine Finset.sum_congr rfl fun l _ => ?_
    refine congrArg₂ (· * ·) ?_ ((V6_v9 m ρ c l k).trans (A2_right m ρ c l k))
    rw [V6_v2_1, V5_adj]

/-! ## The run, read -/

section Run

variable (m : (ℓ : Loc nD τ sig) → Buf (Elt Ideal) ℓ) (ρ : Dev nD → PrngReg)

/-- Every weakly fair execution of the kernel's program terminates, nothing faulting; its result array ends at the
    specification's function of the argument arrays, and the argument arrays end as launched. -/
theorem run_spec : θ_run (defs (F := Ideal)) (onTc (τ := τ) (main (F := Ideal))) ⟨m, fun _ => 0, ρ⟩ (fun r => ∀ c : Dev nD,
      r.2.mem ((c.tc : Thread nD τ).loc main_v17)
          = Cert.Ngcn.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v17 (by decide))).trans (kernel_value m ρ c),
    (h c _ (mem_uc main_arg0 (by decide))).trans (W7_kept m ρ c main_arg0 (by decide) (by decide) (by decide) (by decide) (by decide) (by decide) (by decide)),
    (h c _ (mem_uc main_arg1 (by decide))).trans (W7_kept m ρ c main_arg1 (by decide) (by decide) (by decide) (by decide) (by decide) (by decide) (by decide)),
    (h c _ (mem_uc main_arg2 (by decide))).trans (W7_kept m ρ c main_arg2 (by decide) (by decide) (by decide) (by decide) (by decide) (by decide) (by decide)),
    (h c _ (mem_uc main_arg3 (by decide))).trans (W7_kept m ρ c main_arg3 (by decide) (by decide) (by decide) (by decide) (by decide) (by decide) (by decide)),
    (h c _ (mem_uc main_arg4 (by decide))).trans (W7_kept m ρ c main_arg4 (by decide) (by decide) (by decide) (by decide) (by decide) (by decide) (by decide)),
    (h c _ (mem_uc main_arg5 (by decide))).trans (W7_kept m ρ c main_arg5 (by decide) (by decide) (by decide) (by decide) (by decide) (by decide) (by decide)),
    (h c _ (mem_uc main_arg6 (by decide))).trans (W7_kept m ρ c main_arg6 (by decide) (by decide) (by decide) (by decide) (by decide) (by decide) (by decide)),
    (h c _ (mem_uc main_arg7 (by decide))).trans (W7_kept m ρ c main_arg7 (by decide) (by decide) (by decide) (by decide) (by decide) (by decide) (by decide)),
    (h c _ (mem_uc main_arg8 (by decide))).trans (W7_kept m ρ c main_arg8 (by decide) (by decide) (by decide) (by decide) (by decide) (by decide) (by decide)),
    (h c _ (mem_uc main_arg9 (by decide))).trans (W7_kept m ρ c main_arg9 (by decide) (by decide) (by decide) (by decide) (by decide) (by decide) (by decide))⟩)
    (run_all (F := Ideal) m ρ)

end Run

end Cert.KernelIdeal.Value

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«168879_g60241211293926_cont_9to1_m_960_5_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.RefTables.lean ====
/-
  The reference's intermediate tables, entry by entry.

  Each propagation chain of the reference is a product of the features with a [256, 16] weight followed by one, two or
  three products with the adjacency; a bias vector is laid out as a [1, 16] row, the row repeated over the 10000 nodes,
  and added.  Read at the entry (i, k), the products are the sums that the specification's `feat` and `prop` state, and
  the repeated row is the bias at k.  So each chain's table, before the clamp, is the specification's chain plus its bias.
-/
import proofs.«168879_g60241211293926_cont_9to1_m_960_5_alg».proof.Proof.Gen.ReferenceIdeal.Read
import proofs.«168879_g60241211293926_cont_9to1_m_960_5_alg».proof.Proof.Spec
import proofs.«168879_g60241211293926_cont_9to1_m_960_5_alg».proof.Proof.LibHostRowOps

noncomputable section

namespace Cert.ReferenceIdeal.RefValue

open Idealize.ShloMosaic Idealize.ShloMosaic.ValueIdx Cert.ReferenceIdeal Cert.ReferenceIdeal.Gen

/-- The features-by-weight product contracts the features' second axis with the weight's first. -/
theorem plain_feat : Cert.RowOps.IsPlain dot_S10000x256_S256x16_S10000x16_1_0_0_1_n_n := ⟨rfl, rfl, rfl, rfl, rfl, rfl⟩

/-- A propagation step contracts the adjacency's second axis with the table's first. -/
theorem plain_prop : Cert.RowOps.IsPlain dot_S10000x10000_S10000x16_S10000x16_1_0_0_1_n_n := ⟨rfl, rfl, rfl, rfl, rfl, rfl⟩

/-- The features times a chain's weight, at (l, k): the specification's `feat`. -/
theorem feat_read (x : FVec Ideal S10000x256 .f32) (W : FVec Ideal S256x16 .f32) (l : Fin 10000) (k : Fin 16) :
    Host.dotGeneral (F := Ideal) dot_S10000x256_S256x16_S10000x16_1_0_0_1_n_n none x W (ix2 l k) = Cert.Ngcn.feat x W l k :=
  Cert.HostRowOps.dot_apply plain_feat none x W l k

/-- One propagation step of an array whose entries are a table's: the specification's `prop` of that table. -/
theorem prop_read (adj : FVec Ideal S10000x10000 .f32) (h : FVec Ideal S10000x16 .f32) (t : Cert.Ngcn.Tab)
    (ht : ∀ (l : Fin 10000) (k : Fin 16), h (ix2 l k) = t l k) (i : Fin 10000) (k : Fin 16) :
    Host.dotGeneral (F := Ideal) dot_S10000x10000_S10000x16_S10000x16_1_0_0_1_n_n none adj h (ix2 i k) = Cert.Ngcn.prop adj t i k :=
  (Cert.HostRowOps.dot_apply plain_prop none adj h i k).trans
    (Finset.sum_congr rfl fun l _ => congrArg (adj (ix2 i l) * ·) (ht l k))

/-- A bias vector laid out as a row and repeated over the nodes reads, at (i, k), the bias at k. -/
theorem bias_read (b : FVec Ideal S16 .f32) (i : Fin 10000) (k : Fin 16) :
    broadcastInDim S10000x16 ![0, 1] bcast_S1x16_S10000x16_0_1 (broadcastInDim S1x16 ![1] bcast_S16_S1x16_1 b) (ix2 i k) = b (ix1 k) :=
  (Cert.HostRowOps.rowToMat_apply _ bcast_S1x16_S10000x16_0_1 i k).trans
    (Cert.HostRowOps.vecToRow_apply b bcast_S16_S1x16_1 0 k)

variable (x : FVec Ideal S10000x256 .f32) (adj : FVec Ideal S10000x10000 .f32)
  (W : FVec Ideal S256x16 .f32) (b : FVec Ideal S16 .f32)

/-- The first chain before the clamp, at (i, k): one propagation step of the features' product, plus the bias. -/
theorem chain1_read (i : Fin 10000) (k : Fin 16) :
    Read.val_main_v4 (F := Ideal) x adj W b (ix2 i k) = Cert.Ngcn.h1 x adj W i k + b (ix1 k) := by
  rw [Read.val_main_v4_apply, Ideal.addf_def]
  refine congrArg₂ (· + ·) ?_ (bias_read b i k)
  exact prop_read adj _ _ (feat_read x W) i k

/-- The second chain before the clamp, at (i, k): two propagation steps, plus the bias. -/
theorem chain2_read (i : Fin 10000) (k : Fin 16) :
    Read.val_main_v10 (F := Ideal) x adj W b (ix2 i k) = Cert.Ngcn.h2 x adj W i k + b (ix1 k) := by
  rw [Read.val_main_v10_apply, Ideal.addf_def]
  refine congrArg₂ (· + ·) ?_ (bias_read b i k)
  exact prop_read adj _ _ (prop_read adj _ _ (feat_read x W)) i k

/-- The third chain before the clamp, at (i, k): three propagation steps, plus the bias. -/
theorem chain3_read (i : Fin 10000) (k : Fin 16) :
    Read.val_main_v17 (F := Ideal) x adj W b (ix2 i k) = Cert.Ngcn.h3 x adj W i k + b (ix1 k) := by
  rw [Read.val_main_v17_apply, Ideal.addf_def]
  refine congrArg₂ (· + ·) ?_ (bias_read b i k)
  exact prop_read adj _ _ (prop_read adj _ _ (prop_read adj _ _ (feat_read x W))) i k

end Cert.ReferenceIdeal.RefValue

end
-- ==== Proof.LibLogisticTanh.lean ====
/-
  The logistic function written with a hyperbolic tangent, on the extended reals.

  For a real z, (1/2)·(1 + tanh(z/2)) = 1/(1 + e^(-z)): with a = e^(z/2), tanh(z/2) = (a - 1/a)/(a + 1/a), so
  1 + tanh(z/2) = 2a/(a + 1/a) = 2/(1 + 1/a²), and 1/a² = e^(-z).  At +∞ both sides are 1 (tanh is 1 there and
  e^(-∞) = 0); at -∞ both are 0 (tanh is -1 there, and 1/(1 + ∞) = 0).  So the two spellings are one function
  on all of [-∞, +∞], and no finiteness is needed to pass from one to the other.
-/
import Idealize.ShloMosaic.PureOps.Ideal

noncomputable section

namespace Cert.LogisticTanh

open Idealize.ShloMosaic

/-- The single-precision pattern of 0.5 denotes the real 1/2. -/
theorem ofBits_half : Ideal.ofBits .f32 0x3F000000#32 = ((1 / 2 : ℝ) : EReal) := by
  simp [Ideal.ofBits, Ideal.ieee, -EReal.coe_mul]; norm_num

/-- The single-precision pattern of 1.0 denotes 1. -/
theorem ofBits_one : Ideal.ofBits .f32 0x3F800000#32 = 1 := by
  simp [Ideal.ofBits, Ideal.ieee, -EReal.coe_mul]; norm_num

/-- On the reals: half of one plus the tangent of half the argument is the logistic function. -/
theorem real_half_tanh (r : ℝ) : (1 / 2 : ℝ) * (1 + Real.tanh (1 / 2 * r)) = (1 + Real.exp (-r))⁻¹ := by
  have ha : 0 < Real.exp (1 / 2 * r) := Real.exp_pos _
  have hneg : Real.exp (-(1 / 2 * r)) = (Real.exp (1 / 2 * r))⁻¹ := Real.exp_neg _
  have hr : Real.exp (-r) = (Real.exp (1 / 2 * r))⁻¹ * (Real.exp (1 / 2 * r))⁻¹ := by
    rw [← hneg, ← Real.exp_add]; congr 1; ring
  rw [Real.tanh_eq_sinh_div_cosh, Real.sinh_eq, Real.cosh_eq, hneg, hr]
  generalize Real.exp (1 / 2 * r) = a at ha
  have h0 : a ≠ 0 := ha.ne'
  have h1 : a + a⁻¹ ≠ 0 := by positivity
  have h2 : 1 + a⁻¹ * a⁻¹ ≠ 0 := by positivity
  field_simp
  ring

/-- On the extended reals, infinities included. -/
theorem half_tanh_eq_logistic (z : EReal) :
    ((1 / 2 : ℝ) : EReal) * (1 + Ideal.tanh (((1 / 2 : ℝ) : EReal) * z)) = Ideal.logistic z := by
  induction z using EReal.rec with
  | bot =>
    rw [EReal.coe_mul_bot_of_pos (by norm_num), Ideal.tanh_bot, Ideal.logistic_bot]
    have h : (1 : EReal) + -1 = 0 := by
      rw [← EReal.coe_one, ← EReal.coe_neg, ← EReal.coe_add, add_neg_cancel, EReal.coe_zero]
    rw [h, mul_zero]
  | coe r =>
    rw [← EReal.coe_mul, Ideal.tanh_coe, Ideal.logistic_coe, ← EReal.coe_one, ← EReal.coe_add, ← EReal.coe_mul,
      real_half_tanh]
  | top =>
    rw [EReal.coe_mul_top_of_pos (by norm_num), Ideal.tanh_top, Ideal.logistic_top, ← EReal.coe_one, ← EReal.coe_add,
      ← EReal.coe_mul]
    norm_num

/-- The tangent spelling over the bit patterns a program writes the two constants with. -/
theorem half_tanh_bits (z : EReal) :
    Ideal.ofBits .f32 0x3F000000#32 * (Ideal.ofBits .f32 0x3F800000#32 + Ideal.tanh (Ideal.ofBits .f32 0x3F000000#32 * z))
      = Ideal.logistic z := by
  rw [ofBits_half, ofBits_one, half_tanh_eq_logistic]

/-- The quotient spelling `1 / (1 + e^(-z))` over the bit pattern a program writes the constant with. -/
theorem quotient_bits (z : EReal) :
    Ideal.div (Ideal.ofBits .f32 0x3F800000#32) (Ideal.ofBits .f32 0x3F800000#32 + Ideal.exp (-z)) = Ideal.logistic z := by
  rw [ofBits_one]
  rfl

end Cert.LogisticTanh

end
-- ==== Proof.RefReadout.lean ====
/-
  The reference's read-out, entry by entry.

  The three chains' [10000, 16] tables are joined side by side into a [10000, 48] array and clamped at zero: column
  off + k of the clamped array, for off = 0, 16, 32, is the specification's `act` of chain 1, 2, 3 at column k.  The
  product with the [48, 64] read-out weight is, at (i, j), one sum over the 48 joined columns; a sum over 48 consecutive
  columns is the sum of its three runs of 16 (only commutativity and associativity of addition are used, so nothing
  need be finite), and each run is the specification's `share` of one chain.  Adding the read-out bias gives `pre`, and
  1 / (1 + exp(-z)) is the logistic function of z on every extended real.
-/
import proofs.«168879_g60241211293926_cont_9to1_m_960_5_alg».proof.Proof.RefTables
import proofs.«168879_g60241211293926_cont_9to1_m_960_5_alg».proof.Proof.LibJoin3
import proofs.«168879_g60241211293926_cont_9to1_m_960_5_alg».proof.Proof.LibLogisticTanh

noncomputable section

namespace Cert.ReferenceIdeal.RefValue

open Idealize.ShloMosaic Idealize.ShloMosaic.ValueIdx Cert.ReferenceIdeal Cert.ReferenceIdeal.Gen

/-- A sum over 48 consecutive indices is the sum of its three runs of 16, grouped from the left. -/
theorem sum_thirds (f : Fin 48 → EReal) :
    ∑ e : Fin 48, f e
      = (∑ k : Fin 16, f ⟨0 + k.val, by omega⟩ + ∑ k : Fin 16, f ⟨16 + k.val, by omega⟩)
        + ∑ k : Fin 16, f ⟨32 + k.val, by omega⟩ := by
  have e1 : ∑ e : Fin 48, f e = ∑ k : Fin 16, f (Fin.castAdd 32 k) + ∑ k : Fin 32, f (Fin.natAdd 16 k) :=
    Fin.sum_univ_add (a := 16) (b := 32) f
  have e2 : ∑ k : Fin 32, f (Fin.natAdd 16 k)
      = ∑ k : Fin 16, f (Fin.natAdd 16 (Fin.castAdd 16 k)) + ∑ k : Fin 16, f (Fin.natAdd 16 (Fin.natAdd 16 k)) :=
    Fin.sum_univ_add (a := 16) (b := 16) (fun k => f (Fin.natAdd 16 k))
  rw [e1, e2, ← add_assoc]
  refine congrArg₂ (· + ·) (congrArg₂ (· + ·) ?_ ?_) ?_
  · exact Finset.sum_congr rfl fun k _ => congrArg f (Fin.ext (by show k.val = 0 + k.val; omega))
  · exact Finset.sum_congr rfl fun k _ => congrArg f (Fin.ext (by show 16 + k.val = 16 + k.val; rfl))
  · exact Finset.sum_congr rfl fun k _ => congrArg f (Fin.ext (by show 16 + (16 + k.val) = 32 + k.val; omega))

/-- The read-out product contracts the joined array's second axis with the weight's first. -/
theorem plain_fc : Cert.RowOps.IsPlain dot_S10000x48_S48x64_S10000x64_1_0_0_1_n_n := ⟨rfl, rfl, rfl, rfl, rfl, rfl⟩

/-- The read-out bias laid out as a row and repeated over the nodes reads, at (i, j), the bias at j. -/
theorem rowbias_read (b : FVec Ideal S64 .f32) (i : Fin 10000) (j : Fin 64) :
    Read.val_main_v22 (F := Ideal) b (ix2 i j) = b (ix1 j) :=
  (Cert.HostRowOps.rowToMat_apply _ bcast_S1x64_S10000x64_0_1 i j).trans
    (Cert.HostRowOps.vecToRow_apply b bcast_S64_S1x64_1 0 j)

variable (x : FVec Ideal S10000x256 .f32) (adj : FVec Ideal S10000x10000 .f32)
  (W1 : FVec Ideal S256x16 .f32) (b1 : FVec Ideal S16 .f32)
  (W2 : FVec Ideal S256x16 .f32) (b2 : FVec Ideal S16 .f32)
  (W3 : FVec Ideal S256x16 .f32) (b3 : FVec Ideal S16 .f32)
  (Wfc : FVec Ideal S48x64 .f32) (bfc : FVec Ideal S64 .f32)

/-- The clamp: the joined array against a zero constant repeated over it. -/
theorem clamp_read (j : S10000x48.Idx) :
    Read.val_main_v19 (F := Ideal) x adj W1 b1 W2 b2 W3 b3 j
      = max (Read.val_main_v18 (F := Ideal) x adj W1 b1 W2 b2 W3 b3 j) 0 := by
  rw [Read.val_main_v19_apply, Read.val_main_call0_v0_apply, Read.val_main_call0_cst_apply, Ideal.maximumf_def,
    Ideal.ofBits_def, Ideal.ofBits_zero_f32]

/-- Columns 0 to 15 of the clamped joined array are the first chain's clamped table. -/
theorem joined1_read (i : Fin 10000) (k : Fin 16) (e : Fin 48) (he : e.val = k.val) :
    Read.val_main_v19 (F := Ideal) x adj W1 b1 W2 b2 W3 b3 (ix2 i e) = Cert.Ngcn.act (Cert.Ngcn.h1 x adj W1) b1 i k := by
  rw [clamp_read]
  unfold Cert.Ngcn.act Read.val_main_v18
  exact congrArg (max · 0)
    ((Cert.Join3.left _ _ _ concatenates_S10000x16_S10000x16_S10000x16_S10000x48_d1 i e k he).trans
      (chain1_read x adj W1 b1 i k))

/-- Columns 16 to 31 are the second chain's. -/
theorem joined2_read (i : Fin 10000) (k : Fin 16) (e : Fin 48) (he : e.val = 16 + k.val) :
    Read.val_main_v19 (F := Ideal) x adj W1 b1 W2 b2 W3 b3 (ix2 i e) = Cert.Ngcn.act (Cert.Ngcn.h2 x adj W2) b2 i k := by
  rw [clamp_read]
  unfold Cert.Ngcn.act Read.val_main_v18
  exact congrArg (max · 0)
    ((Cert.Join3.mid _ _ _ concatenates_S10000x16_S10000x16_S10000x16_S10000x48_d1 i e k he).trans
      (chain2_read x adj W2 b2 i k))

/-- Columns 32 to 47 are the third chain's. -/
theorem joined3_read (i : Fin 10000) (k : Fin 16) (e : Fin 48) (he : e.val = 32 + k.val) :
    Read.val_main_v19 (F := Ideal) x adj W1 b1 W2 b2 W3 b3 (ix2 i e) = Cert.Ngcn.act (Cert.Ngcn.h3 x adj W3) b3 i k := by
  rw [clamp_read]
  unfold Cert.Ngcn.act Read.val_main_v18
  exact congrArg (max · 0)
    ((Cert.Join3.right _ _ _ concatenates_S10000x16_S10000x16_S10000x16_S10000x48_d1 i e k (by omega)).trans
      (chain3_read x adj W3 b3 i k))

/-- The read-out before the logistic function, at (i, j): the specification's `pre`. -/
theorem readout_read (i : Fin 10000) (j : Fin 64) :
    Read.val_main_v23 (F := Ideal) x adj W1 b1 W2 b2 W3 b3 Wfc bfc (ix2 i j)
      = Cert.Ngcn.pre x adj W1 b1 W2 b2 W3 b3 Wfc bfc i j := by
  rw [Read.val_main_v23_apply, Ideal.addf_def]
  unfold Cert.Ngcn.pre Cert.Ngcn.share Read.val_main_v20
  refine congrArg₂ (· + ·) ?_ (rowbias_read bfc i j)
  refine (Cert.HostRowOps.dot_apply plain_fc none _ Wfc i j).trans ?_
  refine (sum_thirds _).trans ?_
  refine congrArg₂ (· + ·) (congrArg₂ (· + ·) ?_ ?_) ?_
  · exact Finset.sum_congr rfl fun k _ =>
      congrArg (· * Wfc (ix2 (⟨0 + k.val, by omega⟩ : Fin 48) j))
        (joined1_read x adj W1 b1 W2 b2 W3 b3 i k ⟨0 + k.val, by omega⟩ (Nat.zero_add _))
  · exact Finset.sum_congr rfl fun k _ =>
      congrArg (· * Wfc (ix2 (⟨16 + k.val, by omega⟩ : Fin 48) j))
        (joined2_read x adj W1 b1 W2 b2 W3 b3 i k ⟨16 + k.val, by omega⟩ rfl)
  · exact Finset.sum_congr rfl fun k _ =>
      congrArg (· * Wfc (ix2 (⟨32 + k.val, by omega⟩ : Fin 48) j))
        (joined3_read x adj W1 b1 W2 b2 W3 b3 i k ⟨32 + k.val, by omega⟩ rfl)

/-- The last five operations spell the logistic function of the read-out. -/
theorem logistic_read (j : S10000x64.Idx) :
    Read.val_main_v29 (F := Ideal) x adj W1 b1 W2 b2 W3 b3 Wfc bfc j
      = Ideal.logistic (Read.val_main_v23 (F := Ideal) x adj W1 b1 W2 b2 W3 b3 Wfc bfc j) := by
  rw [Read.val_main_v29_apply, Read.val_main_v28_apply, Read.val_main_cst_0_apply, Read.val_main_v27_apply,
    Read.val_main_v26_apply, Read.val_main_cst_apply, Read.val_main_v25_apply, Read.val_main_v24_apply,
    Ideal.hostDivf_def, Ideal.ofBits_def, Ideal.addf_def, Ideal.hostUnary_exp_def, Ideal.hostNegf_def, Ideal.negf_def]
  exact Cert.LogisticTanh.quotient_bits _

/-- The reference's last stage is the specification's result. -/
theorem stage_eq :
    Read.val_main_v29 (F := Ideal) x adj W1 b1 W2 b2 W3 b3 Wfc bfc = Cert.Ngcn.out x adj W1 b1 W2 b2 W3 b3 Wfc bfc := by
  funext j
  obtain ⟨p, q, rfl⟩ : ∃ (p : Fin 10000) (q : Fin 64), j = ix2 p q := ⟨j 0, j 1, eq_ix2 j⟩
  rw [Cert.Ngcn.out_ix2, logistic_read, readout_read]

end Cert.ReferenceIdeal.RefValue

end
-- ==== Proof.RefRun.lean ====
/-
  The reference's run with its result stated as the specification's.

  Every weakly fair execution of the reference terminates with its result array at the composed term of its 34
  operations of the ten argument arrays, the arguments unchanged.  That term is the last stage of the operation-by-
  operation reading, which is the specification's `out` of the same ten arrays, entry by entry: the run's result is
  therefore `out` of the arguments as the run found them.  Dropping the result leaves the frame claim.
-/
import proofs.«168879_g60241211293926_cont_9to1_m_960_5_alg».proof.Defs
import proofs.«168879_g60241211293926_cont_9to1_m_960_5_alg».proof.Proof.Gen.Pre_finite_inputs
import proofs.«168879_g60241211293926_cont_9to1_m_960_5_alg».proof.Proof.RefReadout

noncomputable section

open Idealize.ShloMosaic Idealize.ShloMosaic.TcCoe Idealize.SL.Sem

namespace Cert.ReferenceIdeal.RefValue

open Idealize.ShloMosaic.ValueIdx Cert.ReferenceIdeal Cert.ReferenceIdeal.Gen

/-- The reference run's result term, as a function of the ten argument arrays, is the specification's result. -/
theorem result_eq (x : FVec Ideal S10000x256 .f32) (adj : FVec Ideal S10000x10000 .f32)
    (W1 : FVec Ideal S256x16 .f32) (b1 : FVec Ideal S16 .f32) (W2 : FVec Ideal S256x16 .f32) (b2 : FVec Ideal S16 .f32)
    (W3 : FVec Ideal S256x16 .f32) (b3 : FVec Ideal S16 .f32) (Wfc : FVec Ideal S48x64 .f32) (bfc : FVec Ideal S64 .f32) :
    Host.divf (F := Ideal) (broadcastInDim S10000x64 ![] bcast_S_S10000x64 (constant (F := Ideal) S_ .f32 0x3F800000#32)) (addf (broadcastInDim S10000x64 ![] bcast_S_S10000x64 (constant (F := Ideal) S_ .f32 0x3F800000#32)) (Host.exp (F := Ideal) (Host.negf (F := Ideal) (addf (Host.dotGeneral (F := Ideal) dot_S10000x48_S48x64_S10000x64_1_0_0_1_n_n none (maximumf (concatenate S10000x48 1 [⟨S10000x16, (addf (Host.dotGeneral (F := Ideal) dot_S10000x10000_S10000x16_S10000x16_1_0_0_1_n_n none adj (Host.dotGeneral (F := Ideal) dot_S10000x256_S256x16_S10000x16_1_0_0_1_n_n none x W1)) (broadcastInDim S10000x16 ![0, 1] bcast_S1x16_S10000x16_0_1 (broadcastInDim S1x16 ![1] bcast_S16_S1x16_1 b1)))⟩, ⟨S10000x16, (addf (Host.dotGeneral (F := Ideal) dot_S10000x10000_S10000x16_S10000x16_1_0_0_1_n_n none adj (Host.dotGeneral (F := Ideal) dot_S10000x10000_S10000x16_S10000x16_1_0_0_1_n_n none adj (Host.dotGeneral (F := Ideal) dot_S10000x256_S256x16_S10000x16_1_0_0_1_n_n none x W2))) (broadcastInDim S10000x16 ![0, 1] bcast_S1x16_S10000x16_0_1 (broadcastInDim S1x16 ![1] bcast_S16_S1x16_1 b2)))⟩, ⟨S10000x16, (addf (Host.dotGeneral (F := Ideal) dot_S10000x10000_S10000x16_S10000x16_1_0_0_1_n_n none adj (Host.dotGeneral (F := Ideal) dot_S10000x10000_S10000x16_S10000x16_1_0_0_1_n_n none adj (Host.dotGeneral (F := Ideal) dot_S10000x10000_S10000x16_S10000x16_1_0_0_1_n_n none adj (Host.dotGeneral (F := Ideal) dot_S10000x256_S256x16_S10000x16_1_0_0_1_n_n none x W3)))) (broadcastInDim S10000x16 ![0, 1] bcast_S1x16_S10000x16_0_1 (broadcastInDim S1x16 ![1] bcast_S16_S1x16_1 b3)))⟩] concatenates_S10000x16_S10000x16_S10000x16_S10000x48_d1) (broadcastInDim S10000x48 ![] bcast_S_S10000x48 (constant (F := Ideal) S_ .f32 0x00000000#32))) Wfc) (broadcastInDim S10000x64 ![0, 1] bcast_S1x64_S10000x64_0_1 (broadcastInDim S1x64 ![1] bcast_S64_S1x64_1 bfc))))))
      = Cert.Ngcn.out x adj W1 b1 W2 b2 W3 b3 Wfc bfc :=
  (Read.val_main_v29_eq (F := Ideal) x adj W1 b1 W2 b2 W3 b3 Wfc bfc).trans (stage_eq x adj W1 b1 W2 b2 W3 b3 Wfc bfc)

/-- Every weakly fair execution of the reference terminates, its result the specification's `out` of the argument
    arrays, the arguments unchanged. -/
theorem run_spec (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v29)
          = Cert.Ngcn.out
            (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
            (m ((c.tc : Thread Cert.ReferenceIdeal.nD Cert.ReferenceIdeal.τ).loc Cert.ReferenceIdeal.main_arg7))
            (m ((c.tc : Thread Cert.ReferenceIdeal.nD Cert.ReferenceIdeal.τ).loc Cert.ReferenceIdeal.main_arg8))
            (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  (θ_run Cert.ReferenceIdeal.defs _ _).mono
    (fun _ h c => ⟨(h c).1.trans (result_eq _ _ _ _ _ _ _ _ _ _), (h c).2⟩)
    (Cert.ReferenceIdeal.Value.run (F := Ideal) m ρ)

/-- The reference runs to the end, faults nowhere and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate's five claims.

  The kernel streams the dense adjacency three times instead of six: it joins the three chains' weights into one
  [256, 48] array, multiplies the features by it once, and propagates the joined table, dropping a third of its
  columns after each step; the last region fuses the third chain's last step with the bias rows, the clamp at zero,
  the read-out and the logistic function.  On the extended reals every entry of its result is the same expression as
  the reference's: a column of a product depends on that column of the right factor alone, a change of float format
  is the identity, the read-out's sum over 48 columns is its three 16-column shares added in order, and the logistic
  function is 1 / (1 + exp(−z)).

  Frames: the program is seven segments (stretches of host operations and four pipelined regions); each region's body
  is run once on symbolic staging buffers, and the launch theorem for a list of segments gives termination, no fault
  and, at the end, every unscoped buffer at the contents obtained by folding the segments over the launch memory —
  for the word-level program and for its idealization alike, the two texts being the same.  An argument array is
  written by no stretch and is no region's output.  The reference is straight-line host code.  The idealization
  rewrote no operation, so there is nothing to preserve beyond the text read at the extended reals.
-/
import proofs.«168879_g60241211293926_cont_9to1_m_960_5_alg».proof.Defs
import proofs.«168879_g60241211293926_cont_9to1_m_960_5_alg».proof.Proof.Gen.Kernel
import proofs.«168879_g60241211293926_cont_9to1_m_960_5_alg».proof.Proof.Gen.KernelIdeal
import proofs.«168879_g60241211293926_cont_9to1_m_960_5_alg».proof.Proof.Gen.ReferenceIdeal
import proofs.«168879_g60241211293926_cont_9to1_m_960_5_alg».proof.Proof.Gen.Pre_finite_inputs
import proofs.«168879_g60241211293926_cont_9to1_m_960_5_alg».proof.Proof.KbRun
import proofs.«168879_g60241211293926_cont_9to1_m_960_5_alg».proof.Proof.KiBridge
import proofs.«168879_g60241211293926_cont_9to1_m_960_5_alg».proof.Proof.RefRun
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Frame.frame (F := Bits) m ρ

theorem frame_pi : Cert.frame_KernelIdeal := fun m ρ _ => Cert.KernelIdeal.Frame.frame (F := Ideal) m ρ

theorem frame_ri : Cert.frame_ReferenceIdeal := Cert.ReferenceIdeal.RefValue.frame_ri

theorem preserves : Cert.preserves_Kernel_KernelIdeal := trivial

/-- Both idealized programs, from memories agreeing on the ten arguments, end with the specification's result of those
    arguments. -/
theorem algebraic : Cert.algebraic_KernelIdeal_ReferenceIdeal := by
  intro m ρ m' ρ' _ hagree
  refine ⟨fun c => Cert.Ngcn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.Value.run_spec m ρ, ?_⟩
  refine (θ_run Cert.ReferenceIdeal.defs _ _).mono (fun _ h c => ⟨(h c).1.trans ?_, (h c).2⟩)
    (Cert.ReferenceIdeal.RefValue.run_spec m' ρ')
  obtain ⟨e0, e1, e2, e3, e4, e5, e6, e7, e8, e9⟩ := hagree c
  rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
